-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S256x128 : Shape := ⟨2, ![256, 128]⟩
abbrev S256 : Shape := ⟨1, ![256]⟩
abbrev S1x256 : Shape := ⟨2, ![1, 256]⟩
abbrev S128x256 : Shape := ⟨2, ![128, 256]⟩
abbrev S50000x256 : Shape := ⟨2, ![50000, 256]⟩
abbrev S5000x128 : Shape := ⟨2, ![5000, 128]⟩
abbrev S5000x256 : Shape := ⟨2, ![5000, 256]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 49
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S256x128, .f32⟩
  | .hbm, ⟨10, _⟩ => ⟨S256, .f32⟩
  | .hbm, ⟨11, _⟩ => ⟨S1x256, .f32⟩
  | .hbm, ⟨12, _⟩ => ⟨S128x256, .f32⟩
  | .hbm, ⟨13, _⟩ => ⟨S50000x256, .f32⟩
  | .hbm, ⟨14, _⟩ => ⟨S50000x128, .f32⟩
  | .hbm, ⟨15, _⟩ => ⟨S50000x128, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S1600000x1, .f32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S50000x128, .f32⟩
  | .hbm, ⟨34, _⟩ => ⟨S1600000x1, .i32⟩
  | .hbm, ⟨35, _⟩ => ⟨S50000x128, .f32⟩
  | .hbm, ⟨36, _⟩ => ⟨S1x128, .f32⟩
  | .hbm, ⟨37, _⟩ => ⟨S1x128, .f32⟩
  | .hbm, ⟨38, _⟩ => ⟨S_, .f32⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S1x128, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x256, .f32⟩
  | .local _ .vmem, ⟨3, _⟩ => ⟨S1x256, .f32⟩
  | .local _ .vmem, ⟨4, _⟩ => ⟨S5000x256, .f32⟩
  | .local _ .vmem, ⟨5, _⟩ => ⟨S5000x256, .f32⟩
  | .local _ .vmem, ⟨6, _⟩ => ⟨S5000x128, .f32⟩
  | .local _ .vmem, ⟨7, _⟩ => ⟨S5000x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24_0 : Ref sig .tc := ⟨.hbm, 36, rfl⟩
abbrev main_v24_1 : Ref sig .tc := ⟨.hbm, 37, rfl⟩
abbrev main_cst_1 : Ref sig .tc := ⟨.hbm, 38, rfl⟩
abbrev main_v25 : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc2_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem6_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def k1_cond2 (i : grid1.Coords) : BitVec 1 :=
  let arg0 : BitVec 32 := BitVec.ofNat 32 (i 0).val
  let c9_i32 : BitVec 32 := 9#32
  let v20 : BitVec 1 := Scalar.cmpi .eq arg0 c9_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  concatenates_S128x128_S128x128_S256x128_d0 : Shape.Concatenates [S128x128, S128x128] S256x128 0
  concatenates_S128_S128_S256_d0 : Shape.Concatenates [S128, S128] S256 0
  shapeCasts_S256_S1x256 : S256.ShapeCasts S1x256
  transposes_S256x128_S128x256_1_0 : S256x128.Transposes [1, 0] S128x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  slices_S50000x256_S50000x128_0_0 : S50000x256.Slices ![0, 0] S50000x128
  slices_S50000x256_S50000x128_0_128 : S50000x256.Slices ![0, 128] S50000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S5000x128_S5000x128 : S5000x128.ShapeCasts S5000x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  dot_S5000x128_S128x256_S5000x256_1_0_0_1_n_n_wf : DotDims.WF S5000x128 S128x256 S5000x256 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v23) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v6) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v26) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v30) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v33) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S1x128 : Shape := ⟨2, ![1, 128]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128x128, .f32⟩
  | .hbm, ⟨10, _⟩ => ⟨S50000x128, .f32⟩
  | .hbm, ⟨11, _⟩ => ⟨S1x128, .f32⟩
  | .hbm, ⟨12, _⟩ => ⟨S50000x128, .f32⟩
  | .hbm, ⟨13, _⟩ => ⟨S50000x128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x128, .f32⟩
  | .hbm, ⟨27, _⟩ => ⟨S1600000x1, .f32⟩
  | .hbm, ⟨28, _⟩ => ⟨S1600000x128, .f32⟩
  | .hbm, ⟨29, _⟩ => ⟨S1600000x128, .f32⟩
  | .hbm, ⟨30, _⟩ => ⟨S_, .f32⟩
  | .hbm, ⟨31, _⟩ => ⟨S50000x128, .f32⟩
  | .hbm, ⟨32, _⟩ => ⟨S1600000x1, .i32⟩
  | .hbm, ⟨33, _⟩ => ⟨S50000x128, .f32⟩
  | .hbm, ⟨34, _⟩ => ⟨S_, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S_, .i32⟩
  | .hbm, ⟨40, _⟩ => ⟨S_, .f32⟩
  | .hbm, ⟨41, _⟩ => ⟨S128, .f32⟩
  | .hbm, ⟨42, _⟩ => ⟨S1x128, .f32⟩
  | .hbm, ⟨43, _⟩ => ⟨S_, .f32⟩
  | .hbm, ⟨44, _⟩ => ⟨S1x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S128, .f32⟩
  | .hbm, ⟨56, _⟩ => ⟨S_, .f32⟩
  | .hbm, ⟨57, _⟩ => ⟨S_, .i1⟩
  | .hbm, ⟨58, _⟩ => ⟨S_, .f32⟩
  | .hbm, ⟨59, _⟩ => ⟨S_, .f32⟩
  | .hbm, ⟨60, _⟩ => ⟨S128, .f32⟩
  | .hbm, ⟨61, _⟩ => ⟨S128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S1x128, .f32⟩
  | .hbm, ⟨73, _⟩ => ⟨S50000x128, .f32⟩
  | .hbm, ⟨74, _⟩ => ⟨S50000x128, .f32⟩
  | .hbm, ⟨75, _⟩ => ⟨S1x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S50000x128, .f32⟩
  | .hbm, ⟨80, _⟩ => ⟨S50000x128, .f32⟩
  | .hbm, ⟨81, _⟩ => ⟨S128x128, .f32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_cst_2 : Ref sig .tc := ⟨.hbm, 36, rfl⟩
abbrev main_v23 : Ref sig .tc := ⟨.hbm, 37, rfl⟩
abbrev main_v24 : Ref sig .tc := ⟨.hbm, 38, rfl⟩
abbrev main_c_3 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_cst_0 : Ref sig .tc := ⟨.hbm, 43, rfl⟩
abbrev main_call0_v2 : Ref sig .tc := ⟨.hbm, 44, rfl⟩
abbrev main_call0_v3 : Ref sig .tc := ⟨.hbm, 45, rfl⟩
abbrev main_call0_v4 : Ref sig .tc := ⟨.hbm, 46, rfl⟩
abbrev main_call0_v5 : Ref sig .tc := ⟨.hbm, 47, rfl⟩
abbrev main_call0_v6 : Ref sig .tc := ⟨.hbm, 48, rfl⟩
abbrev main_call0_v7 : Ref sig .tc := ⟨.hbm, 49, rfl⟩
abbrev main_call0_cst_1 : Ref sig .tc := ⟨.hbm, 50, rfl⟩
abbrev main_call0_v8 : Ref sig .tc := ⟨.hbm, 51, rfl⟩
abbrev main_call0_cst_2 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_cst_3 : Ref sig .tc := ⟨.hbm, 56, rfl⟩
abbrev main_call0_v12 : Ref sig .tc := ⟨.hbm, 57, rfl⟩
abbrev main_call0_cst_4 : Ref sig .tc := ⟨.hbm, 58, rfl⟩
abbrev main_call0_call0_v0 : Ref sig .tc := ⟨.hbm, 59, rfl⟩
abbrev main_call0_call0_v1 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_cst_4 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_call1_cst : Ref sig .tc := ⟨.hbm, 78, rfl⟩
abbrev main_call1_v0 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  dot_S50000x128_S128x128_S50000x128_1_0_0_1_n_n_wf : DotDims.WF S50000x128 S128x128 S50000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf

class Facts : Prop extends Facts₀ where

variable [Facts]
-- ==== Proof.K_Region0.lean ====
/-
  The first kernel region: one row tile of the fused linear layer per grid point. At point t the body reads a
  5000 × 128 tile of x, the whole 128 × 256 weight matrix and the 1 × 256 bias row, and stores
  tile · weights + bias (spread over the rows) into the 5000 × 256 output tile.
-/
import proofs.«116431_j21079699489214_1_alg».proof.Proof.Gen.Kernel.Launch
import proofs.«116431_j21079699489214_1_alg».proof.Proof.Gen.Kernel.Skeleton
import proofs.«116431_j21079699489214_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rx0 : Rect S5000x128 := Rect.unit (s := S5000x128) ![0, 0] S5000x128.size inb_S5000x128_S5000x128_0_0
abbrev rw0 : Rect S128x256 := Rect.unit (s := S128x256) ![0, 0] S128x256.size inb_S128x256_S128x256_0_0
abbrev rb0 : Rect S1x256 := Rect.unit (s := S1x256) ![0, 0] S1x256.size inb_S1x256_S1x256_0_0
abbrev ro0 : Rect S5000x256 := Rect.unit (s := S5000x256) ![0, 0] S5000x256.size inb_S5000x256_S5000x256_0_0

/-- The output tile after the body, from the three input blocks: its one whole-tile store. -/
def out0_3 (x0 : Vec F S5000x128 .f32) (x1 : Vec F S128x256 .f32) (x2 : Vec F S1x256 .f32) : Vec F S5000x256 .f32 :=
  View.canon [⟨ro0, k0_pay1 (View.ld x0 rx0) (View.ld x1 rw0) (View.ld x2 rb0)⟩]

/-! ## The input windows' current buffers

Each input window's current staging buffer holds its block at every point, whether the pipeline fetched it there or
not: where it did not, the block index has not moved, and the body left the block in place. Stated for any proof data
whose array is the entry contents and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one whole-tile store covers the output buffer. -/
theorem cover0_3 (p0 : Vec F S5000x256 .f32) (y : S5000x256.Idx) :
    ∃ pc ∈ ([⟨ro0, p0⟩] : List (View.Piece (Elt F) S5000x256 .f32)), y ∈ pc.1.set :=
  View.cover_of_tiled [⟨ro0, p0⟩] S5000x256.size (by rfl) y

set_option maxHeartbeats 1000000 in
/-- The body on whole staging memrefs, the inputs' at read contents x0, x1, x2 and the output's at anything, runs to
    the continuation holding the inputs' as they were and the output's at out0_3 of the inputs'. -/
theorem sound_kernel0 (c : Dev nD) (E : Set ℕ) (i : grid0.Coords)
    (arg1 : Memref sig .tc .vmem S5000x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S5000x256 .f32) (harg4 : arg4.IsWhole)
    (x0 : Vec F S5000x128 .f32) (x1 : Vec F S128x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core c: the arrays as the region finds them; after the body at point t each input
    buffer at its block and the output buffer at out0_3 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (fun t => by dsimp only [dat0]) t d
theorem before0_1 (c : Dev nD) (t : Fin cfg0.N) (d) : (dat0 V c).before 1 t d = iblk0 V c 1 t :=
  before0_1_of V (dat0 V c) (A_eq0 V c 1) (fun t => by dsimp only [dat0]) t d
theorem before0_2 (c : Dev nD) (t : Fin cfg0.N) (d) : (dat0 V c).before 2 t d = iblk0 V c 2 t :=
  before0_2_of V (dat0 V c) (A_eq0 V c 2) (fun t => by dsimp only [dat0]) t d

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K_Region1.lean ====
/-
  The second kernel region: the column sums and column sums of squares of the aggregated array, accumulated over
  the ten row tiles in two 1 × 128 scratch rows that live across grid points. At the first point the body zeroes
  both scratch rows; at every point it adds the tile's column sums (of the entries, and of their squares) to them;
  at the last point it copies the two scratch rows to the two 1 × 128 outputs.

  The scratch rows after n points are named by recursion on n (`acc1`): the zero rows for n = 0, and after point
  t the rows before it with the column sums of tile t added. The invariant between points holds the generator
  register, every scoped buffer other than the two scratch rows at some contents, and the two scratch rows: at
  any contents before the first point (the body overwrites them there before reading), at `acc1 t` before
  point t ≥ 1. The body is run once per control case (first point, middle points, last point) on arbitrary
  whole memrefs and arbitrary contents, and the obligation at a point is the case's run at that point's values.
-/
import proofs.«116431_j21079699489214_1_alg».proof.Proof.Gen.Kernel.Launch
import proofs.«116431_j21079699489214_1_alg».proof.Proof.Gen.Kernel.Skeleton
import proofs.«116431_j21079699489214_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, case by case -/

set_option maxHeartbeats 1000000 in
/-- The condition of the body's first conditional (zero the scratch rows), from the grid coordinates. -/
abbrev cond1_0 (i : grid1.Coords) : Prop := (Scalar.cmpi .ne (Scalar.extui (Scalar.cmpi .eq (BitVec.ofNat 32 (i 0).val) 0#32)) 0#32) = 1#1
/-- The condition of its second (copy the scratch rows out). -/
abbrev cond1_1 (i : grid1.Coords) : Prop := k1_cond2 i = 1#1

/-- Both offsets zero. -/
theorem hz2 : (![0, 0] : Fin 2 → Nat) = fun _ => 0 := funext fun a => by fin_cases a <;> rfl

/-- A whole-shape load of a whole memref reads its contents. -/
theorem load_whole {S : Shape} (hr : S.rank = 2) {m : Memref sig .tc .vmem S .f32} (h : m.IsWhole) (off : Fin S.rank → Nat) (hoff : off = fun _ => 0)
    (inb : ∀ a, off a + S.size a ≤ S.size a) (X : S.Idx → Elt F .f32) :
    View.readAt (Elt F) m.view (Rect.unit off S.size inb).toLoadRect (h.unread X) = X := by
  rw [View.readAt_eq_ld, h.read_unread, View.ld_unit_zero hoff]

/-- After a whole-shape store, whatever came before, the memref reads the stored payload. -/
theorem read_store_whole {S : Shape} (v : View sig .tc .vmem S .f32) (f : v.ty.Contents (Elt F)) (off : Fin S.rank → Nat) (hoff : off = fun _ => 0)
    (inb : ∀ a, off a + S.size a ≤ S.size a) (w : S.Idx → Elt F .f32) (L : List (View.Piece (Elt F) S .f32)) :
    v.read (Elt F) (v.writes (Elt F) f (⟨Rect.unit off S.size inb, w⟩ :: L)) = w := by
  rw [View.read_writes_eq_canon _ _ _ (fun y => ⟨_, List.mem_cons_self, View.mem_set_unit_zero hoff inb y⟩), View.canon_cons_unit_zero hoff]

/-- The first holds at the first point only, -/
theorem hcond1_0 : ∀ t : Fin cfg1.N, cond1_0 (grid1.coords t) ↔ t.val = 0 :=
  (by decide +kernel : ∀ t : Fin grid1.N, cond1_0 (grid1.coords t) ↔ t.val = 0)
/-- the second at the last point only. -/
theorem hcond1_1 : ∀ t : Fin cfg1.N, cond1_1 (grid1.coords t) ↔ t.val = 9 :=
  (by decide +kernel : ∀ t : Fin grid1.N, cond1_1 (grid1.coords t) ↔ t.val = 9)

/-- The input window is never idle. -/
theorem liveAt1_0 : ∀ t : Fin cfg1.N, cfg1.idle 0 (grid1.coords t) = false := by decide +kernel
/-- Away from the last point the two outputs are idle and not written back; -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- at the last point they are live. -/
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-- THE FIRST POINT (the scratch rows zeroed, then the tile's column sums added; nothing copied out): on whole memrefs, the tile at x, the outputs' buffers and the scratch rows at anything, the body leaves the tile and the outputs' buffers as they were and the scratch rows at the tile's column sums added to the zero rows. -/
theorem run_A (c : Dev nD) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (hc0 : cond1_0 i) (hc1 : ¬cond1_1 i) (x : Vec F S5000x128 .f32) (y1 y2 s s' : Vec F S1x128 .f32) :
    ∀ (E : Set ℕ) (K : PUnit → sProp 𝕄),
      iprop(owns (c : Thread nD τ) arg1 fullShare x ∗ owns (c : Thread nD τ) arg2 fullShare y1 ∗ owns (c : Thread nD τ) arg3 fullShare y2
          ∗ owns (c : Thread nD τ) arg4 fullShare s ∗ owns (c : Thread nD τ) arg5 fullShare s'
          ∗ (iprop(owns (c : Thread nD τ) arg1 fullShare x ∗ owns (c : Thread nD τ) arg2 fullShare y1 ∗ owns (c : Thread nD τ) arg3 fullShare y2 ∗ owns (c : Thread nD τ) arg4 fullShare (k1_pay4 x k1_pay1) ∗ owns (c : Thread nD τ) arg5 fullShare (k1_pay5 x k1_pay2)) -∗ K ⟨⟩))
        ⊢ wp frame (wpE (defs₀ (F := F)) Variants.none c none) E (cc1__reduce_kernel i arg1 harg1 arg2 harg2 arg3 harg3 arg4 harg4 arg5 harg5) K := by
  intro E K
  simp only [cc1__reduce_kernel_eq_skeleton]; unfold cc1__reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; swap; · iexact H1
    ipureintro
    exact hf1
  isplitl [H2]
  · iexists _; isplitr; swap; · iexact H2
    ipureintro
    exact hf2
  isplitl [H3]
  · iexists _; isplitr; swap; · iexact H3
    ipureintro
    exact hf3
  isplitl [H4]
  · iexists _; isplitr; swap; · iexact H4
    ipureintro
    sl_unfold_run_names
    rw [read_store_whole _ _ _ hz2, load_whole rfl harg1 _ hz2, View.readCov_unit_zero _ hz2]
  iexists _; isplitr; swap; · iexact H5
  ipureintro
  sl_unfold_run_names
  rw [read_store_whole _ _ _ hz2, load_whole rfl harg1 _ hz2, View.readCov_unit_zero _ hz2]

set_option maxHeartbeats 1000000 in
/-- A MIDDLE POINT (neither conditional taken): the scratch rows at s, s' end at the tile's column sums added to them. -/
theorem run_B (c : Dev nD) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (hc0 : ¬cond1_0 i) (hc1 : ¬cond1_1 i) (x : Vec F S5000x128 .f32) (y1 y2 s s' : Vec F S1x128 .f32) :
    ∀ (E : Set ℕ) (K : PUnit → sProp 𝕄),
      iprop(owns (c : Thread nD τ) arg1 fullShare x ∗ owns (c : Thread nD τ) arg2 fullShare y1 ∗ owns (c : Thread nD τ) arg3 fullShare y2
          ∗ owns (c : Thread nD τ) arg4 fullShare s ∗ owns (c : Thread nD τ) arg5 fullShare s'
          ∗ (iprop(owns (c : Thread nD τ) arg1 fullShare x ∗ owns (c : Thread nD τ) arg2 fullShare y1 ∗ owns (c : Thread nD τ) arg3 fullShare y2 ∗ owns (c : Thread nD τ) arg4 fullShare (k1_pay4 x s) ∗ owns (c : Thread nD τ) arg5 fullShare (k1_pay5 x s')) -∗ K ⟨⟩))
        ⊢ wp frame (wpE (defs₀ (F := F)) Variants.none c none) E (cc1__reduce_kernel i arg1 harg1 arg2 harg2 arg3 harg3 arg4 harg4 arg5 harg5) K := by
  intro E K
  simp only [cc1__reduce_kernel_eq_skeleton]; unfold cc1__reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; swap; · iexact H1
    ipureintro
    exact hf1
  isplitl [H2]
  · iexists _; isplitr; swap; · iexact H2
    ipureintro
    exact hf2
  isplitl [H3]
  · iexists _; isplitr; swap; · iexact H3
    ipureintro
    exact hf3
  isplitl [H4]
  · iexists _; isplitr; swap; · iexact H4
    ipureintro
    rw [read_store_whole _ _ _ hz2, load_whole rfl harg1 _ hz2, load_whole rfl harg4 _ hz2]
  iexists _; isplitr; swap; · iexact H5
  ipureintro
  rw [read_store_whole _ _ _ hz2, load_whole rfl harg1 _ hz2, load_whole rfl harg5 _ hz2]

set_option maxHeartbeats 1000000 in
/-- THE LAST POINT (accumulate, then copy out): the scratch rows end as at a middle point, and the two outputs' buffers hold the same rows. -/
theorem run_C (c : Dev nD) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (hc0 : ¬cond1_0 i) (hc1 : cond1_1 i) (x : Vec F S5000x128 .f32) (y1 y2 s s' : Vec F S1x128 .f32) :
    ∀ (E : Set ℕ) (K : PUnit → sProp 𝕄),
      iprop(owns (c : Thread nD τ) arg1 fullShare x ∗ owns (c : Thread nD τ) arg2 fullShare y1 ∗ owns (c : Thread nD τ) arg3 fullShare y2
          ∗ owns (c : Thread nD τ) arg4 fullShare s ∗ owns (c : Thread nD τ) arg5 fullShare s'
          ∗ (iprop(owns (c : Thread nD τ) arg1 fullShare x ∗ owns (c : Thread nD τ) arg2 fullShare (k1_pay4 x s) ∗ owns (c : Thread nD τ) arg3 fullShare (k1_pay5 x s') ∗ owns (c : Thread nD τ) arg4 fullShare (k1_pay4 x s) ∗ owns (c : Thread nD τ) arg5 fullShare (k1_pay5 x s')) -∗ K ⟨⟩))
        ⊢ wp frame (wpE (defs₀ (F := F)) Variants.none c none) E (cc1__reduce_kernel i arg1 harg1 arg2 harg2 arg3 harg3 arg4 harg4 arg5 harg5) K := by
  intro E K
  simp only [cc1__reduce_kernel_eq_skeleton]; unfold cc1__reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; swap; · iexact H1
    ipureintro
    exact hf1
  isplitl [H2]
  · iexists _; isplitr; swap; · iexact H2
    ipureintro
    sl_unfold_run_names
    rw [read_store_whole _ _ _ hz2, View.readCov_unit_zero _ hz2, load_whole rfl harg1 _ hz2, load_whole rfl harg4 _ hz2]
  isplitl [H3]
  · iexists _; isplitr; swap; · iexact H3
    ipureintro
    sl_unfold_run_names
    rw [read_store_whole _ _ _ hz2, View.readCov_unit_zero _ hz2, load_whole rfl harg1 _ hz2, load_whole rfl harg5 _ hz2]
  isplitl [H4]
  · iexists _; isplitr; swap; · iexact H4
    ipureintro
    sl_unfold_run_names
    rw [read_store_whole _ _ _ hz2, load_whole rfl harg1 _ hz2, load_whole rfl harg4 _ hz2]
  iexists _; isplitr; swap; · iexact H5
  ipureintro
  sl_unfold_run_names
  rw [read_store_whole _ _ _ hz2, load_whole rfl harg1 _ hz2, load_whole rfl harg5 _ hz2]

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The running column sums -/

/-- The two scratch rows after the first n grid points: the zero rows the first point stores, then point by point
    the tile's column sums (of the entries; of their squares) added to the row before. -/
def acc1 (c : Dev nD) : ℕ → Vec F S1x128 .f32 × Vec F S1x128 .f32
  | 0 => (k1_pay1, k1_pay2)
  | n + 1 =>
    if h : n < cfg1.N then
      (k1_pay4 (iblk1 V c 0 ⟨n, h⟩) (acc1 c n).1, k1_pay5 (iblk1 V c 0 ⟨n, h⟩) (acc1 c n).2)
    else acc1 c n

theorem acc1_zero (c : Dev nD) : acc1 V c 0 = (k1_pay1, k1_pay2) := rfl

/-- One more point: the tile's column sums added. -/
theorem acc1_succ (c : Dev nD) (t : Fin cfg1.N) :
    acc1 V c (t.val + 1) = (k1_pay4 (iblk1 V c 0 t) (acc1 V c t.val).1, k1_pay5 (iblk1 V c 0 t) (acc1 V c t.val).2) :=
  dif_pos t.isLt

/-! ## The invariant -/

/-- The two scratch rows, whole buffers of the kernel's own. -/
abbrev sc0 : Memref sig .tc .vmem S1x128 .f32 := Memref.whole cc1_scratch0
abbrev sc1 : Memref sig .tc .vmem S1x128 .f32 := Memref.whole cc1_scratch1

/-- The scratch rows before point n: at anything before the first point, at the running sums afterwards. -/
def scr1 (c : Dev nD) (n : ℕ) : sProp 𝕄 :=
  if n = 0 then
    iprop((∃ d, owns (c : Thread nD τ) sc0 fullShare d) ∗ (∃ d, owns (c : Thread nD τ) sc1 fullShare d))
  else
    iprop(owns (c : Thread nD τ) sc0 fullShare (acc1 V c n).1 ∗ owns (c : Thread nD τ) sc1 fullShare (acc1 V c n).2)

/-- The invariant before point n: the generator register, the scoped buffers that are neither staged by the
    region nor its scratch rows, and the scratch rows. -/
def Φ1 (c : Dev nD) (n : ℕ) : sProp 𝕄 :=
  iprop((∃ r, prngReg c r)
    ∗ Pipeline.scopedRestBut (Ix := Unit) (Name := ℕ) (U := UR sig nD τ) (Lvl := ℕ) (Val := Elt F) spec1 c [cc1_scratch0, cc1_scratch1]
    ∗ scr1 V c n)

theorem Φ1_zero (c : Dev nD) (n : ℕ) (h : n = 0) :
    Φ1 V c n = iprop((∃ r, prngReg c r)
      ∗ Pipeline.scopedRestBut (Ix := Unit) (Name := ℕ) (U := UR sig nD τ) (Lvl := ℕ) (Val := Elt F) spec1 c [cc1_scratch0, cc1_scratch1]
      ∗ (∃ d, owns (c : Thread nD τ) sc0 fullShare d) ∗ (∃ d, owns (c : Thread nD τ) sc1 fullShare d)) := by
  unfold Φ1 scr1; rw [if_pos h]

theorem Φ1_pos (c : Dev nD) (n : ℕ) (h : n ≠ 0) :
    Φ1 V c n = iprop((∃ r, prngReg c r)
      ∗ Pipeline.scopedRestBut (Ix := Unit) (Name := ℕ) (U := UR sig nD τ) (Lvl := ℕ) (Val := Elt F) spec1 c [cc1_scratch0, cc1_scratch1]
      ∗ owns (c : Thread nD τ) sc0 fullShare (acc1 V c n).1 ∗ owns (c : Thread nD τ) sc1 fullShare (acc1 V c n).2) := by
  unfold Φ1 scr1; rw [if_neg h]

/-- After point t: the rows before it with the tile's column sums added. -/
theorem Φ1_succ (c : Dev nD) (t : Fin cfg1.N) :
    Φ1 V c (t.val + 1) = iprop((∃ r, prngReg c r)
      ∗ Pipeline.scopedRestBut (Ix := Unit) (Name := ℕ) (U := UR sig nD τ) (Lvl := ℕ) (Val := Elt F) spec1 c [cc1_scratch0, cc1_scratch1]
      ∗ owns (c : Thread nD τ) sc0 fullShare (k1_pay4 (iblk1 V c 0 t) (acc1 V c t.val).1)
      ∗ owns (c : Thread nD τ) sc1 fullShare (k1_pay5 (iblk1 V c 0 t) (acc1 V c t.val).2)) := by
  rw [Φ1_pos V c _ (Nat.succ_ne_zero _), acc1_succ]

/-- The scoped buffers the region does not stage: the two scratch rows, and the others. -/
theorem scopedRest_scr (c : Dev nD) :
    (Pipeline.scopedRest (Ix := Unit) (Name := ℕ) (U := UR sig nD τ) (Lvl := ℕ) (Val := Elt F) spec1 c : sProp 𝕄)
      = iprop(((∃ d, owns (c : Thread nD τ) sc0 fullShare d) ∗ (∃ d, owns (c : Thread nD τ) sc1 fullShare d))
        ∗ Pipeline.scopedRestBut (Ix := Unit) (Name := ℕ) (U := UR sig nD τ) (Lvl := ℕ) (Val := Elt F) spec1 c [cc1_scratch0, cc1_scratch1]) := by
  rw [Pipeline.scopedRest_split_of_list spec1 c [cc1_scratch0, cc1_scratch1] (by decide) (by decide)]
  simp only [sc0, sc1, owns_whole]; rfl

/-! ## The proof data -/

/-- The region's proof data on core c: the arrays as the region finds them; after the body at point t the input's
    buffer at its block and the two outputs' at the running sums after t (read at the last point only: at the
    others the outputs are idle and not written back); the invariant `Φ1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c (t.val + 1)).1
    | ⟨2, _⟩ => (acc1 V c (t.val + 1)).2
  Φ t := Φ1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = k1_pay4 (iblk1 V c 0 t) (acc1 V c t.val).1 := by
  dsimp only [dat1]; rw [acc1_succ]
theorem after1_2 (c : Dev nD) (t : Fin cfg1.N) : (dat1 V c).after 2 t = k1_pay5 (iblk1 V c 0 t) (acc1 V c t.val).2 := by
  dsimp only [dat1]; rw [acc1_succ]

/-- The invariant at the first point, from the generator register and the scoped buffers no window stages. -/
theorem hin1 (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [show (dat1 V c).Φ 0 = Φ1 V c 0 from rfl, Φ1_zero V c 0 rfl, scopedRest_scr]
  iintro ⟨Hg, ⟨H0, H1⟩, Hr⟩
  isplitl [Hg]; · iexact Hg
  isplitl [Hr]; · iexact Hr
  isplitl [H0]; · iexact H0
  iexact H1

/-- The invariant at the last point gives both back. -/
theorem hout1 (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  have hN : (Fin.last cfg1.N).val ≠ 0 := by rw [Fin.val_last]; show grid1.N ≠ 0; rw [N_1]; decide
  rw [show (dat1 V c).Φ (Fin.last cfg1.N) = Φ1 V c (Fin.last cfg1.N).val from rfl, Φ1_pos V c _ hN, scopedRest_scr]
  iintro ⟨Hg, Hr, H0, H1⟩
  isplitl [Hg]; · iexact Hg
  isplitr [Hr]; swap; · iexact Hr
  isplitl [H0]; · iexists _; iexact H0
  iexists _; iexact H1

/-! ## The body obligation -/

/-- The input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Each window's current staging memref at point t, as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 2000000 in
/-- The body at any point: the input's memref holds its tile; the closed forms of the two conditions say which
    case the point is in; the invariant hands the body the scratch rows (at anything at the first point, at the
    running sums afterwards) and takes them back with the tile's column sums added; away from the last point the
    outputs' buffers go back as they came, at the last point they hold the running sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.succ = Φ1 V c (t.val + 1) from rfl, show (dat1 V c).Φ t.castSucc = Φ1 V c t.val from rfl,
    Φ1_succ,
    show (dat1 V c).leavesExact 0 t = owns (c : Thread nD τ) (ms1_0 t) fullShare ((dat1 V c).after 0 t) from by
      unfold Dat.leavesExact; rw [liveAt1_0 t], after1_0]
  have hN : t.val < 10 := lt_of_lt_of_eq t.isLt (show cfg1.N = 10 from N_1)
  by_cases h0 : t.val = 0
  · have hc0 : cond1_0 (grid1.coords t) := (hcond1_0 t).mpr h0
    have hc1 : ¬cond1_1 (grid1.coords t) := fun h => by have := (hcond1_1 t).mp h; omega
    have ha : acc1 V c t.val = (k1_pay1, k1_pay2) := by rw [h0]; rfl
    rw [Dat.leavesExact_idle (dat1 V c) 1 t (idleAt1_1 t hc1) (noFlush1_1 t hc1),
      Dat.leavesExact_idle (dat1 V c) 2 t (idleAt1_2 t hc1) (noFlush1_2 t hc1), Φ1_zero V c _ h0, ha]
    iintro ⟨⟨Hg, Hr, ⟨%e0, HS0⟩, ⟨%e1, HS1⟩⟩, Ho, ⟨%d0, H0⟩, ⟨%d1, H1⟩, ⟨%d2, H2⟩⟩
    iapply (run_A c (grid1.coords t) _ (hs1_0 t) _ (hs1_1 t) _ (hs1_2 t) sc0 (Memref.isWhole_whole _) sc1 (Memref.isWhole_whole _)
      hc0 hc1 (iblk1 V c 0 t) _ _ e0 e1 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [Hg Hr HS0 HS1]
    · isplitl [Hg]; · iexact Hg
      isplitl [Hr]; · iexact Hr
      isplitl [HS0]; · iexact HS0
      iexact HS1
    isplitl [Ho]; · iexact Ho
    isplitl [H0]; · iexact H0
    isplitl [H1]; · iexists _; iexact H1
    iexists _; iexact H2
  · have hc0 : ¬cond1_0 (grid1.coords t) := fun h => h0 ((hcond1_0 t).mp h)
    rw [Φ1_pos V c _ h0]
    by_cases h9 : t.val = 9
    · have hc1 : cond1_1 (grid1.coords t) := (hcond1_1 t).mpr h9
      rw [show (dat1 V c).leavesExact 1 t = owns (c : Thread nD τ) (ms1_1 t) fullShare ((dat1 V c).after 1 t) from by
          unfold Dat.leavesExact; rw [liveAt1_1 t hc1], after1_1,
        show (dat1 V c).leavesExact 2 t = owns (c : Thread nD τ) (ms1_2 t) fullShare ((dat1 V c).after 2 t) from by
          unfold Dat.leavesExact; rw [liveAt1_2 t hc1], after1_2]
      iintro ⟨⟨Hg, Hr, HS0, HS1⟩, Ho, ⟨%d0, H0⟩, ⟨%d1, H1⟩, ⟨%d2, H2⟩⟩
      iapply (run_C c (grid1.coords t) _ (hs1_0 t) _ (hs1_1 t) _ (hs1_2 t) sc0 (Memref.isWhole_whole _) sc1 (Memref.isWhole_whole _)
        hc0 hc1 (iblk1 V c 0 t) _ _ (acc1 V c t.val).1 (acc1 V c t.val).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [Hg Hr HS0 HS1]
      · isplitl [Hg]; · iexact Hg
        isplitl [Hr]; · iexact Hr
        isplitl [HS0]; · iexact HS0
        iexact HS1
      isplitl [Ho]; · iexact Ho
      isplitl [H0]; · iexact H0
      isplitl [H1]; · iexact H1
      iexact H2
    · have hc1 : ¬cond1_1 (grid1.coords t) := fun h => h9 ((hcond1_1 t).mp h)
      rw [Dat.leavesExact_idle (dat1 V c) 1 t (idleAt1_1 t hc1) (noFlush1_1 t hc1),
        Dat.leavesExact_idle (dat1 V c) 2 t (idleAt1_2 t hc1) (noFlush1_2 t hc1)]
      iintro ⟨⟨Hg, Hr, HS0, HS1⟩, Ho, ⟨%d0, H0⟩, ⟨%d1, H1⟩, ⟨%d2, H2⟩⟩
      iapply (run_B c (grid1.coords t) _ (hs1_0 t) _ (hs1_1 t) _ (hs1_2 t) sc0 (Memref.isWhole_whole _) sc1 (Memref.isWhole_whole _)
        hc0 hc1 (iblk1 V c 0 t) _ _ (acc1 V c t.val).1 (acc1 V c t.val).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [Hg Hr HS0 HS1]
      · isplitl [Hg]; · iexact Hg
        isplitl [Hr]; · iexact Hr
        isplitl [HS0]; · iexact HS0
        iexact HS1
      isplitl [Ho]; · iexact Ho
      isplitl [H0]; · iexact H0
      isplitl [H1]; · iexists _; iexact H1
      iexists _; iexact H2

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K_Region2.lean ====
/-
  The third kernel region: one row tile of the normalise / scale / shift / clamp / add-residual epilogue per grid
  point. At point t the body reads a 5000 × 128 tile of the aggregated array and of the residual, the four 1 × 128
  rows (mean, variance, γ, β), and stores max (((h − mean) · rsqrt (var + ε)) · γ + β, 0) + residual.
-/
import proofs.«116431_j21079699489214_1_alg».proof.Proof.Gen.Kernel.Launch
import proofs.«116431_j21079699489214_1_alg».proof.Proof.Gen.Kernel.Skeleton
import proofs.«116431_j21079699489214_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rt2 : Rect S5000x128 := Rect.unit (s := S5000x128) ![0, 0] S5000x128.size inb_S5000x128_S5000x128_0_0
abbrev rr2 : Rect S1x128 := Rect.unit (s := S1x128) ![0, 0] S1x128.size inb_S1x128_S1x128_0_0

/-- The output tile after the body, from the six input blocks (in window order: aggregated tile, residual tile,
    mean, variance, γ, β): its one whole-tile store. The payload takes them in the order the body loads them. -/
def out2_6 (x0 x1 : Vec F S5000x128 .f32) (x2 x3 x4 x5 : Vec F S1x128 .f32) : Vec F S5000x128 .f32 :=
  View.canon [⟨rt2, k2_pay1 (View.ld x0 rt2) (View.ld x2 rr2) (View.ld x3 rr2) (View.ld x4 rr2) (View.ld x5 rr2) (View.ld x1 rt2)⟩]

/-! ## The input windows' current buffers

Each input window's current staging buffer holds its block at every point, whether the pipeline fetched it there or
not: where it did not, the block index has not moved, and the body left the block in place. Stated for any proof data
whose array is the entry contents and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The one whole-tile store covers the output buffer. -/
theorem cover2_6 (p0 : Vec F S5000x128 .f32) (y : S5000x128.Idx) :
    ∃ pc ∈ ([⟨rt2, p0⟩] : List (View.Piece (Elt F) S5000x128 .f32)), y ∈ pc.1.set :=
  View.cover_of_tiled [⟨rt2, p0⟩] S5000x128.size (by rfl) y

set_option maxHeartbeats 1000000 in
/-- The body on whole staging memrefs, the inputs' at read contents x0 … x5 and the output's at anything, runs to
    the continuation holding the inputs' as they were and the output's at out2_6 of the inputs'. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__elemwise_kernel i arg1 harg1 arg2 harg2 arg3 harg3 arg4 harg4 arg5 harg5 arg6 harg6 arg7 harg7) K := by
  simp only [cc2__elemwise_kernel_eq_skeleton]; unfold cc2__elemwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The region's proof data on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (fun t => by dsimp only [dat2]) t d
theorem before2_1 (c : Dev nD) (t : Fin cfg2.N) (d) : (dat2 V c).before 1 t d = iblk2 V c 1 t :=
  before2_1_of V (dat2 V c) (A_eq2 V c 1) (fun t => by dsimp only [dat2]) t d
theorem before2_2 (c : Dev nD) (t : Fin cfg2.N) (d) : (dat2 V c).before 2 t d = iblk2 V c 2 t :=
  before2_2_of V (dat2 V c) (A_eq2 V c 2) (fun t => by dsimp only [dat2]) t d
theorem before2_3 (c : Dev nD) (t : Fin cfg2.N) (d) : (dat2 V c).before 3 t d = iblk2 V c 3 t :=
  before2_3_of V (dat2 V c) (A_eq2 V c 3) (fun t => by dsimp only [dat2]) t d
theorem before2_4 (c : Dev nD) (t : Fin cfg2.N) (d) : (dat2 V c).before 4 t d = iblk2 V c 4 t :=
  before2_4_of V (dat2 V c) (A_eq2 V c 4) (fun t => by dsimp only [dat2]) t d
theorem before2_5 (c : Dev nD) (t : Fin cfg2.N) (d) : (dat2 V c).before 5 t d = iblk2 V c 5 t :=
  before2_5_of V (dat2 V c) (A_eq2 V c 5) (fun t => by dsimp only [dat2]) t d

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K_Run.lean ====
/-
  The whole run of the kernel program: three host stretches and three kernel regions in turn. Between two items
  every unscoped buffer of a core is held at a named valuation — the launch memory, then each host stretch's
  operations applied, then each region's arrays at what its write-backs leave — so that at the end every buffer,
  the result array and the nine arguments among them, is read off the last valuation.
-/
import proofs.«116431_j21079699489214_1_alg».proof.Proof.K_Region0
import proofs.«116431_j21079699489214_1_alg».proof.Proof.K_Region1
import proofs.«116431_j21079699489214_1_alg».proof.Proof.K_Region2
import proofs.«116431_j21079699489214_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev B0 : Dev nD → Valuation τ sig (Elt F) := fun c b => m (c, b)
/-- After the first host stretch (region 0's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b

/-- At region 0's exit: its arrays at what the pipeline leaves (the inputs as entered, each output's write-backs
    folded), every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second host stretch (region 1's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b

/-- At region 1's exit: its arrays at what the pipeline leaves (the inputs as entered, each output's write-backs
    folded), every other buffer as entered. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- The same read at the TensorCore's references. -/
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- After the third host stretch (region 2's entry). -/
abbrev B5 : Dev nD → Valuation τ sig (Elt F) := fun c => StableHlo.after hostOps2 (B4 m c)
abbrev E5 : (c : Dev nD) → (b : Ref sig .tc) → Buf (Elt F) ((c : Thread nD τ).loc b) := fun c b => B5 m c b

/-- At region 2's exit: its arrays at what the pipeline leaves (the inputs as entered, each output's write-backs
    folded), every other buffer as entered. -/
def B6 (c : Dev nD) : Valuation τ sig (Elt F) :=
  Pipeline.withArrays spec2 c (B5 m c) fun w => (dat2 (E5 m) c).arrAt w cfg2.N
theorem B6_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
/-- The same read at the TensorCore's references. -/
abbrev E6 : (c : Dev nD) → (b : Ref sig .tc) → Buf (Elt F) ((c : Thread nD τ).loc b) := fun c b => B6 m c b
theorem hF2 (c : Dev nD) (w : Fin cfg2.W) : (dat2 (E5 m) c).arrAt w cfg2.N = E6 m c (Pipeline.arrRef spec2 w) :=
  (B6_arr m c w).symm
theorem hrest2 (c : Dev nD) : ∀ b, b ∉ Finset.univ.image (Pipeline.arrRef spec2) → E6 m c b = E5 m c b :=
  fun b hb => B6_of_ne m c b fun w e => hb (Finset.mem_image.mpr ⟨w, Finset.mem_univ _, e⟩)

/-! ## A buffer no item writes keeps its contents -/

theorem B1_of (c : Dev nD) (r : Ref sig .tc) (h : r ∉ hostOps0_W) : B1 m c r = B0 m c r :=
  StableHlo.after_of_writes_sub hostOps0 _ hostOps0_writes h
theorem B3_of (c : Dev nD) (r : Ref sig .tc) (h : r ∉ hostOps1_W) : B3 m c r = B2 m c r :=
  StableHlo.after_of_writes_sub hostOps1 _ hostOps1_writes h
theorem B5_of (c : Dev nD) (r : Ref sig .tc) (h : r ∉ hostOps2_W) : B5 m c r = B4 m c r :=
  StableHlo.after_of_writes_sub hostOps2 _ hostOps2_writes h

/-! ## The arguments end as launched -/

theorem B6_main_arg0 (c : Dev nD) : B6 m c (Proc.devRef .tc main_arg0) = m ((c : Thread nD τ).loc main_arg0) :=
  (B6_of_ne m c main_arg0 (by decide)).trans <| (B5_of m c main_arg0 (by decide)).trans <| (B4_of_ne m c main_arg0 (by decide)).trans <|
    (B3_of m c main_arg0 (by decide)).trans <| ((B2_arr m c 0).trans (((dat0 (E1 m) c).arrAt_in 0 rfl _).trans (A_eq0 (E1 m) c 0))).trans <| (B1_of m c main_arg0 (by decide)).trans rfl
theorem B6_main_arg1 (c : Dev nD) : B6 m c (Proc.devRef .tc main_arg1) = m ((c : Thread nD τ).loc main_arg1) :=
  (B6_of_ne m c main_arg1 (by decide)).trans <| (B5_of m c main_arg1 (by decide)).trans <| (B4_of_ne m c main_arg1 (by decide)).trans <|
    (B3_of m c main_arg1 (by decide)).trans <| (B2_of_ne m c main_arg1 (by decide)).trans <| (B1_of m c main_arg1 (by decide)).trans rfl
theorem B6_main_arg2 (c : Dev nD) : B6 m c (Proc.devRef .tc main_arg2) = m ((c : Thread nD τ).loc main_arg2) :=
  (B6_of_ne m c main_arg2 (by decide)).trans <| (B5_of m c main_arg2 (by decide)).trans <| (B4_of_ne m c main_arg2 (by decide)).trans <|
    (B3_of m c main_arg2 (by decide)).trans <| (B2_of_ne m c main_arg2 (by decide)).trans <| (B1_of m c main_arg2 (by decide)).trans rfl
theorem B6_main_arg3 (c : Dev nD) : B6 m c (Proc.devRef .tc main_arg3) = m ((c : Thread nD τ).loc main_arg3) :=
  (B6_of_ne m c main_arg3 (by decide)).trans <| (B5_of m c main_arg3 (by decide)).trans <| (B4_of_ne m c main_arg3 (by decide)).trans <|
    (B3_of m c main_arg3 (by decide)).trans <| (B2_of_ne m c main_arg3 (by decide)).trans <| (B1_of m c main_arg3 (by decide)).trans rfl
theorem B6_main_arg4 (c : Dev nD) : B6 m c (Proc.devRef .tc main_arg4) = m ((c : Thread nD τ).loc main_arg4) :=
  (B6_of_ne m c main_arg4 (by decide)).trans <| (B5_of m c main_arg4 (by decide)).trans <| (B4_of_ne m c main_arg4 (by decide)).trans <|
    (B3_of m c main_arg4 (by decide)).trans <| (B2_of_ne m c main_arg4 (by decide)).trans <| (B1_of m c main_arg4 (by decide)).trans rfl
theorem B6_main_arg5 (c : Dev nD) : B6 m c (Proc.devRef .tc main_arg5) = m ((c : Thread nD τ).loc main_arg5) :=
  (B6_of_ne m c main_arg5 (by decide)).trans <| (B5_of m c main_arg5 (by decide)).trans <| (B4_of_ne m c main_arg5 (by decide)).trans <|
    (B3_of m c main_arg5 (by decide)).trans <| (B2_of_ne m c main_arg5 (by decide)).trans <| (B1_of m c main_arg5 (by decide)).trans rfl
theorem B6_main_arg6 (c : Dev nD) : B6 m c (Proc.devRef .tc main_arg6) = m ((c : Thread nD τ).loc main_arg6) :=
  (B6_of_ne m c main_arg6 (by decide)).trans <| (B5_of m c main_arg6 (by decide)).trans <| (B4_of_ne m c main_arg6 (by decide)).trans <|
    (B3_of m c main_arg6 (by decide)).trans <| (B2_of_ne m c main_arg6 (by decide)).trans <| (B1_of m c main_arg6 (by decide)).trans rfl
theorem B6_main_arg7 (c : Dev nD) : B6 m c (Proc.devRef .tc main_arg7) = m ((c : Thread nD τ).loc main_arg7) :=
  (B6_of_ne m c main_arg7 (by decide)).trans <| (B5_of m c main_arg7 (by decide)).trans <| (B4_of_ne m c main_arg7 (by decide)).trans <|
    (B3_of m c main_arg7 (by decide)).trans <| (B2_of_ne m c main_arg7 (by decide)).trans <| (B1_of m c main_arg7 (by decide)).trans rfl
theorem B6_main_arg8 (c : Dev nD) : B6 m c (Proc.devRef .tc main_arg8) = m ((c : Thread nD τ).loc main_arg8) :=
  (B6_of_ne m c main_arg8 (by decide)).trans <| (B5_of m c main_arg8 (by decide)).trans <| (B4_of_ne m c main_arg8 (by decide)).trans <|
    (B3_of m c main_arg8 (by decide)).trans <| (B2_of_ne m c main_arg8 (by decide)).trans <| (B1_of m c main_arg8 (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (B6 m c) ∗ ∃ r, prngReg c r)

/-! ## The regions as segments -/

-- a library lemma stated over the pinned configuration unifies with the printed one only when unification may unfold plain
-- definitions in a metavariable's type
set_option backward.isDefEq.respectTransparency.types false in
/-- Region 0 over the thread state: entered from every unscoped buffer at the contents before it, left with its arrays
    at what the write-backs leave and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered from every unscoped buffer at the contents before it, left with its arrays
    at what the write-backs leave and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E3 m) c).Φ 0 from rfl]
    iintro ⟨Hp, -, Hr⟩
    iapply (hin1 (E3 m) c)
    isplitl [Hp]; · iexact Hp
    iexact Hr
  hout c := by
    rw [Pipeline.ownSems0_none, show (pdats m 1 c).Φ (Fin.last _) = (dat1 (E3 m) c).Φ (Fin.last cfg1.N) from rfl]
    iintro H
    ihave H' := (hout1 (E3 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 over the thread state: entered from every unscoped buffer at the contents before it, left with its arrays
    at what the write-backs leave and every other buffer as entered. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

/-- The frame: the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (B6_main_arg0 m c),
     (h c _ (mem_uc main_arg1 (by decide))).trans (B6_main_arg1 m c),
     (h c _ (mem_uc main_arg2 (by decide))).trans (B6_main_arg2 m c),
     (h c _ (mem_uc main_arg3 (by decide))).trans (B6_main_arg3 m c),
     (h c _ (mem_uc main_arg4 (by decide))).trans (B6_main_arg4 m c),
     (h c _ (mem_uc main_arg5 (by decide))).trans (B6_main_arg5 m c),
     (h c _ (mem_uc main_arg6 (by decide))).trans (B6_main_arg6 m c),
     (h c _ (mem_uc main_arg7 (by decide))).trans (B6_main_arg7 m c),
     (h c _ (mem_uc main_arg8 (by decide))).trans (B6_main_arg8 m c)⟩) (run_all m ρ)

end Cert.Kernel.Hand

end
-- ==== Proof.KI_Region0.lean ====
/-
  The first kernel region: one row tile of the fused linear layer per grid point. At point t the body reads a
  5000 × 128 tile of x, the whole 128 × 256 weight matrix and the 1 × 256 bias row, and stores
  tile · weights + bias (spread over the rows) into the 5000 × 256 output tile.
-/
import proofs.«116431_j21079699489214_1_alg».proof.Proof.Gen.KernelIdeal.Launch
import proofs.«116431_j21079699489214_1_alg».proof.Proof.Gen.KernelIdeal.Skeleton
import proofs.«116431_j21079699489214_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole-buffer rectangles the body loads and stores through. -/
abbrev rx0 : Rect S5000x128 := Rect.unit (s := S5000x128) ![0, 0] S5000x128.size inb_S5000x128_S5000x128_0_0
abbrev rw0 : Rect S128x256 := Rect.unit (s := S128x256) ![0, 0] S128x256.size inb_S128x256_S128x256_0_0
abbrev rb0 : Rect S1x256 := Rect.unit (s := S1x256) ![0, 0] S1x256.size inb_S1x256_S1x256_0_0
abbrev ro0 : Rect S5000x256 := Rect.unit (s := S5000x256) ![0, 0] S5000x256.size inb_S5000x256_S5000x256_0_0

/-- The output tile after the body, from the three input blocks: its one whole-tile store. -/
def out0_3 (x0 : Vec F S5000x128 .f32) (x1 : Vec F S128x256 .f32) (x2 : Vec F S1x256 .f32) : Vec F S5000x256 .f32 :=
  View.canon [⟨ro0, k0_pay1 (View.ld x0 rx0) (View.ld x1 rw0) (View.ld x2 rb0)⟩]

/-! ## The input windows' current buffers

Each input window's current staging buffer holds its block at every point, whether the pipeline fetched it there or
not: where it did not, the block index has not moved, and the body left the block in place. Stated for any proof data
whose array is the entry contents and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The one whole-tile store covers the output buffer. -/
theorem cover0_3 (p0 : Vec F S5000x256 .f32) (y : S5000x256.Idx) :
    ∃ pc ∈ ([⟨ro0, p0⟩] : List (View.Piece (Elt F) S5000x256 .f32)), y ∈ pc.1.set :=
  View.cover_of_tiled [⟨ro0, p0⟩] S5000x256.size (by rfl) y

set_option maxHeartbeats 1000000 in
/-- The body on whole staging memrefs, the inputs' at read contents x0, x1, x2 and the output's at anything, runs to
    the continuation holding the inputs' as they were and the output's at out0_3 of the inputs'. -/
theorem sound_kernel0 (c : Dev nD) (E : Set ℕ) (i : grid0.Coords)
    (arg1 : Memref sig .tc .vmem S5000x128 .f32) (harg1 : arg1.IsWhole) (arg2 : Memref sig .tc .vmem S128x256 .f32) (harg2 : arg2.IsWhole)
    (arg3 : Memref sig .tc .vmem S1x256 .f32) (harg3 : arg3.IsWhole) (arg4 : Memref sig .tc .vmem S5000x256 .f32) (harg4 : arg4.IsWhole)
    (x0 : Vec F S5000x128 .f32) (x1 : Vec F S128x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__linear_kernel i arg1 harg1 arg2 harg2 arg3 harg3 arg4 harg4) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core c: the arrays as the region finds them; after the body at point t each input
    buffer at its block and the output buffer at out0_3 of the input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_3 (c : Dev nD) (t : Fin cfg0.N) :
    (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (fun t => by dsimp only [dat0]) t d
theorem before0_1 (c : Dev nD) (t : Fin cfg0.N) (d) : (dat0 V c).before 1 t d = iblk0 V c 1 t :=
  before0_1_of V (dat0 V c) (A_eq0 V c 1) (fun t => by dsimp only [dat0]) t d
theorem before0_2 (c : Dev nD) (t : Fin cfg0.N) (d) : (dat0 V c).before 2 t d = iblk0 V c 2 t :=
  before0_2_of V (dat0 V c) (A_eq0 V c 2) (fun t => by dsimp only [dat0]) t d

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI_Region1.lean ====
/-
  The second kernel region: the column sums and column sums of squares of the aggregated array, accumulated over
  the ten row tiles in two 1 × 128 scratch rows that live across grid points. At the first point the body zeroes
  both scratch rows; at every point it adds the tile's column sums (of the entries, and of their squares) to them;
  at the last point it copies the two scratch rows to the two 1 × 128 outputs.

  The scratch rows after n points are named by recursion on n (`acc1`): the zero rows for n = 0, and after point
  t the rows before it with the column sums of tile t added. The invariant between points holds the generator
  register, every scoped buffer other than the two scratch rows at some contents, and the two scratch rows: at
  any contents before the first point (the body overwrites them there before reading), at `acc1 t` before
  point t ≥ 1. The body is run once per control case (first point, middle points, last point) on arbitrary
  whole memrefs and arbitrary contents, and the obligation at a point is the case's run at that point's values.
-/
import proofs.«116431_j21079699489214_1_alg».proof.Proof.Gen.KernelIdeal.Launch
import proofs.«116431_j21079699489214_1_alg».proof.Proof.Gen.KernelIdeal.Skeleton
import proofs.«116431_j21079699489214_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body, case by case -/

set_option maxHeartbeats 1000000 in
/-- The condition of the body's first conditional (zero the scratch rows), from the grid coordinates. -/
abbrev cond1_0 (i : grid1.Coords) : Prop := (Scalar.cmpi .ne (Scalar.extui (Scalar.cmpi .eq (BitVec.ofNat 32 (i 0).val) 0#32)) 0#32) = 1#1
/-- The condition of its second (copy the scratch rows out). -/
abbrev cond1_1 (i : grid1.Coords) : Prop := k1_cond2 i = 1#1

/-- Both offsets zero. -/
theorem hz2 : (![0, 0] : Fin 2 → Nat) = fun _ => 0 := funext fun a => by fin_cases a <;> rfl

/-- A whole-shape load of a whole memref reads its contents. -/
theorem load_whole {S : Shape} (hr : S.rank = 2) {m : Memref sig .tc .vmem S .f32} (h : m.IsWhole) (off : Fin S.rank → Nat) (hoff : off = fun _ => 0)
    (inb : ∀ a, off a + S.size a ≤ S.size a) (X : S.Idx → Elt F .f32) :
    View.readAt (Elt F) m.view (Rect.unit off S.size inb).toLoadRect (h.unread X) = X := by
  rw [View.readAt_eq_ld, h.read_unread, View.ld_unit_zero hoff]

/-- After a whole-shape store, whatever came before, the memref reads the stored payload. -/
theorem read_store_whole {S : Shape} (v : View sig .tc .vmem S .f32) (f : v.ty.Contents (Elt F)) (off : Fin S.rank → Nat) (hoff : off = fun _ => 0)
    (inb : ∀ a, off a + S.size a ≤ S.size a) (w : S.Idx → Elt F .f32) (L : List (View.Piece (Elt F) S .f32)) :
    v.read (Elt F) (v.writes (Elt F) f (⟨Rect.unit off S.size inb, w⟩ :: L)) = w := by
  rw [View.read_writes_eq_canon _ _ _ (fun y => ⟨_, List.mem_cons_self, View.mem_set_unit_zero hoff inb y⟩), View.canon_cons_unit_zero hoff]

/-- The first holds at the first point only, -/
theorem hcond1_0 : ∀ t : Fin cfg1.N, cond1_0 (grid1.coords t) ↔ t.val = 0 :=
  (by decide +kernel : ∀ t : Fin grid1.N, cond1_0 (grid1.coords t) ↔ t.val = 0)
/-- the second at the last point only. -/
theorem hcond1_1 : ∀ t : Fin cfg1.N, cond1_1 (grid1.coords t) ↔ t.val = 9 :=
  (by decide +kernel : ∀ t : Fin grid1.N, cond1_1 (grid1.coords t) ↔ t.val = 9)

/-- The input window is never idle. -/
theorem liveAt1_0 : ∀ t : Fin cfg1.N, cfg1.idle 0 (grid1.coords t) = false := by decide +kernel
/-- Away from the last point the two outputs are idle and not written back; -/
theorem idleAt1_1 : ∀ t : Fin cfg1.N, ¬cond1_1 (grid1.coords t) → cfg1.idle 1 (grid1.coords t) = true := by decide +kernel
theorem noFlush1_1 : ∀ t : Fin cfg1.N, ¬cond1_1 (grid1.coords t) → (cfg1.win 1).flush t = false := by decide +kernel
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
/-- at the last point they are live. -/
theorem liveAt1_1 : ∀ t : Fin cfg1.N, cond1_1 (grid1.coords t) → cfg1.idle 1 (grid1.coords t) = false := by decide +kernel
theorem liveAt1_2 : ∀ t : Fin cfg1.N, cond1_1 (grid1.coords t) → cfg1.idle 2 (grid1.coords t) = false := by decide +kernel

/-- THE FIRST POINT (the scratch rows zeroed, then the tile's column sums added; nothing copied out): on whole memrefs, the tile at x, the outputs' buffers and the scratch rows at anything, the body leaves the tile and the outputs' buffers as they were and the scratch rows at the tile's column sums added to the zero rows. -/
theorem run_A (c : Dev nD) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (hc0 : cond1_0 i) (hc1 : ¬cond1_1 i) (x : Vec F S5000x128 .f32) (y1 y2 s s' : Vec F S1x128 .f32) :
    ∀ (E : Set ℕ) (K : PUnit → sProp 𝕄),
      iprop(owns (c : Thread nD τ) arg1 fullShare x ∗ owns (c : Thread nD τ) arg2 fullShare y1 ∗ owns (c : Thread nD τ) arg3 fullShare y2
          ∗ owns (c : Thread nD τ) arg4 fullShare s ∗ owns (c : Thread nD τ) arg5 fullShare s'
          ∗ (iprop(owns (c : Thread nD τ) arg1 fullShare x ∗ owns (c : Thread nD τ) arg2 fullShare y1 ∗ owns (c : Thread nD τ) arg3 fullShare y2 ∗ owns (c : Thread nD τ) arg4 fullShare (k1_pay4 x k1_pay1) ∗ owns (c : Thread nD τ) arg5 fullShare (k1_pay5 x k1_pay2)) -∗ K ⟨⟩))
        ⊢ wp frame (wpE (defs₀ (F := F)) Variants.none c none) E (cc1__reduce_kernel i arg1 harg1 arg2 harg2 arg3 harg3 arg4 harg4 arg5 harg5) K := by
  intro E K
  simp only [cc1__reduce_kernel_eq_skeleton]; unfold cc1__reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; swap; · iexact H1
    ipureintro
    exact hf1
  isplitl [H2]
  · iexists _; isplitr; swap; · iexact H2
    ipureintro
    exact hf2
  isplitl [H3]
  · iexists _; isplitr; swap; · iexact H3
    ipureintro
    exact hf3
  isplitl [H4]
  · iexists _; isplitr; swap; · iexact H4
    ipureintro
    sl_unfold_run_names
    rw [read_store_whole _ _ _ hz2, load_whole rfl harg1 _ hz2, View.readCov_unit_zero _ hz2]
  iexists _; isplitr; swap; · iexact H5
  ipureintro
  sl_unfold_run_names
  rw [read_store_whole _ _ _ hz2, load_whole rfl harg1 _ hz2, View.readCov_unit_zero _ hz2]

set_option maxHeartbeats 1000000 in
/-- A MIDDLE POINT (neither conditional taken): the scratch rows at s, s' end at the tile's column sums added to them. -/
theorem run_B (c : Dev nD) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (hc0 : ¬cond1_0 i) (hc1 : ¬cond1_1 i) (x : Vec F S5000x128 .f32) (y1 y2 s s' : Vec F S1x128 .f32) :
    ∀ (E : Set ℕ) (K : PUnit → sProp 𝕄),
      iprop(owns (c : Thread nD τ) arg1 fullShare x ∗ owns (c : Thread nD τ) arg2 fullShare y1 ∗ owns (c : Thread nD τ) arg3 fullShare y2
          ∗ owns (c : Thread nD τ) arg4 fullShare s ∗ owns (c : Thread nD τ) arg5 fullShare s'
          ∗ (iprop(owns (c : Thread nD τ) arg1 fullShare x ∗ owns (c : Thread nD τ) arg2 fullShare y1 ∗ owns (c : Thread nD τ) arg3 fullShare y2 ∗ owns (c : Thread nD τ) arg4 fullShare (k1_pay4 x s) ∗ owns (c : Thread nD τ) arg5 fullShare (k1_pay5 x s')) -∗ K ⟨⟩))
        ⊢ wp frame (wpE (defs₀ (F := F)) Variants.none c none) E (cc1__reduce_kernel i arg1 harg1 arg2 harg2 arg3 harg3 arg4 harg4 arg5 harg5) K := by
  intro E K
  simp only [cc1__reduce_kernel_eq_skeleton]; unfold cc1__reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; swap; · iexact H1
    ipureintro
    exact hf1
  isplitl [H2]
  · iexists _; isplitr; swap; · iexact H2
    ipureintro
    exact hf2
  isplitl [H3]
  · iexists _; isplitr; swap; · iexact H3
    ipureintro
    exact hf3
  isplitl [H4]
  · iexists _; isplitr; swap; · iexact H4
    ipureintro
    rw [read_store_whole _ _ _ hz2, load_whole rfl harg1 _ hz2, load_whole rfl harg4 _ hz2]
  iexists _; isplitr; swap; · iexact H5
  ipureintro
  rw [read_store_whole _ _ _ hz2, load_whole rfl harg1 _ hz2, load_whole rfl harg5 _ hz2]

set_option maxHeartbeats 1000000 in
/-- THE LAST POINT (accumulate, then copy out): the scratch rows end as at a middle point, and the two outputs' buffers hold the same rows. -/
theorem run_C (c : Dev nD) (i : grid1.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole)
    (hc0 : ¬cond1_0 i) (hc1 : cond1_1 i) (x : Vec F S5000x128 .f32) (y1 y2 s s' : Vec F S1x128 .f32) :
    ∀ (E : Set ℕ) (K : PUnit → sProp 𝕄),
      iprop(owns (c : Thread nD τ) arg1 fullShare x ∗ owns (c : Thread nD τ) arg2 fullShare y1 ∗ owns (c : Thread nD τ) arg3 fullShare y2
          ∗ owns (c : Thread nD τ) arg4 fullShare s ∗ owns (c : Thread nD τ) arg5 fullShare s'
          ∗ (iprop(owns (c : Thread nD τ) arg1 fullShare x ∗ owns (c : Thread nD τ) arg2 fullShare (k1_pay4 x s) ∗ owns (c : Thread nD τ) arg3 fullShare (k1_pay5 x s') ∗ owns (c : Thread nD τ) arg4 fullShare (k1_pay4 x s) ∗ owns (c : Thread nD τ) arg5 fullShare (k1_pay5 x s')) -∗ K ⟨⟩))
        ⊢ wp frame (wpE (defs₀ (F := F)) Variants.none c none) E (cc1__reduce_kernel i arg1 harg1 arg2 harg2 arg3 harg3 arg4 harg4 arg5 harg5) K := by
  intro E K
  simp only [cc1__reduce_kernel_eq_skeleton]; unfold cc1__reduce_kernel_skel
  unfold owns
  iintro ⟨⟨%f1, %hf1, H1⟩, ⟨%f2, %hf2, H2⟩, ⟨%f3, %hf3, H3⟩, ⟨%f4, %hf4, H4⟩, ⟨%f5, %hf5, H5⟩, Hk⟩
  obtain rfl := harg1.eq_unread hf1; obtain rfl := harg2.eq_unread hf2; obtain rfl := harg3.eq_unread hf3
  obtain rfl := harg4.eq_unread hf4; obtain rfl := harg5.eq_unread hf5
  sl_exec (disch := first | exact hc0 | exact hc1)
  sl_step
  iapply Hk
  isplitl [H1]
  · iexists _; isplitr; swap; · iexact H1
    ipureintro
    exact hf1
  isplitl [H2]
  · iexists _; isplitr; swap; · iexact H2
    ipureintro
    sl_unfold_run_names
    rw [read_store_whole _ _ _ hz2, View.readCov_unit_zero _ hz2, load_whole rfl harg1 _ hz2, load_whole rfl harg4 _ hz2]
  isplitl [H3]
  · iexists _; isplitr; swap; · iexact H3
    ipureintro
    sl_unfold_run_names
    rw [read_store_whole _ _ _ hz2, View.readCov_unit_zero _ hz2, load_whole rfl harg1 _ hz2, load_whole rfl harg5 _ hz2]
  isplitl [H4]
  · iexists _; isplitr; swap; · iexact H4
    ipureintro
    sl_unfold_run_names
    rw [read_store_whole _ _ _ hz2, load_whole rfl harg1 _ hz2, load_whole rfl harg4 _ hz2]
  iexists _; isplitr; swap; · iexact H5
  ipureintro
  sl_unfold_run_names
  rw [read_store_whole _ _ _ hz2, load_whole rfl harg1 _ hz2, load_whole rfl harg5 _ hz2]

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The running column sums -/

/-- The two scratch rows after the first n grid points: the zero rows the first point stores, then point by point
    the tile's column sums (of the entries; of their squares) added to the row before. -/
def acc1 (c : Dev nD) : ℕ → Vec F S1x128 .f32 × Vec F S1x128 .f32
  | 0 => (k1_pay1, k1_pay2)
  | n + 1 =>
    if h : n < cfg1.N then
      (k1_pay4 (iblk1 V c 0 ⟨n, h⟩) (acc1 c n).1, k1_pay5 (iblk1 V c 0 ⟨n, h⟩) (acc1 c n).2)
    else acc1 c n

theorem acc1_zero (c : Dev nD) : acc1 V c 0 = (k1_pay1, k1_pay2) := rfl

/-- One more point: the tile's column sums added. -/
theorem acc1_succ (c : Dev nD) (t : Fin cfg1.N) :
    acc1 V c (t.val + 1) = (k1_pay4 (iblk1 V c 0 t) (acc1 V c t.val).1, k1_pay5 (iblk1 V c 0 t) (acc1 V c t.val).2) :=
  dif_pos t.isLt

/-! ## The invariant -/

/-- The two scratch rows, whole buffers of the kernel's own. -/
abbrev sc0 : Memref sig .tc .vmem S1x128 .f32 := Memref.whole cc1_scratch0
abbrev sc1 : Memref sig .tc .vmem S1x128 .f32 := Memref.whole cc1_scratch1

/-- The scratch rows before point n: at anything before the first point, at the running sums afterwards. -/
def scr1 (c : Dev nD) (n : ℕ) : sProp 𝕄 :=
  if n = 0 then
    iprop((∃ d, owns (c : Thread nD τ) sc0 fullShare d) ∗ (∃ d, owns (c : Thread nD τ) sc1 fullShare d))
  else
    iprop(owns (c : Thread nD τ) sc0 fullShare (acc1 V c n).1 ∗ owns (c : Thread nD τ) sc1 fullShare (acc1 V c n).2)

/-- The invariant before point n: the generator register, the scoped buffers that are neither staged by the
    region nor its scratch rows, and the scratch rows. -/
def Φ1 (c : Dev nD) (n : ℕ) : sProp 𝕄 :=
  iprop((∃ r, prngReg c r)
    ∗ Pipeline.scopedRestBut (Ix := Unit) (Name := ℕ) (U := UR sig nD τ) (Lvl := ℕ) (Val := Elt F) spec1 c [cc1_scratch0, cc1_scratch1]
    ∗ scr1 V c n)

theorem Φ1_zero (c : Dev nD) (n : ℕ) (h : n = 0) :
    Φ1 V c n = iprop((∃ r, prngReg c r)
      ∗ Pipeline.scopedRestBut (Ix := Unit) (Name := ℕ) (U := UR sig nD τ) (Lvl := ℕ) (Val := Elt F) spec1 c [cc1_scratch0, cc1_scratch1]
      ∗ (∃ d, owns (c : Thread nD τ) sc0 fullShare d) ∗ (∃ d, owns (c : Thread nD τ) sc1 fullShare d)) := by
  unfold Φ1 scr1; rw [if_pos h]

theorem Φ1_pos (c : Dev nD) (n : ℕ) (h : n ≠ 0) :
    Φ1 V c n = iprop((∃ r, prngReg c r)
      ∗ Pipeline.scopedRestBut (Ix := Unit) (Name := ℕ) (U := UR sig nD τ) (Lvl := ℕ) (Val := Elt F) spec1 c [cc1_scratch0, cc1_scratch1]
      ∗ owns (c : Thread nD τ) sc0 fullShare (acc1 V c n).1 ∗ owns (c : Thread nD τ) sc1 fullShare (acc1 V c n).2) := by
  unfold Φ1 scr1; rw [if_neg h]

/-- After point t: the rows before it with the tile's column sums added. -/
theorem Φ1_succ (c : Dev nD) (t : Fin cfg1.N) :
    Φ1 V c (t.val + 1) = iprop((∃ r, prngReg c r)
      ∗ Pipeline.scopedRestBut (Ix := Unit) (Name := ℕ) (U := UR sig nD τ) (Lvl := ℕ) (Val := Elt F) spec1 c [cc1_scratch0, cc1_scratch1]
      ∗ owns (c : Thread nD τ) sc0 fullShare (k1_pay4 (iblk1 V c 0 t) (acc1 V c t.val).1)
      ∗ owns (c : Thread nD τ) sc1 fullShare (k1_pay5 (iblk1 V c 0 t) (acc1 V c t.val).2)) := by
  rw [Φ1_pos V c _ (Nat.succ_ne_zero _), acc1_succ]

/-- The scoped buffers the region does not stage: the two scratch rows, and the others. -/
theorem scopedRest_scr (c : Dev nD) :
    (Pipeline.scopedRest (Ix := Unit) (Name := ℕ) (U := UR sig nD τ) (Lvl := ℕ) (Val := Elt F) spec1 c : sProp 𝕄)
      = iprop(((∃ d, owns (c : Thread nD τ) sc0 fullShare d) ∗ (∃ d, owns (c : Thread nD τ) sc1 fullShare d))
        ∗ Pipeline.scopedRestBut (Ix := Unit) (Name := ℕ) (U := UR sig nD τ) (Lvl := ℕ) (Val := Elt F) spec1 c [cc1_scratch0, cc1_scratch1]) := by
  rw [Pipeline.scopedRest_split_of_list spec1 c [cc1_scratch0, cc1_scratch1] (by decide) (by decide)]
  simp only [sc0, sc1, owns_whole]; rfl

/-! ## The proof data -/

/-- The region's proof data on core c: the arrays as the region finds them; after the body at point t the input's
    buffer at its block and the two outputs' at the running sums after t (read at the last point only: at the
    others the outputs are idle and not written back); the invariant `Φ1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c (t.val + 1)).1
    | ⟨2, _⟩ => (acc1 V c (t.val + 1)).2
  Φ t := Φ1 V c t.val
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = k1_pay4 (iblk1 V c 0 t) (acc1 V c t.val).1 := by
  dsimp only [dat1]; rw [acc1_succ]
theorem after1_2 (c : Dev nD) (t : Fin cfg1.N) : (dat1 V c).after 2 t = k1_pay5 (iblk1 V c 0 t) (acc1 V c t.val).2 := by
  dsimp only [dat1]; rw [acc1_succ]

/-- The invariant at the first point, from the generator register and the scoped buffers no window stages. -/
theorem hin1 (c : Dev nD) :
    iprop((∃ r, prngReg c r) ∗ Pipeline.scopedRest (Ix := Unit) (Name := ℕ) (U := UR sig nD τ) (Lvl := ℕ) (Val := Elt F) spec1 c)
      ⊢ ((dat1 V c).Φ 0 : sProp 𝕄) := by
  rw [show (dat1 V c).Φ 0 = Φ1 V c 0 from rfl, Φ1_zero V c 0 rfl, scopedRest_scr]
  iintro ⟨Hg, ⟨H0, H1⟩, Hr⟩
  isplitl [Hg]; · iexact Hg
  isplitl [Hr]; · iexact Hr
  isplitl [H0]; · iexact H0
  iexact H1

/-- The invariant at the last point gives both back. -/
theorem hout1 (c : Dev nD) :
    ((dat1 V c).Φ (Fin.last cfg1.N) : sProp 𝕄)
      ⊢ iprop((∃ r, prngReg c r) ∗ Pipeline.scopedRest (Ix := Unit) (Name := ℕ) (U := UR sig nD τ) (Lvl := ℕ) (Val := Elt F) spec1 c) := by
  have hN : (Fin.last cfg1.N).val ≠ 0 := by rw [Fin.val_last]; show grid1.N ≠ 0; rw [N_1]; decide
  rw [show (dat1 V c).Φ (Fin.last cfg1.N) = Φ1 V c (Fin.last cfg1.N).val from rfl, Φ1_pos V c _ hN, scopedRest_scr]
  iintro ⟨Hg, Hr, H0, H1⟩
  isplitl [Hg]; · iexact Hg
  isplitr [Hr]; swap; · iexact Hr
  isplitl [H0]; · iexists _; iexact H0
  iexists _; iexact H1

/-! ## The body obligation -/

/-- The input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)

/-- Each window's current staging memref at point t, as the pipeline passes it, and its wholeness. -/
abbrev ms1_0 (t : Fin cfg1.N) : Memref sig .tc .vmem S5000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 2000000 in
/-- The body at any point: the input's memref holds its tile; the closed forms of the two conditions say which
    case the point is in; the invariant hands the body the scratch rows (at anything at the first point, at the
    running sums afterwards) and takes them back with the tile's column sums added; away from the last point the
    outputs' buffers go back as they came, at the last point they hold the running sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl,
    show (dat1 V c).Φ t.succ = Φ1 V c (t.val + 1) from rfl, show (dat1 V c).Φ t.castSucc = Φ1 V c t.val from rfl,
    Φ1_succ,
    show (dat1 V c).leavesExact 0 t = owns (c : Thread nD τ) (ms1_0 t) fullShare ((dat1 V c).after 0 t) from by
      unfold Dat.leavesExact; rw [liveAt1_0 t], after1_0]
  have hN : t.val < 10 := lt_of_lt_of_eq t.isLt (show cfg1.N = 10 from N_1)
  by_cases h0 : t.val = 0
  · have hc0 : cond1_0 (grid1.coords t) := (hcond1_0 t).mpr h0
    have hc1 : ¬cond1_1 (grid1.coords t) := fun h => by have := (hcond1_1 t).mp h; omega
    have ha : acc1 V c t.val = (k1_pay1, k1_pay2) := by rw [h0]; rfl
    rw [Dat.leavesExact_idle (dat1 V c) 1 t (idleAt1_1 t hc1) (noFlush1_1 t hc1),
      Dat.leavesExact_idle (dat1 V c) 2 t (idleAt1_2 t hc1) (noFlush1_2 t hc1), Φ1_zero V c _ h0, ha]
    iintro ⟨⟨Hg, Hr, ⟨%e0, HS0⟩, ⟨%e1, HS1⟩⟩, Ho, ⟨%d0, H0⟩, ⟨%d1, H1⟩, ⟨%d2, H2⟩⟩
    iapply (run_A c (grid1.coords t) _ (hs1_0 t) _ (hs1_1 t) _ (hs1_2 t) sc0 (Memref.isWhole_whole _) sc1 (Memref.isWhole_whole _)
      hc0 hc1 (iblk1 V c 0 t) _ _ e0 e1 Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [Hg Hr HS0 HS1]
    · isplitl [Hg]; · iexact Hg
      isplitl [Hr]; · iexact Hr
      isplitl [HS0]; · iexact HS0
      iexact HS1
    isplitl [Ho]; · iexact Ho
    isplitl [H0]; · iexact H0
    isplitl [H1]; · iexists _; iexact H1
    iexists _; iexact H2
  · have hc0 : ¬cond1_0 (grid1.coords t) := fun h => h0 ((hcond1_0 t).mp h)
    rw [Φ1_pos V c _ h0]
    by_cases h9 : t.val = 9
    · have hc1 : cond1_1 (grid1.coords t) := (hcond1_1 t).mpr h9
      rw [show (dat1 V c).leavesExact 1 t = owns (c : Thread nD τ) (ms1_1 t) fullShare ((dat1 V c).after 1 t) from by
          unfold Dat.leavesExact; rw [liveAt1_1 t hc1], after1_1,
        show (dat1 V c).leavesExact 2 t = owns (c : Thread nD τ) (ms1_2 t) fullShare ((dat1 V c).after 2 t) from by
          unfold Dat.leavesExact; rw [liveAt1_2 t hc1], after1_2]
      iintro ⟨⟨Hg, Hr, HS0, HS1⟩, Ho, ⟨%d0, H0⟩, ⟨%d1, H1⟩, ⟨%d2, H2⟩⟩
      iapply (run_C c (grid1.coords t) _ (hs1_0 t) _ (hs1_1 t) _ (hs1_2 t) sc0 (Memref.isWhole_whole _) sc1 (Memref.isWhole_whole _)
        hc0 hc1 (iblk1 V c 0 t) _ _ (acc1 V c t.val).1 (acc1 V c t.val).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [Hg Hr HS0 HS1]
      · isplitl [Hg]; · iexact Hg
        isplitl [Hr]; · iexact Hr
        isplitl [HS0]; · iexact HS0
        iexact HS1
      isplitl [Ho]; · iexact Ho
      isplitl [H0]; · iexact H0
      isplitl [H1]; · iexact H1
      iexact H2
    · have hc1 : ¬cond1_1 (grid1.coords t) := fun h => h9 ((hcond1_1 t).mp h)
      rw [Dat.leavesExact_idle (dat1 V c) 1 t (idleAt1_1 t hc1) (noFlush1_1 t hc1),
        Dat.leavesExact_idle (dat1 V c) 2 t (idleAt1_2 t hc1) (noFlush1_2 t hc1)]
      iintro ⟨⟨Hg, Hr, HS0, HS1⟩, Ho, ⟨%d0, H0⟩, ⟨%d1, H1⟩, ⟨%d2, H2⟩⟩
      iapply (run_B c (grid1.coords t) _ (hs1_0 t) _ (hs1_1 t) _ (hs1_2 t) sc0 (Memref.isWhole_whole _) sc1 (Memref.isWhole_whole _)
        hc0 hc1 (iblk1 V c 0 t) _ _ (acc1 V c t.val).1 (acc1 V c t.val).2 Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [Hg Hr HS0 HS1]
      · isplitl [Hg]; · iexact Hg
        isplitl [Hr]; · iexact Hr
        isplitl [HS0]; · iexact HS0
        iexact HS1
      isplitl [Ho]; · iexact Ho
      isplitl [H0]; · iexact H0
      isplitl [H1]; · iexists _; iexact H1
      iexists _; iexact H2

/-- The body obligation at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI_Region2.lean ====
/-
  The third kernel region: one row tile of the normalise / scale / shift / clamp / add-residual epilogue per grid
  point. At point t the body reads a 5000 × 128 tile of the aggregated array and of the residual, the four 1 × 128
  rows (mean, variance, γ, β), and stores max (((h − mean) · rsqrt (var + ε)) · γ + β, 0) + residual.
-/
import proofs.«116431_j21079699489214_1_alg».proof.Proof.Gen.KernelIdeal.Launch
import proofs.«116431_j21079699489214_1_alg».proof.Proof.Gen.KernelIdeal.Skeleton
import proofs.«116431_j21079699489214_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The whole-buffer rectangles the body loads and stores through. -/
abbrev rt2 : Rect S5000x128 := Rect.unit (s := S5000x128) ![0, 0] S5000x128.size inb_S5000x128_S5000x128_0_0
abbrev rr2 : Rect S1x128 := Rect.unit (s := S1x128) ![0, 0] S1x128.size inb_S1x128_S1x128_0_0

/-- The output tile after the body, from the six input blocks (in window order: aggregated tile, residual tile,
    mean, variance, γ, β): its one whole-tile store. The payload takes them in the order the body loads them. -/
def out2_6 (x0 x1 : Vec F S5000x128 .f32) (x2 x3 x4 x5 : Vec F S1x128 .f32) : Vec F S5000x128 .f32 :=
  View.canon [⟨rt2, k2_pay1 (View.ld x0 rt2) (View.ld x2 rr2) (View.ld x3 rr2) (View.ld x4 rr2) (View.ld x5 rr2) (View.ld x1 rt2)⟩]

/-! ## The input windows' current buffers

Each input window's current staging buffer holds its block at every point, whether the pipeline fetched it there or
not: where it did not, the block index has not moved, and the body left the block in place. Stated for any proof data
whose array is the entry contents and whose body leaves the block in place. -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The one whole-tile store covers the output buffer. -/
theorem cover2_6 (p0 : Vec F S5000x128 .f32) (y : S5000x128.Idx) :
    ∃ pc ∈ ([⟨rt2, p0⟩] : List (View.Piece (Elt F) S5000x128 .f32)), y ∈ pc.1.set :=
  View.cover_of_tiled [⟨rt2, p0⟩] S5000x128.size (by rfl) y

set_option maxHeartbeats 1000000 in
/-- The body on whole staging memrefs, the inputs' at read contents x0 … x5 and the output's at anything, runs to
    the continuation holding the inputs' as they were and the output's at out2_6 of the inputs'. -/
theorem sound_kernel2 (c : Dev nD) (E : Set ℕ) (i : grid2.Coords)
    (arg1 : Memref sig .tc .vmem S5000x128 .f32) (harg1 : arg1.IsWhole) (arg2 : Memref sig .tc .vmem S5000x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S5000x128 .f32) (harg7 : arg7.IsWhole)
    (x0 x1 : Vec F S5000x128 .f32) (x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E
          (cc2__elemwise_kernel i arg1 harg1 arg2 harg2 arg3 harg3 arg4 harg4 arg5 harg5 arg6 harg6 arg7 harg7) K := by
  simp only [cc2__elemwise_kernel_eq_skeleton]; unfold cc2__elemwise_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

/-- The region's proof data on core c. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_6 (c : Dev nD) (t : Fin cfg2.N) :
    (dat2 V c).after 6 t = out2_6 (iblk2 V c 0 t) (iblk2 V c 1 t) (iblk2 V c 2 t) (iblk2 V c 3 t) (iblk2 V c 4 t) (iblk2 V c 5 t) := by
  dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (fun t => by dsimp only [dat2]) t d
theorem before2_1 (c : Dev nD) (t : Fin cfg2.N) (d) : (dat2 V c).before 1 t d = iblk2 V c 1 t :=
  before2_1_of V (dat2 V c) (A_eq2 V c 1) (fun t => by dsimp only [dat2]) t d
theorem before2_2 (c : Dev nD) (t : Fin cfg2.N) (d) : (dat2 V c).before 2 t d = iblk2 V c 2 t :=
  before2_2_of V (dat2 V c) (A_eq2 V c 2) (fun t => by dsimp only [dat2]) t d
theorem before2_3 (c : Dev nD) (t : Fin cfg2.N) (d) : (dat2 V c).before 3 t d = iblk2 V c 3 t :=
  before2_3_of V (dat2 V c) (A_eq2 V c 3) (fun t => by dsimp only [dat2]) t d
theorem before2_4 (c : Dev nD) (t : Fin cfg2.N) (d) : (dat2 V c).before 4 t d = iblk2 V c 4 t :=
  before2_4_of V (dat2 V c) (A_eq2 V c 4) (fun t => by dsimp only [dat2]) t d
theorem before2_5 (c : Dev nD) (t : Fin cfg2.N) (d) : (dat2 V c).before 5 t d = iblk2 V c 5 t :=
  before2_5_of V (dat2 V c) (A_eq2 V c 5) (fun t => by dsimp only [dat2]) t d

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' memrefs hold their blocks, so the body's triple applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body obligation at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI_Run.lean ====
/-
  The whole run of the kernel program: three host stretches and three kernel regions in turn. Between two items
  every unscoped buffer of a core is held at a named valuation — the launch memory, then each host stretch's
  operations applied, then each region's arrays at what its write-backs leave — so that at the end every buffer,
  the result array and the nine arguments among them, is read off the last valuation.
-/
import proofs.«116431_j21079699489214_1_alg».proof.Proof.KI_Region0
import proofs.«116431_j21079699489214_1_alg».proof.Proof.KI_Region1
import proofs.«116431_j21079699489214_1_alg».proof.Proof.KI_Region2
import proofs.«116431_j21079699489214_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev B0 : Dev nD → Valuation τ sig (Elt F) := fun c b => m (c, b)
/-- After the first host stretch (region 0's entry). -/
abbrev B1 : Dev nD → Valuation τ sig (Elt F) := fun c => StableHlo.after hostOps0 (B0 m c)
abbrev E1 : (c : Dev nD) → (b : Ref sig .tc) → Buf (Elt F) ((c : Thread nD τ).loc b) := fun c b => B1 m c b

/-- At region 0's exit: its arrays at what the pipeline leaves (the inputs as entered, each output's write-backs
    folded), every other buffer as entered. -/
def B2 (c : Dev nD) : Valuation τ sig (Elt F) :=
  Pipeline.withArrays spec0 c (B1 m c) fun w => (dat0 (E1 m) c).arrAt w cfg0.N
theorem B2_arr (c : Dev nD) (w : Fin cfg0.W) :
    B2 m c (Proc.devRef .tc (Pipeline.arrRef spec0 w)) = (dat0 (E1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m c (Proc.devRef .tc b) = B1 m c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m c b
theorem hF0 (c : Dev nD) (w : Fin cfg0.W) : (dat0 (E1 m) c).arrAt w cfg0.N = E2 m c (Pipeline.arrRef spec0 w) :=
  (B2_arr m c w).symm
theorem hrest0 (c : Dev nD) : ∀ b, b ∉ Finset.univ.image (Pipeline.arrRef spec0) → E2 m c b = E1 m c b :=
  fun b hb => B2_of_ne m c b fun w e => hb (Finset.mem_image.mpr ⟨w, Finset.mem_univ _, e⟩)

/-- After the second host stretch (region 1's entry). -/
abbrev B3 : Dev nD → Valuation τ sig (Elt F) := fun c => StableHlo.after hostOps1 (B2 m c)
abbrev E3 : (c : Dev nD) → (b : Ref sig .tc) → Buf (Elt F) ((c : Thread nD τ).loc b) := fun c b => B3 m c b

/-- At region 1's exit: its arrays at what the pipeline leaves (the inputs as entered, each output's write-backs
    folded), every other buffer as entered. -/
def B4 (c : Dev nD) : Valuation τ sig (Elt F) :=
  Pipeline.withArrays spec1 c (B3 m c) fun w => (dat1 (E3 m) c).arrAt w cfg1.N
theorem B4_arr (c : Dev nD) (w : Fin cfg1.W) :
    B4 m c (Proc.devRef .tc (Pipeline.arrRef spec1 w)) = (dat1 (E3 m) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m c (Proc.devRef .tc b) = B3 m c (Proc.devRef .tc b) := by
  unfold B4; exact Pipeline.withArrays_of_ne spec1 c _ _ b hb
/-- The same read at the TensorCore's references. -/
abbrev E4 : (c : Dev nD) → (b : Ref sig .tc) → Buf (Elt F) ((c : Thread nD τ).loc b) := fun c b => B4 m c b
theorem hF1 (c : Dev nD) (w : Fin cfg1.W) : (dat1 (E3 m) c).arrAt w cfg1.N = E4 m c (Pipeline.arrRef spec1 w) :=
  (B4_arr m c w).symm
theorem hrest1 (c : Dev nD) : ∀ b, b ∉ Finset.univ.image (Pipeline.arrRef spec1) → E4 m c b = E3 m c b :=
  fun b hb => B4_of_ne m c b fun w e => hb (Finset.mem_image.mpr ⟨w, Finset.mem_univ _, e⟩)

/-- After the third host stretch (region 2's entry). -/
abbrev B5 : Dev nD → Valuation τ sig (Elt F) := fun c => StableHlo.after hostOps2 (B4 m c)
abbrev E5 : (c : Dev nD) → (b : Ref sig .tc) → Buf (Elt F) ((c : Thread nD τ).loc b) := fun c b => B5 m c b

/-- At region 2's exit: its arrays at what the pipeline leaves (the inputs as entered, each output's write-backs
    folded), every other buffer as entered. -/
def B6 (c : Dev nD) : Valuation τ sig (Elt F) :=
  Pipeline.withArrays spec2 c (B5 m c) fun w => (dat2 (E5 m) c).arrAt w cfg2.N
theorem B6_arr (c : Dev nD) (w : Fin cfg2.W) :
    B6 m c (Proc.devRef .tc (Pipeline.arrRef spec2 w)) = (dat2 (E5 m) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m c (Proc.devRef .tc b) = B5 m c (Proc.devRef .tc b) := by
  unfold B6; exact Pipeline.withArrays_of_ne spec2 c _ _ b hb
/-- The same read at the TensorCore's references. -/
abbrev E6 : (c : Dev nD) → (b : Ref sig .tc) → Buf (Elt F) ((c : Thread nD τ).loc b) := fun c b => B6 m c b
theorem hF2 (c : Dev nD) (w : Fin cfg2.W) : (dat2 (E5 m) c).arrAt w cfg2.N = E6 m c (Pipeline.arrRef spec2 w) :=
  (B6_arr m c w).symm
theorem hrest2 (c : Dev nD) : ∀ b, b ∉ Finset.univ.image (Pipeline.arrRef spec2) → E6 m c b = E5 m c b :=
  fun b hb => B6_of_ne m c b fun w e => hb (Finset.mem_image.mpr ⟨w, Finset.mem_univ _, e⟩)

/-! ## A buffer no item writes keeps its contents -/

theorem B1_of (c : Dev nD) (r : Ref sig .tc) (h : r ∉ hostOps0_W) : B1 m c r = B0 m c r :=
  StableHlo.after_of_writes_sub hostOps0 _ hostOps0_writes h
theorem B3_of (c : Dev nD) (r : Ref sig .tc) (h : r ∉ hostOps1_W) : B3 m c r = B2 m c r :=
  StableHlo.after_of_writes_sub hostOps1 _ hostOps1_writes h
theorem B5_of (c : Dev nD) (r : Ref sig .tc) (h : r ∉ hostOps2_W) : B5 m c r = B4 m c r :=
  StableHlo.after_of_writes_sub hostOps2 _ hostOps2_writes h

/-! ## The arguments end as launched -/

theorem B6_main_arg0 (c : Dev nD) : B6 m c (Proc.devRef .tc main_arg0) = m ((c : Thread nD τ).loc main_arg0) :=
  (B6_of_ne m c main_arg0 (by decide)).trans <| (B5_of m c main_arg0 (by decide)).trans <| (B4_of_ne m c main_arg0 (by decide)).trans <|
    (B3_of m c main_arg0 (by decide)).trans <| ((B2_arr m c 0).trans (((dat0 (E1 m) c).arrAt_in 0 rfl _).trans (A_eq0 (E1 m) c 0))).trans <| (B1_of m c main_arg0 (by decide)).trans rfl
theorem B6_main_arg1 (c : Dev nD) : B6 m c (Proc.devRef .tc main_arg1) = m ((c : Thread nD τ).loc main_arg1) :=
  (B6_of_ne m c main_arg1 (by decide)).trans <| (B5_of m c main_arg1 (by decide)).trans <| (B4_of_ne m c main_arg1 (by decide)).trans <|
    (B3_of m c main_arg1 (by decide)).trans <| (B2_of_ne m c main_arg1 (by decide)).trans <| (B1_of m c main_arg1 (by decide)).trans rfl
theorem B6_main_arg2 (c : Dev nD) : B6 m c (Proc.devRef .tc main_arg2) = m ((c : Thread nD τ).loc main_arg2) :=
  (B6_of_ne m c main_arg2 (by decide)).trans <| (B5_of m c main_arg2 (by decide)).trans <| (B4_of_ne m c main_arg2 (by decide)).trans <|
    (B3_of m c main_arg2 (by decide)).trans <| (B2_of_ne m c main_arg2 (by decide)).trans <| (B1_of m c main_arg2 (by decide)).trans rfl
theorem B6_main_arg3 (c : Dev nD) : B6 m c (Proc.devRef .tc main_arg3) = m ((c : Thread nD τ).loc main_arg3) :=
  (B6_of_ne m c main_arg3 (by decide)).trans <| (B5_of m c main_arg3 (by decide)).trans <| (B4_of_ne m c main_arg3 (by decide)).trans <|
    (B3_of m c main_arg3 (by decide)).trans <| (B2_of_ne m c main_arg3 (by decide)).trans <| (B1_of m c main_arg3 (by decide)).trans rfl
theorem B6_main_arg4 (c : Dev nD) : B6 m c (Proc.devRef .tc main_arg4) = m ((c : Thread nD τ).loc main_arg4) :=
  (B6_of_ne m c main_arg4 (by decide)).trans <| (B5_of m c main_arg4 (by decide)).trans <| (B4_of_ne m c main_arg4 (by decide)).trans <|
    (B3_of m c main_arg4 (by decide)).trans <| (B2_of_ne m c main_arg4 (by decide)).trans <| (B1_of m c main_arg4 (by decide)).trans rfl
theorem B6_main_arg5 (c : Dev nD) : B6 m c (Proc.devRef .tc main_arg5) = m ((c : Thread nD τ).loc main_arg5) :=
  (B6_of_ne m c main_arg5 (by decide)).trans <| (B5_of m c main_arg5 (by decide)).trans <| (B4_of_ne m c main_arg5 (by decide)).trans <|
    (B3_of m c main_arg5 (by decide)).trans <| (B2_of_ne m c main_arg5 (by decide)).trans <| (B1_of m c main_arg5 (by decide)).trans rfl
theorem B6_main_arg6 (c : Dev nD) : B6 m c (Proc.devRef .tc main_arg6) = m ((c : Thread nD τ).loc main_arg6) :=
  (B6_of_ne m c main_arg6 (by decide)).trans <| (B5_of m c main_arg6 (by decide)).trans <| (B4_of_ne m c main_arg6 (by decide)).trans <|
    (B3_of m c main_arg6 (by decide)).trans <| (B2_of_ne m c main_arg6 (by decide)).trans <| (B1_of m c main_arg6 (by decide)).trans rfl
theorem B6_main_arg7 (c : Dev nD) : B6 m c (Proc.devRef .tc main_arg7) = m ((c : Thread nD τ).loc main_arg7) :=
  (B6_of_ne m c main_arg7 (by decide)).trans <| (B5_of m c main_arg7 (by decide)).trans <| (B4_of_ne m c main_arg7 (by decide)).trans <|
    (B3_of m c main_arg7 (by decide)).trans <| (B2_of_ne m c main_arg7 (by decide)).trans <| (B1_of m c main_arg7 (by decide)).trans rfl
theorem B6_main_arg8 (c : Dev nD) : B6 m c (Proc.devRef .tc main_arg8) = m ((c : Thread nD τ).loc main_arg8) :=
  (B6_of_ne m c main_arg8 (by decide)).trans <| (B5_of m c main_arg8 (by decide)).trans <| (B4_of_ne m c main_arg8 (by decide)).trans <|
    (B3_of m c main_arg8 (by decide)).trans <| (B2_of_ne m c main_arg8 (by decide)).trans <| (B1_of m c main_arg8 (by decide)).trans rfl

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E3 m) c
  | ⟨2, _⟩ => fun c => dat2 (E5 m) c
abbrev 𝒱₀ : Variants := Variants.none
/-- No core owes another anything. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)
/-- A host stretch as a segment over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (B6 m c) ∗ ∃ r, prngReg c r)

/-! ## The regions as segments -/

-- a library lemma stated over the pinned configuration unifies with the printed one only when unification may unfold plain
-- definitions in a metavariable's type
set_option backward.isDefEq.respectTransparency.types false in
/-- Region 0 over the thread state: entered from every unscoped buffer at the contents before it, left with its arrays
    at what the write-backs leave and every other buffer as entered. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (E2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 1 over the thread state: entered from every unscoped buffer at the contents before it, left with its arrays
    at what the write-backs leave and every other buffer as entered. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop(∃ r, prngReg c r)
  Z c := Pipeline.unscopedRest (Ix := Unit) (Name := ℕ) (U := UR sig nD τ) (Lvl := ℕ) spec1 c (E3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (E3 m) c).Φ 0 from rfl]
    iintro ⟨Hp, -, Hr⟩
    iapply (hin1 (E3 m) c)
    isplitl [Hp]; · iexact Hp
    iexact Hr
  hout c := by
    rw [Pipeline.ownSems0_none, show (pdats m 1 c).Φ (Fin.last _) = (dat1 (E3 m) c).Φ (Fin.last cfg1.N) from rfl]
    iintro H
    ihave H' := (hout1 (E3 m) c) $$ H
    icases H' with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E3 m c) (E4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold plain
-- definitions in a metavariable's type
set_option backward.isDefEq.respectTransparency.types false in
/-- Region 2 over the thread state: entered from every unscoped buffer at the contents before it, left with its arrays
    at what the write-backs leave and every other buffer as entered. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E5 m c) (E6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (B0 m)),
    .region (reg0 m),
    .host (hseg hostOps1 hostOps1_sub hostOps1_fresh (B2 m)),
    .region (reg1 m),
    .host (hseg hostOps2 hostOps2_sub hostOps2_fresh (B4 m)),
    .region (reg2 m) ]

theorem main_run (c : Dev nD) : main (F := F) c = Pipeline.Seg.run (segs m) := (main_chain c).trans (by chain_rfl)

set_option backward.isDefEq.respectTransparency.types false in
/-- From any memory with zero counters every weakly fair execution of the program terminates, nothing faulting, and
    every final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B6 m c b)
    (hfin := fun c s' => by
      iintro ⟨⟨Hh, -⟩, HSI⟩
      unfold StableHlo.held
      imodintro
      iapply (pointsTo_read_all (Pipeline.ucRefs τ sig) (fun b => (((c : Thread nD τ)).1, b)) (B6 m c) s')
      isplitl [Hh] <;> iassumption)
    (hQ := fun s h c => h c)

/-- The frame: the nine argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (B6_main_arg0 m c),
     (h c _ (mem_uc main_arg1 (by decide))).trans (B6_main_arg1 m c),
     (h c _ (mem_uc main_arg2 (by decide))).trans (B6_main_arg2 m c),
     (h c _ (mem_uc main_arg3 (by decide))).trans (B6_main_arg3 m c),
     (h c _ (mem_uc main_arg4 (by decide))).trans (B6_main_arg4 m c),
     (h c _ (mem_uc main_arg5 (by decide))).trans (B6_main_arg5 m c),
     (h c _ (mem_uc main_arg6 (by decide))).trans (B6_main_arg6 m c),
     (h c _ (mem_uc main_arg7 (by decide))).trans (B6_main_arg7 m c),
     (h c _ (mem_uc main_arg8 (by decide))).trans (B6_main_arg8 m c)⟩) (run_all m ρ)

end Cert.KernelIdeal.Hand

end
-- ==== Proof.RefRun.lean ====
/-
  The reference program's run, read back. Its @main is a straight line of host operations, three of them calls of
  outlined functions (the variance, which itself calls the selection, and the clamp at zero); with the callees'
  operations listed at their call sites over each call's buffers it is a list of 78 operations, and every weakly
  fair execution of it terminates with each buffer at the fold of the operations' results over the launch contents.
  The result buffer then holds `out` of the nine arguments: the operations' composed term, cut into the stages
  of the computation (first linear layer, message passing, column means, column variances, the normalised tail).
-/
import proofs.«116431_j21079699489214_1_alg».proof.Proof.Gen.ReferenceIdeal
import Idealize.ShloMosaic.Lib.StableHlo.Run
import Idealize.ShloMosaic.PureOps.Ideal

noncomputable section

namespace Cert.ReferenceIdeal.HandRun

open Cert.ReferenceIdeal Cert.ReferenceIdeal.Gen Idealize.ShloMosaic Idealize.ShloMosaic.TcCoe Idealize.SL.Sem Idealize.ShloMosaic.StableHlo

section Generic

variable {F : FTy → Type} [FloatOps F]

/-- @main's 78 operations in order, the callees' operations inline at their call sites: thirty-one of @main's own,
    the variance's nineteen over the record of its call, the selection's three over the record of the call nested
    in it, fifteen of @main's, the clamp's three, and @main's last six. -/
abbrev opsF : List (HloOp τ sig (Elt F)) :=
  [
    unary main_arg3 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg4 main_v2 (broadcastInDim S1x128 ![1] bcast_S128_S1x128_1 : (⟨S128, .f32⟩ : BufTy).Contents (Elt F) → (⟨S1x128, .f32⟩ : BufTy).Contents (Elt F)),
    unary main_v2 main_v3 (broadcastInDim S50000x128 ![0, 1] bcast_S1x128_S50000x128_0_1 : (⟨S1x128, .f32⟩ : BufTy).Contents (Elt F) → (⟨S50000x128, .f32⟩ : BufTy).Contents (Elt F)),
    binary main_v1 main_v3 main_v4 (addf : (⟨S50000x128, .f32⟩ : BufTy).Contents (Elt F) → (⟨S50000x128, .f32⟩ : BufTy).Contents (Elt F) → (⟨S50000x128, .f32⟩ : BufTy).Contents (Elt F)),
    unary main_arg1 main_v5 ((extractStridedSlice S1x1600000 ![0, 0] · slices_S2x1600000_S1x1600000_0_0) : (⟨S2x1600000, .i32⟩ : BufTy).Contents (Elt F) → (⟨S1x1600000, .i32⟩ : BufTy).Contents (Elt F)),
    reshape main_v5 main_v6 rfl shapeCasts_S1x1600000_S1600000,
    unary main_arg1 main_v7 ((extractStridedSlice S1x1600000 ![1, 0] · slices_S2x1600000_S1x1600000_1_0) : (⟨S2x1600000, .i32⟩ : BufTy).Contents (Elt F) → (⟨S1x1600000, .i32⟩ : BufTy).Contents (Elt F)),
    reshape main_v7 main_v8 rfl shapeCasts_S1x1600000_S1600000,
    nullary main_c (constantI S_ 32 0#32),
    unary main_c main_v9 (broadcastInDim S1600000 ![] bcast_S_S1600000 : (⟨S_, .i32⟩ : BufTy).Contents (Elt F) → (⟨S1600000, .i32⟩ : BufTy).Contents (Elt F)),
    binary main_v6 main_v9 main_v10 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 50000#32),
    unary main_c_0 main_v11 (broadcastInDim S1600000 ![] bcast_S_S1600000 : (⟨S_, .i32⟩ : BufTy).Contents (Elt F) → (⟨S1600000, .i32⟩ : BufTy).Contents (Elt F)),
    binary main_v6 main_v11 main_v12 (addi : (⟨S1600000, .i32⟩ : BufTy).Contents (Elt F) → (⟨S1600000, .i32⟩ : BufTy).Contents (Elt F) → (⟨S1600000, .i32⟩ : BufTy).Contents (Elt F)),
    ternary main_v10 main_v12 main_v6 main_v13 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v13 main_v14 (broadcastInDim S1600000x1 ![0] bcast_S1600000_S1600000x1_0 : (⟨S1600000, .i32⟩ : BufTy).Contents (Elt F) → (⟨S1600000x1, .i32⟩ : BufTy).Contents (Elt F)),
    binary main_v4 main_v14 main_v15 ((fun x i => Host.gather gather_S50000x128_S1600000x1_S1600000x128_1_0_n_n_0_1_1128 x i) : (⟨S50000x128, .f32⟩ : BufTy).Contents (Elt F) → (⟨S1600000x1, .i32⟩ : BufTy).Contents (Elt F) → (⟨S1600000x128, .f32⟩ : BufTy).Contents (Elt F)),
    unary main_arg2 main_v16 (broadcastInDim S1600000x1 ![0] bcast_S1600000_S1600000x1_0 : (⟨S1600000, .f32⟩ : BufTy).Contents (Elt F) → (⟨S1600000x1, .f32⟩ : BufTy).Contents (Elt F)),
    unary main_v16 main_v17 (broadcastInDim S1600000x128 ![0, 1] bcast_S1600000x1_S1600000x128_0_1 : (⟨S1600000x1, .f32⟩ : BufTy).Contents (Elt F) → (⟨S1600000x128, .f32⟩ : BufTy).Contents (Elt F)),
    binary main_v15 main_v17 main_v18 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v19 (broadcastInDim S50000x128 ![] bcast_S_S50000x128 : (⟨S_, .f32⟩ : BufTy).Contents (Elt F) → (⟨S50000x128, .f32⟩ : BufTy).Contents (Elt F)),
    unary main_v8 main_v20 (broadcastInDim S1600000x1 ![0] bcast_S1600000_S1600000x1_0 : (⟨S1600000, .i32⟩ : BufTy).Contents (Elt F) → (⟨S1600000x1, .i32⟩ : BufTy).Contents (Elt F)),
    ternary main_v19 main_v20 main_v18 main_v21 ((fun x i u => Host.scatterAdd scatter_S50000x128_S1600000x1_S1600000x128_1_0_0_1 x i u) : (⟨S50000x128, .f32⟩ : BufTy).Contents (Elt F) → (⟨S1600000x1, .i32⟩ : BufTy).Contents (Elt F) → (⟨S1600000x128, .f32⟩ : BufTy).Contents (Elt F) → (⟨S50000x128, .f32⟩ : BufTy).Contents (Elt F)),
    nullary main_cst_1 (constant S_ .f32 0x00000000#32),
    binary main_v21 main_cst_1 main_v22 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_2 (constant S_ .f32 0x47435000#32),
    unary main_cst_2 main_v23 (broadcastInDim S128 ![] bcast_S_S128 : (⟨S_, .f32⟩ : BufTy).Contents (Elt F) → (⟨S128, .f32⟩ : BufTy).Contents (Elt F)),
    binary main_v22 main_v23 main_v24 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary main_call0.cst (constant S_ .f32 0x00000000#32),
    TRef.binary (.of main_v21 : TRef sig ⟨S50000x128, .f32⟩) main_call0.cst main_call0.v0 (fun x v => Host.reduceAdd x v reducesTo_S50000x128_S128_d0 h_S_),
    TRef.unary main_call0.v0 main_call0.v1 (broadcastInDim S1x128 ![1] bcast_S128_S1x128_1),
    TRef.nullary main_call0.cst_0 (constant S_ .f32 0x47435000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S50000x128 ![0, 1] bcast_S1x128_S50000x128_0_1),
    TRef.binary (.of main_v21 : TRef sig ⟨S50000x128, .f32⟩) main_call0.v4 main_call0.v5 subf,
    TRef.binary main_call0.v5 main_call0.v5 main_call0.v6 mulf,
    TRef.unary (.of main_c_3 : TRef sig ⟨S_, .i32⟩) main_call0.v7 (sitofp .f32),
    TRef.nullary main_call0.cst_1 (constant S_ .f32 0x47435000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S50000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v24 main_v26 (broadcastInDim S1x128 ![1] bcast_S128_S1x128_1 : (⟨S128, .f32⟩ : BufTy).Contents (Elt F) → (⟨S1x128, .f32⟩ : BufTy).Contents (Elt F)),
    unary main_v26 main_v27 (broadcastInDim S50000x128 ![0, 1] bcast_S1x128_S50000x128_0_1 : (⟨S1x128, .f32⟩ : BufTy).Contents (Elt F) → (⟨S50000x128, .f32⟩ : BufTy).Contents (Elt F)),
    binary main_v21 main_v27 main_v28 (subf : (⟨S50000x128, .f32⟩ : BufTy).Contents (Elt F) → (⟨S50000x128, .f32⟩ : BufTy).Contents (Elt F) → (⟨S50000x128, .f32⟩ : BufTy).Contents (Elt F)),
    nullary main_cst_4 (constant S_ .f32 0x3727C5AC#32),
    unary main_cst_4 main_v29 (broadcastInDim S128 ![] bcast_S_S128 : (⟨S_, .f32⟩ : BufTy).Contents (Elt F) → (⟨S128, .f32⟩ : BufTy).Contents (Elt F)),
    binary main_v25 main_v29 main_v30 (addf : (⟨S128, .f32⟩ : BufTy).Contents (Elt F) → (⟨S128, .f32⟩ : BufTy).Contents (Elt F) → (⟨S128, .f32⟩ : BufTy).Contents (Elt F)),
    unary main_v30 main_v31 (Host.rsqrt : (⟨S128, .f32⟩ : BufTy).Contents (Elt F) → (⟨S128, .f32⟩ : BufTy).Contents (Elt F)),
    unary main_v31 main_v32 (broadcastInDim S1x128 ![1] bcast_S128_S1x128_1 : (⟨S128, .f32⟩ : BufTy).Contents (Elt F) → (⟨S1x128, .f32⟩ : BufTy).Contents (Elt F)),
    unary main_v32 main_v33 (broadcastInDim S50000x128 ![0, 1] bcast_S1x128_S50000x128_0_1 : (⟨S1x128, .f32⟩ : BufTy).Contents (Elt F) → (⟨S50000x128, .f32⟩ : BufTy).Contents (Elt F)),
    binary main_v28 main_v33 main_v34 (mulf : (⟨S50000x128, .f32⟩ : BufTy).Contents (Elt F) → (⟨S50000x128, .f32⟩ : BufTy).Contents (Elt F) → (⟨S50000x128, .f32⟩ : BufTy).Contents (Elt F)),
    unary main_arg7 main_v35 (broadcastInDim S1x128 ![1] bcast_S128_S1x128_1 : (⟨S128, .f32⟩ : BufTy).Contents (Elt F) → (⟨S1x128, .f32⟩ : BufTy).Contents (Elt F)),
    unary main_v35 main_v36 (broadcastInDim S50000x128 ![0, 1] bcast_S1x128_S50000x128_0_1 : (⟨S1x128, .f32⟩ : BufTy).Contents (Elt F) → (⟨S50000x128, .f32⟩ : BufTy).Contents (Elt F)),
    binary main_v34 main_v36 main_v37 (mulf : (⟨S50000x128, .f32⟩ : BufTy).Contents (Elt F) → (⟨S50000x128, .f32⟩ : BufTy).Contents (Elt F) → (⟨S50000x128, .f32⟩ : BufTy).Contents (Elt F)),
    unary main_arg8 main_v38 (broadcastInDim S1x128 ![1] bcast_S128_S1x128_1 : (⟨S128, .f32⟩ : BufTy).Contents (Elt F) → (⟨S1x128, .f32⟩ : BufTy).Contents (Elt F)),
    unary main_v38 main_v39 (broadcastInDim S50000x128 ![0, 1] bcast_S1x128_S50000x128_0_1 : (⟨S1x128, .f32⟩ : BufTy).Contents (Elt F) → (⟨S50000x128, .f32⟩ : BufTy).Contents (Elt F)),
    binary main_v37 main_v39 main_v40 (addf : (⟨S50000x128, .f32⟩ : BufTy).Contents (Elt F) → (⟨S50000x128, .f32⟩ : BufTy).Contents (Elt F) → (⟨S50000x128, .f32⟩ : BufTy).Contents (Elt F)),
    TRef.nullary main_call1.cst (constant S_ .f32 0x00000000#32),
    TRef.unary main_call1.cst main_call1.v0 (broadcastInDim S50000x128 ![] bcast_S_S50000x128),
    TRef.binary (.of main_v40 : TRef sig ⟨S50000x128, .f32⟩) main_call1.v0 main_call1.v1 maximumf,
    unary main_arg5 main_v42 ((transpose S128x128 [1, 0] · transposes_S128x128_S128x128_1_0) : (⟨S128x128, .f32⟩ : BufTy).Contents (Elt F) → (⟨S128x128, .f32⟩ : BufTy).Contents (Elt F)),
    binary main_arg0 main_v42 main_v43 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    binary main_v41 main_v43 main_v44 (addf : (⟨S50000x128, .f32⟩ : BufTy).Contents (Elt F) → (⟨S50000x128, .f32⟩ : BufTy).Contents (Elt F) → (⟨S50000x128, .f32⟩ : BufTy).Contents (Elt F)),
    unary main_arg6 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v44 main_v46 main_v47 (addf : (⟨S50000x128, .f32⟩ : BufTy).Contents (Elt F) → (⟨S50000x128, .f32⟩ : BufTy).Contents (Elt F) → (⟨S50000x128, .f32⟩ : BufTy).Contents (Elt F)) ]

-- seventy-eight binds re-associated: the rewrite under the chain recurses once per statement
set_option maxRecDepth 4096 in
set_option maxHeartbeats 4000000 in
/-- @main is that straight line: the outlined functions unfolded at their calls, both sides are one chain of steps
    once sequencing is re-associated. -/
theorem main_eqF (c : Dev nD) : main (F := F) c = seq opsF := by
  simp only [main, fn_var.body, fn_where.body, fn_relu.body, seq, bind_assoc, pure_bind]

theorem ops_subF : (opsF : List (HloOp τ sig (Elt F))).Forall fun op => op.bufs ⊆ tcRefs τ sig :=
  ⟨
    unary_bufs_sub .., binary_bufs_sub .., unary_bufs_sub .., unary_bufs_sub .., binary_bufs_sub .., unary_bufs_sub ..,
    reshape_bufs_sub .., unary_bufs_sub .., reshape_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    unary_bufs_sub .., binary_bufs_sub .., binary_bufs_sub .., unary_bufs_sub .., unary_bufs_sub .., binary_bufs_sub ..⟩

/-! ### The composed term, stage by stage -/

/-- the first linear layer: the node features times the transposed weight matrix, plus the bias broadcast over the rows -/
def linF (a0 : (⟨S50000x128, .f32⟩ : BufTy).Contents (Elt F)) (a3 : (⟨S128x128, .f32⟩ : BufTy).Contents (Elt F)) (a4 : (⟨S128, .f32⟩ : BufTy).Contents (Elt F)) :
    (⟨S50000x128, .f32⟩ : BufTy).Contents (Elt F) :=
  (addf (Host.dotGeneral dot_S50000x128_S128x128_S50000x128_1_0_0_1_n_n none a0 (transpose S128x128 [1, 0] a3 transposes_S128x128_S128x128_1_0 : (⟨S128x128, .f32⟩ : BufTy).Contents (Elt F)) : (⟨S50000x128, .f32⟩ : BufTy).Contents (Elt F)) (broadcastInDim S50000x128 ![0, 1] bcast_S1x128_S50000x128_0_1 (broadcastInDim S1x128 ![1] bcast_S128_S1x128_1 a4 : (⟨S1x128, .f32⟩ : BufTy).Contents (Elt F)) : (⟨S50000x128, .f32⟩ : BufTy).Contents (Elt F)) : (⟨S50000x128, .f32⟩ : BufTy).Contents (Elt F))

/-- the message passing applied to a support array: source and target rows of the edge list, negative source indices wrapped by the row count, the support's rows gathered at the sources, scaled by the edge weights, and summed into the target rows of a zero array -/
def chainF (a1 : (⟨S2x1600000, .i32⟩ : BufTy).Contents (Elt F)) (a2 : (⟨S1600000, .f32⟩ : BufTy).Contents (Elt F)) (sup : (⟨S50000x128, .f32⟩ : BufTy).Contents (Elt F)) :
    (⟨S50000x128, .f32⟩ : BufTy).Contents (Elt F) :=
  (Host.scatterAdd scatter_S50000x128_S1600000x1_S1600000x128_1_0_0_1 (broadcastInDim S50000x128 ![] bcast_S_S50000x128 (constant S_ .f32 0x00000000#32 : (⟨S_, .f32⟩ : BufTy).Contents (Elt F)) : (⟨S50000x128, .f32⟩ : BufTy).Contents (Elt F)) (broadcastInDim S1600000x1 ![0] bcast_S1600000_S1600000x1_0 (shapeCast S1600000 (extractStridedSlice S1x1600000 ![1, 0] a1 slices_S2x1600000_S1x1600000_1_0 : (⟨S1x1600000, .i32⟩ : BufTy).Contents (Elt F)) shapeCasts_S1x1600000_S1600000 : (⟨S1600000, .i32⟩ : BufTy).Contents (Elt F)) : (⟨S1600000x1, .i32⟩ : BufTy).Contents (Elt F)) (mulf (Host.gather gather_S50000x128_S1600000x1_S1600000x128_1_0_n_n_0_1_1128 sup (broadcastInDim S1600000x1 ![0] bcast_S1600000_S1600000x1_0 (select (cmpi .slt (shapeCast S1600000 (extractStridedSlice S1x1600000 ![0, 0] a1 slices_S2x1600000_S1x1600000_0_0 : (⟨S1x1600000, .i32⟩ : BufTy).Contents (Elt F)) shapeCasts_S1x1600000_S1600000 : (⟨S1600000, .i32⟩ : BufTy).Contents (Elt F)) (broadcastInDim S1600000 ![] bcast_S_S1600000 (constantI S_ 32 0#32 : (⟨S_, .i32⟩ : BufTy).Contents (Elt F)) : (⟨S1600000, .i32⟩ : BufTy).Contents (Elt F)) : (⟨S1600000, .i1⟩ : BufTy).Contents (Elt F)) (addi (shapeCast S1600000 (extractStridedSlice S1x1600000 ![0, 0] a1 slices_S2x1600000_S1x1600000_0_0 : (⟨S1x1600000, .i32⟩ : BufTy).Contents (Elt F)) shapeCasts_S1x1600000_S1600000 : (⟨S1600000, .i32⟩ : BufTy).Contents (Elt F)) (broadcastInDim S1600000 ![] bcast_S_S1600000 (constantI S_ 32 50000#32 : (⟨S_, .i32⟩ : BufTy).Contents (Elt F)) : (⟨S1600000, .i32⟩ : BufTy).Contents (Elt F)) : (⟨S1600000, .i32⟩ : BufTy).Contents (Elt F)) (shapeCast S1600000 (extractStridedSlice S1x1600000 ![0, 0] a1 slices_S2x1600000_S1x1600000_0_0 : (⟨S1x1600000, .i32⟩ : BufTy).Contents (Elt F)) shapeCasts_S1x1600000_S1600000 : (⟨S1600000, .i32⟩ : BufTy).Contents (Elt F)) : (⟨S1600000, .i32⟩ : BufTy).Contents (Elt F)) : (⟨S1600000x1, .i32⟩ : BufTy).Contents (Elt F)) : (⟨S1600000x128, .f32⟩ : BufTy).Contents (Elt F)) (broadcastInDim S1600000x128 ![0, 1] bcast_S1600000x1_S1600000x128_0_1 (broadcastInDim S1600000x1 ![0] bcast_S1600000_S1600000x1_0 a2 : (⟨S1600000x1, .f32⟩ : BufTy).Contents (Elt F)) : (⟨S1600000x128, .f32⟩ : BufTy).Contents (Elt F)) : (⟨S1600000x128, .f32⟩ : BufTy).Contents (Elt F)) : (⟨S50000x128, .f32⟩ : BufTy).Contents (Elt F))

/-- the column means of an array: its column sums over 50000 -/
def meanF (h : (⟨S50000x128, .f32⟩ : BufTy).Contents (Elt F)) :
    (⟨S128, .f32⟩ : BufTy).Contents (Elt F) :=
  (Host.divf (Host.reduceAdd h (constant S_ .f32 0x00000000#32 : (⟨S_, .f32⟩ : BufTy).Contents (Elt F)) reducesTo_S50000x128_S128_d0 h_S_ : (⟨S128, .f32⟩ : BufTy).Contents (Elt F)) (broadcastInDim S128 ![] bcast_S_S128 (constant S_ .f32 0x47435000#32 : (⟨S_, .f32⟩ : BufTy).Contents (Elt F)) : (⟨S128, .f32⟩ : BufTy).Contents (Elt F)) : (⟨S128, .f32⟩ : BufTy).Contents (Elt F))

/-- an array's deviations from its column means (the column sums over 50000, broadcast back over the rows) -/
def devF (h : (⟨S50000x128, .f32⟩ : BufTy).Contents (Elt F)) :
    (⟨S50000x128, .f32⟩ : BufTy).Contents (Elt F) :=
  (subf h (broadcastInDim S50000x128 ![0, 1] bcast_S1x128_S50000x128_0_1 (Host.divf (broadcastInDim S1x128 ![1] bcast_S128_S1x128_1 (Host.reduceAdd h (constant S_ .f32 0x00000000#32 : (⟨S_, .f32⟩ : BufTy).Contents (Elt F)) reducesTo_S50000x128_S128_d0 h_S_ : (⟨S128, .f32⟩ : BufTy).Contents (Elt F)) : (⟨S1x128, .f32⟩ : BufTy).Contents (Elt F)) (broadcastInDim S1x128 ![] bcast_S_S1x128 (constant S_ .f32 0x47435000#32 : (⟨S_, .f32⟩ : BufTy).Contents (Elt F)) : (⟨S1x128, .f32⟩ : BufTy).Contents (Elt F)) : (⟨S1x128, .f32⟩ : BufTy).Contents (Elt F)) : (⟨S50000x128, .f32⟩ : BufTy).Contents (Elt F)) : (⟨S50000x128, .f32⟩ : BufTy).Contents (Elt F))

/-- the variance's divisor: 50000 minus the degrees-of-freedom correction, the integer 0 converted -/
def dofF  :
    (⟨S_, .f32⟩ : BufTy).Contents (Elt F) :=
  (subf (constant S_ .f32 0x47435000#32 : (⟨S_, .f32⟩ : BufTy).Contents (Elt F)) (sitofp .f32 (constantI S_ 32 0#32 : (⟨S_, .i32⟩ : BufTy).Contents (Elt F)) : (⟨S_, .f32⟩ : BufTy).Contents (Elt F)) : (⟨S_, .f32⟩ : BufTy).Contents (Elt F))

/-- the column variances of an array as the outlined variance function computes them: the column sums of the squared deviations over the divisor, selected against a not-a-number fill where the divisor is not positive -/
def varF (h : (⟨S50000x128, .f32⟩ : BufTy).Contents (Elt F)) :
    (⟨S128, .f32⟩ : BufTy).Contents (Elt F) :=
  (select (broadcastInDim S128 ![] bcast_S_S128 (cmpf .ogt (dofF (F := F)) (constant S_ .f32 0x00000000#32 : (⟨S_, .f32⟩ : BufTy).Contents (Elt F)) : (⟨S_, .i1⟩ : BufTy).Contents (Elt F))) (Host.divf (Host.reduceAdd (mulf (devF h) (devF h) : (⟨S50000x128, .f32⟩ : BufTy).Contents (Elt F)) (constant S_ .f32 0x00000000#32 : (⟨S_, .f32⟩ : BufTy).Contents (Elt F)) reducesTo_S50000x128_S128_d0 h_S_ : (⟨S128, .f32⟩ : BufTy).Contents (Elt F)) (broadcastInDim S128 ![] bcast_S_S128 (dofF (F := F)) : (⟨S128, .f32⟩ : BufTy).Contents (Elt F)) : (⟨S128, .f32⟩ : BufTy).Contents (Elt F)) (broadcastInDim S128 ![] bcast_S_S128 (id (constant S_ .f32 0x7FC00000#32 : (⟨S_, .f32⟩ : BufTy).Contents (Elt F)) : (⟨S_, .f32⟩ : BufTy).Contents (Elt F)) : (⟨S128, .f32⟩ : BufTy).Contents (Elt F)) : (⟨S128, .f32⟩ : BufTy).Contents (Elt F))

/-- normalisation, scale, shift, clamp at zero, plus the second linear layer of the node features -/
def tailF (h : (⟨S50000x128, .f32⟩ : BufTy).Contents (Elt F)) (mu : (⟨S128, .f32⟩ : BufTy).Contents (Elt F)) (va : (⟨S128, .f32⟩ : BufTy).Contents (Elt F)) (a0 : (⟨S50000x128, .f32⟩ : BufTy).Contents (Elt F)) (a5 : (⟨S128x128, .f32⟩ : BufTy).Contents (Elt F)) (a6 : (⟨S128, .f32⟩ : BufTy).Contents (Elt F)) (a7 : (⟨S128, .f32⟩ : BufTy).Contents (Elt F)) (a8 : (⟨S128, .f32⟩ : BufTy).Contents (Elt F)) :
    (⟨S50000x128, .f32⟩ : BufTy).Contents (Elt F) :=
  (addf (addf (maximumf (addf (mulf (mulf (subf h (broadcastInDim S50000x128 ![0, 1] bcast_S1x128_S50000x128_0_1 (broadcastInDim S1x128 ![1] bcast_S128_S1x128_1 mu : (⟨S1x128, .f32⟩ : BufTy).Contents (Elt F)) : (⟨S50000x128, .f32⟩ : BufTy).Contents (Elt F)) : (⟨S50000x128, .f32⟩ : BufTy).Contents (Elt F)) (broadcastInDim S50000x128 ![0, 1] bcast_S1x128_S50000x128_0_1 (broadcastInDim S1x128 ![1] bcast_S128_S1x128_1 (Host.rsqrt (addf va (broadcastInDim S128 ![] bcast_S_S128 (constant S_ .f32 0x3727C5AC#32 : (⟨S_, .f32⟩ : BufTy).Contents (Elt F)) : (⟨S128, .f32⟩ : BufTy).Contents (Elt F)) : (⟨S128, .f32⟩ : BufTy).Contents (Elt F)) : (⟨S128, .f32⟩ : BufTy).Contents (Elt F)) : (⟨S1x128, .f32⟩ : BufTy).Contents (Elt F)) : (⟨S50000x128, .f32⟩ : BufTy).Contents (Elt F)) : (⟨S50000x128, .f32⟩ : BufTy).Contents (Elt F)) (broadcastInDim S50000x128 ![0, 1] bcast_S1x128_S50000x128_0_1 (broadcastInDim S1x128 ![1] bcast_S128_S1x128_1 a7 : (⟨S1x128, .f32⟩ : BufTy).Contents (Elt F)) : (⟨S50000x128, .f32⟩ : BufTy).Contents (Elt F)) : (⟨S50000x128, .f32⟩ : BufTy).Contents (Elt F)) (broadcastInDim S50000x128 ![0, 1] bcast_S1x128_S50000x128_0_1 (broadcastInDim S1x128 ![1] bcast_S128_S1x128_1 a8 : (⟨S1x128, .f32⟩ : BufTy).Contents (Elt F)) : (⟨S50000x128, .f32⟩ : BufTy).Contents (Elt F)) : (⟨S50000x128, .f32⟩ : BufTy).Contents (Elt F)) (broadcastInDim S50000x128 ![] bcast_S_S50000x128 (constant S_ .f32 0x00000000#32 : (⟨S_, .f32⟩ : BufTy).Contents (Elt F)) : (⟨S50000x128, .f32⟩ : BufTy).Contents (Elt F)) : (⟨S50000x128, .f32⟩ : BufTy).Contents (Elt F)) (Host.dotGeneral dot_S50000x128_S128x128_S50000x128_1_0_0_1_n_n none a0 (transpose S128x128 [1, 0] a5 transposes_S128x128_S128x128_1_0 : (⟨S128x128, .f32⟩ : BufTy).Contents (Elt F)) : (⟨S50000x128, .f32⟩ : BufTy).Contents (Elt F)) : (⟨S50000x128, .f32⟩ : BufTy).Contents (Elt F)) (broadcastInDim S50000x128 ![0, 1] bcast_S1x128_S50000x128_0_1 (broadcastInDim S1x128 ![1] bcast_S128_S1x128_1 a6 : (⟨S1x128, .f32⟩ : BufTy).Contents (Elt F)) : (⟨S50000x128, .f32⟩ : BufTy).Contents (Elt F)) : (⟨S50000x128, .f32⟩ : BufTy).Contents (Elt F))

/-- everything after the message passing, as a function of its result -/
def postF (h : (⟨S50000x128, .f32⟩ : BufTy).Contents (Elt F)) (a0 : (⟨S50000x128, .f32⟩ : BufTy).Contents (Elt F)) (a5 : (⟨S128x128, .f32⟩ : BufTy).Contents (Elt F)) (a6 a7 a8 : (⟨S128, .f32⟩ : BufTy).Contents (Elt F)) :
    (⟨S50000x128, .f32⟩ : BufTy).Contents (Elt F) :=
  tailF h (meanF h) (varF h) a0 a5 a6 a7 a8

/-- the program's result as a function of its nine arguments -/
def outF (a0 : (⟨S50000x128, .f32⟩ : BufTy).Contents (Elt F)) (a1 : (⟨S2x1600000, .i32⟩ : BufTy).Contents (Elt F)) (a2 : (⟨S1600000, .f32⟩ : BufTy).Contents (Elt F)) (a3 : (⟨S128x128, .f32⟩ : BufTy).Contents (Elt F)) (a4 : (⟨S128, .f32⟩ : BufTy).Contents (Elt F)) (a5 : (⟨S128x128, .f32⟩ : BufTy).Contents (Elt F)) (a6 a7 a8 : (⟨S128, .f32⟩ : BufTy).Contents (Elt F)) :
    (⟨S50000x128, .f32⟩ : BufTy).Contents (Elt F) :=
  postF (chainF a1 a2 (linF a0 a3 a4)) a0 a5 a6 a7 a8

/-! ### What the buffers hold after the line -/

attribute [local irreducible] Host.reduceAdd Host.gather Host.scatterAdd in
set_option maxRecDepth 8192 in
set_option maxHeartbeats 4000000 in
/-- The fold at the result buffer is the composed term: each operation's result at its own buffer is its function's
    value, at any other buffer what was there; the typed references' transports are the identity at these literal
    references. -/
theorem after_outF (V : Valuation τ sig (Elt F)) :
    after opsF V (Proc.devRef (τ := τ) .tc main_v47)
      = outF (V (Proc.devRef (τ := τ) .tc main_arg0)) (V (Proc.devRef (τ := τ) .tc main_arg1)) (V (Proc.devRef (τ := τ) .tc main_arg2)) (V (Proc.devRef (τ := τ) .tc main_arg3)) (V (Proc.devRef (τ := τ) .tc main_arg4)) (V (Proc.devRef (τ := τ) .tc main_arg5)) (V (Proc.devRef (τ := τ) .tc main_arg6)) (V (Proc.devRef (τ := τ) .tc main_arg7)) (V (Proc.devRef (τ := τ) .tc main_arg8)) := by
  after_results_simp
  rfl

set_option maxRecDepth 8192 in
set_option maxHeartbeats 4000000 in
/-- No operation writes argument 0. -/
theorem after_arg0F (V : Valuation τ sig (Elt F)) :
    after opsF V (Proc.devRef (τ := τ) .tc main_arg0) = V (Proc.devRef (τ := τ) .tc main_arg0) := by
  after_results_simp

set_option maxRecDepth 8192 in
set_option maxHeartbeats 4000000 in
/-- No operation writes argument 1. -/
theorem after_arg1F (V : Valuation τ sig (Elt F)) :
    after opsF V (Proc.devRef (τ := τ) .tc main_arg1) = V (Proc.devRef (τ := τ) .tc main_arg1) := by
  after_results_simp

set_option maxRecDepth 8192 in
set_option maxHeartbeats 4000000 in
/-- No operation writes argument 2. -/
theorem after_arg2F (V : Valuation τ sig (Elt F)) :
    after opsF V (Proc.devRef (τ := τ) .tc main_arg2) = V (Proc.devRef (τ := τ) .tc main_arg2) := by
  after_results_simp

set_option maxRecDepth 8192 in
set_option maxHeartbeats 4000000 in
/-- No operation writes argument 3. -/
theorem after_arg3F (V : Valuation τ sig (Elt F)) :
    after opsF V (Proc.devRef (τ := τ) .tc main_arg3) = V (Proc.devRef (τ := τ) .tc main_arg3) := by
  after_results_simp

set_option maxRecDepth 8192 in
set_option maxHeartbeats 4000000 in
/-- No operation writes argument 4. -/
theorem after_arg4F (V : Valuation τ sig (Elt F)) :
    after opsF V (Proc.devRef (τ := τ) .tc main_arg4) = V (Proc.devRef (τ := τ) .tc main_arg4) := by
  after_results_simp

set_option maxRecDepth 8192 in
set_option maxHeartbeats 4000000 in
/-- No operation writes argument 5. -/
theorem after_arg5F (V : Valuation τ sig (Elt F)) :
    after opsF V (Proc.devRef (τ := τ) .tc main_arg5) = V (Proc.devRef (τ := τ) .tc main_arg5) := by
  after_results_simp

set_option maxRecDepth 8192 in
set_option maxHeartbeats 4000000 in
/-- No operation writes argument 6. -/
theorem after_arg6F (V : Valuation τ sig (Elt F)) :
    after opsF V (Proc.devRef (τ := τ) .tc main_arg6) = V (Proc.devRef (τ := τ) .tc main_arg6) := by
  after_results_simp

set_option maxRecDepth 8192 in
set_option maxHeartbeats 4000000 in
/-- No operation writes argument 7. -/
theorem after_arg7F (V : Valuation τ sig (Elt F)) :
    after opsF V (Proc.devRef (τ := τ) .tc main_arg7) = V (Proc.devRef (τ := τ) .tc main_arg7) := by
  after_results_simp

set_option maxRecDepth 8192 in
set_option maxHeartbeats 4000000 in
/-- No operation writes argument 8. -/
theorem after_arg8F (V : Valuation τ sig (Elt F)) :
    after opsF V (Proc.devRef (τ := τ) .tc main_arg8) = V (Proc.devRef (τ := τ) .tc main_arg8) := by
  after_results_simp

end Generic

/-! ## At the ideal values -/

/-- the reference's @main as a list of host operations (the callees' operations inline at their call sites) -/
abbrev ops : List (HloOp τ sig (Elt Ideal)) := opsF

theorem main_eq (c : Dev nD) : main (F := Ideal) c = seq ops := main_eqF c
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt Ideal))).Forall fun op => op.bufs ⊆ tcRefs τ sig := ops_subF

/-- the message passing applied to a support array, at the ideal values: the printed index, gather, multiply and
    scatter-add operations, as one function of the edge list, the edge weights and the support -/
def chain (ei : (⟨S2x1600000, .i32⟩ : BufTy).Contents (Elt Ideal)) (ew : (⟨S1600000, .f32⟩ : BufTy).Contents (Elt Ideal))
    (sup : S50000x128.Idx → EReal) : S50000x128.Idx → EReal :=
  chainF (F := Ideal) ei ew sup

/-- the reference's result, the operations' composed pure term of the nine argument arrays -/
def out (a0 : (⟨S50000x128, .f32⟩ : BufTy).Contents (Elt Ideal)) (a1 : (⟨S2x1600000, .i32⟩ : BufTy).Contents (Elt Ideal)) (a2 : (⟨S1600000, .f32⟩ : BufTy).Contents (Elt Ideal)) (a3 : (⟨S128x128, .f32⟩ : BufTy).Contents (Elt Ideal)) (a4 : (⟨S128, .f32⟩ : BufTy).Contents (Elt Ideal)) (a5 : (⟨S128x128, .f32⟩ : BufTy).Contents (Elt Ideal)) (a6 a7 a8 : (⟨S128, .f32⟩ : BufTy).Contents (Elt Ideal)) : (⟨S50000x128, .f32⟩ : BufTy).Contents (Elt Ideal) :=
  outF (F := Ideal) a0 a1 a2 a3 a4 a5 a6 a7 a8

/-- every weakly fair execution of the reference terminates, faults nowhere, ends with main_v47 at out of the launch
    contents of the arguments and with the nine arguments unchanged -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v47) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ (r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8))) :=
  (θ_run defs _ _).mono (fun _ h c => ⟨(h c main_v47).trans (after_outF _),
      (h c main_arg0).trans (after_arg0F _),
      (h c main_arg1).trans (after_arg1F _),
      (h c main_arg2).trans (after_arg2F _),
      (h c main_arg3).trans (after_arg3F _),
      (h c main_arg4).trans (after_arg4F _),
      (h c main_arg5).trans (after_arg5F _),
      (h c main_arg6).trans (after_arg6F _),
      (h c main_arg7).trans (after_arg7F _),
      (h c main_arg8).trans (after_arg8F _)⟩)
    (run_seq scopedRefs_eq scopedSems_eq defs main (fun _ => ops) main_eq (fun _ => ops_sub) m ρ)

end Cert.ReferenceIdeal.HandRun

end
-- ==== Proof.LibMatmul.lean ====
/-
  A plain matrix product read at an index. For the dimension numbers of an M×K by K×N product (contract the left
  operand's second axis with the right operand's first), the contraction's sum at output index (p, q), which the
  library states over the contraction shape's own index type, is the textbook sum over k : Fin K of L[p, k] · R[k, q].
-/
import Idealize.ShloMosaic.PureOps.Ideal
import Idealize.ShloMosaic.PureOps.Ideal.Laws
import Idealize.ShloMosaic.Lib.ValueIdx

noncomputable section

open scoped BigOperators

namespace Cert.Bridge.LibMatmul

open Idealize.ShloMosaic Idealize.ShloMosaic.ValueIdx

variable {M K N : Nat}

theorem plain_rank : (DotDims.plain M K N).contr.rank = 1 := rfl
theorem plain_size : (DotDims.plain M K N).contr.size ⟨0, by rw [plain_rank]; exact Nat.one_pos⟩ = K := rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K plain_rank plain_size).symm k) = ix2 p k := by
  funext a
  refine Fin.ext ?_
  match a with
  | ⟨0, _⟩ => rfl
  | ⟨1, _⟩ =>
    refine ((DotDims.plain M K N).lhsIdx_val_of_single (cl := 1) rfl (ix2 p q) _).trans ?_
    exact contrEquiv1_symm_val (DotDims.plain M K N) K plain_rank plain_size k

/-- The right operand's index at output (p, q) and contraction coordinate k is (k, q). -/
theorem plain_rhsIdx (p : Fin M) (q : Fin N) (k : Fin K) :
    (DotDims.plain M K N).rhsIdx (ix2 p q) ((contrEquiv1 (DotDims.plain M K N) K plain_rank plain_size).symm k) = ix2 k q := by
  funext a
  refine Fin.ext ?_
  match a with
  | ⟨0, _⟩ =>
    refine ((DotDims.plain M K N).rhsIdx_val_of_single (cr := 0) rfl (ix2 p q) _).trans ?_
    exact contrEquiv1_symm_val (DotDims.plain M K N) K plain_rank plain_size k
  | ⟨1, _⟩ => rfl

/-- The contraction's sum, over the textbook index. -/
theorem plain_sum {α : Type} [AddCommMonoid α] [Mul α] (L : (⟨2, ![M, K]⟩ : Shape).Idx → α) (R : (⟨2, ![K, N]⟩ : Shape).Idx → α)
    (p : Fin M) (q : Fin N) :
    ∑ k : (DotDims.plain M K N).contr.Idx, L ((DotDims.plain M K N).lhsIdx (ix2 p q) k) * R ((DotDims.plain M K N).rhsIdx (ix2 p q) k)
      = ∑ k : Fin K, L (ix2 p k) * R (ix2 k q) := by
  rw [← Equiv.sum_comp (contrEquiv1 (DotDims.plain M K N) K plain_rank plain_size).symm]
  refine Finset.sum_congr rfl fun k _ => ?_
  rw [plain_lhsIdx, plain_rhsIdx]

/-- A matrix unit's product into the zero accumulator, at the extended reals, read at (p, q). -/
theorem matmul_zero_apply {φ₁ φ₂ : FTy} (prec : Option ContractPrecision)
    (L : FVec Ideal ⟨2, ![M, K]⟩ φ₁) (R : FVec Ideal ⟨2, ![K, N]⟩ φ₂) (p : Fin M) (q : Fin N) :
    FloatOps.matmul (DotDims.plain M K N) prec L R (constant ⟨2, ![M, N]⟩ .f32 0x00000000#32) (ix2 p q)
      = ∑ k : Fin K, L (ix2 p k) * R (ix2 k q) :=
  (Ideal.matmul_constant_zero_apply _ prec L R (ix2 p q)).trans (plain_sum L R p q)

/-- The host's product, at the extended reals, read at (p, q). -/
theorem dotGeneral_apply {φ₁ φ₂ : FTy} (prec : Option ContractPrecision) (sched : HostSchedule)
    (L : FVec Ideal ⟨2, ![M, K]⟩ φ₁) (R : FVec Ideal ⟨2, ![K, N]⟩ φ₂) (p : Fin M) (q : Fin N) :
    FloatOps.dotGeneral (DotDims.plain M K N) prec sched L R (ix2 p q) = ∑ k : Fin K, L (ix2 p k) * R (ix2 k q) :=
  (Ideal.dotGeneral_apply _ prec sched L R (ix2 p q)).trans (plain_sum L R p q)

end Cert.Bridge.LibMatmul

end
-- ==== Proof.LibDenseLayer.lean ====
/-
  A dense layer on the extended reals, and its reading at an entry on the matrix unit.

  The specification (namespace Cert.Bridge.Spec): for a matrix A with rows p and features k, weights W and a bias b,
  the unclamped layer's entry (p, q) is the sum over k of A[p, k] · W[k, q], plus b[q]; a hidden layer clamps that entry
  below at the zero word's value. Row p of either depends on row p of A alone, so re-indexing the rows of the input
  re-indexes the rows of the output (by unfolding): a block of rows can be computed on its own. Any row count, any
  widths.

  The reading (namespace Cert.Bridge.LayerAt): a matrix unit's product of an M × K by a K × N operand into a zero
  accumulator, plus a [1, N] bias row spread over the M rows, read at entry (p, q), is the unclamped layer over the
  operands' entries; with a clamp against a splat of the zero word it is the hidden layer; and followed by the change
  of float format that usually comes next (the identity on the extended reals) it is, as a whole matrix, the hidden
  layer of the operands' matrices, which is the form that lets consecutive layers be chained by congruence. Nothing
  here assumes finiteness: only the reading of a sum at its index.
-/
import proofs.«116431_j21079699489214_1_alg».proof.Proof.LibMatmul
import Idealize.ShloMosaic.PureOps.Ideal
import Idealize.ShloMosaic.Lib.ValueIdx
import Idealize.ShloMosaic.Lib.ValueLayout

noncomputable section

open scoped BigOperators

namespace Cert.Bridge.Spec

open Idealize.ShloMosaic

variable {M M' K N : Nat}

/-- The clamp's floor: the extended real the zero word of f32 denotes. -/
abbrev floor0 : EReal := Ideal.ofBits .f32 0x00000000#32

/-- The unclamped layer: entry (p, q) is the contraction of row p of A with column q of W, plus b[q]. -/
def head (A : Fin M → Fin K → EReal) (W : Fin K → Fin N → EReal) (b : Fin N → EReal) (p : Fin M) (q : Fin N) : EReal :=
  (∑ k : Fin K, A p k * W k q) + b q

/-- A hidden layer: the unclamped layer's entry, clamped below at the floor. -/
def layer (A : Fin M → Fin K → EReal) (W : Fin K → Fin N → EReal) (b : Fin N → EReal) (p : Fin M) (q : Fin N) : EReal :=
  max (head A W b p q) floor0

/-- Row p of a layer's output is a function of row p of its input alone: re-indexing the rows commutes with the layer. -/
theorem head_rows (σ : Fin M' → Fin M) (A : Fin M → Fin K → EReal) (W : Fin K → Fin N → EReal) (b : Fin N → EReal) :
    head (fun r => A (σ r)) W b = fun r => head A W b (σ r) := rfl

/-- The same for a hidden layer: the clamp acts entry by entry. -/
theorem layer_rows (σ : Fin M' → Fin M) (A : Fin M → Fin K → EReal) (W : Fin K → Fin N → EReal) (b : Fin N → EReal) :
    layer (fun r => A (σ r)) W b = fun r => layer A W b (σ r) := rfl

end Cert.Bridge.Spec

namespace Cert.Bridge.LayerAt

open Idealize.ShloMosaic Idealize.ShloMosaic.ValueIdx Cert.Bridge

variable {M K N : Nat}

/-- A matrix as a function of its two coordinates. (On the extended reals every element type is the same
    set, so the matrix is taken as a plain function of its index.) -/
abbrev mat (A : (⟨2, ![M, K]⟩ : Shape).Idx → EReal) : Fin M → Fin K → EReal := fun p k => A (ix2 p k)

/-- A one-row matrix as a function of its column. -/
abbrev row (b : (⟨2, ![1, N]⟩ : Shape).Idx → EReal) : Fin N → EReal := fun q => b (ix2 (0 : Fin 1) q)

/-- The unclamped layer on the matrix unit: product into zero plus the spread bias row. -/
theorem head_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (FloatOps.matmul (DotDims.plain M K N) prec A W (constant ⟨2, ![M, N]⟩ .f32 0x00000000#32))
        (broadcastTo ⟨2, ![M, N]⟩ b hb) (ix2 p q)
      = Spec.head (mat A) (mat W) (row b) p q := by
  rw [addf_apply, LibMatmul.matmul_zero_apply, broadcastTo_1b_ab_apply]
  rfl

/-- A hidden layer on the matrix unit: the unclamped layer, clamped against a splat of the zero word. The splat's
    scalar and the specification's floor are the same extended real, the one the zero word denotes. -/
theorem layer_apply {φ₁ φ₂ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32)) (ix2 p q)
      = Spec.layer (mat A) (mat W) (row b) p q := by
  rw [maximumf_apply, head_apply, broadcast_apply]
  rfl

/-- The same, for the whole matrix at once and after the change of format that follows a hidden layer (the identity on
    the extended reals): the next layer's input matrix is the specification's layer of this layer's operands. -/
theorem layer_mat {φ₁ φ₂ ψ : FTy} (prec : Option ContractPrecision)
    (A : FVec Ideal ⟨2, ![M, K]⟩ φ₁) (W : FVec Ideal ⟨2, ![K, N]⟩ φ₂) (b : FVec Ideal ⟨2, ![1, N]⟩ .f32)
    (hb : (⟨2, ![1, N]⟩ : Shape).Broadcasts ⟨2, ![M, N]⟩) (hψ : ψ.bits < FTy.f32.bits) :
    mat (truncf ψ (maximumf (addf (FloatOps.matmul (DotDims.plain M K N) prec A W (constant ⟨2, ![M, N]⟩ .f32 0x00000000#32))
        (broadcastTo ⟨2, ![M, N]⟩ b hb))
        (broadcast ⟨2, ![M, N]⟩ (Scalar.ofBits (F := Ideal) .f32 0x00000000#32))) hψ)
      = Spec.layer (mat A) (mat W) (row b) :=
  funext fun p => funext fun q => layer_apply prec A W b hb p q

end Cert.Bridge.LayerAt

end
-- ==== Proof.KI_Value0.lean ====
/-
  The first kernel region's value on the extended reals. The region writes the output array tile by tile: grid point t
  writes rows 5000·t … 5000·t + 4999, each entry (p, q) of the tile being the contraction of row p of the x tile with
  column q of the weight matrix, plus the bias at q. Every row of the output lies in exactly one tile (row r in tile
  r / 5000), so after the region the output array at (p, q) is the sum over k of x[p, k] · W[k, q], plus b[q].
-/
import proofs.«116431_j21079699489214_1_alg».proof.Proof.KI_Region0
import proofs.«116431_j21079699489214_1_alg».proof.Proof.LibDenseLayer
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.HandValue

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, on the extended reals
variable (V : (c : Dev nD) → (b : Ref sig .tc) → Buf (Elt Ideal) ((c : Thread nD τ).loc b))

-- the extended reals' own product and sum, named so that a buffer's entry (whose type only unfolds to the extended
-- reals) is taken as an extended real
local infixl:70 " *ₑ " => @HMul.hMul EReal EReal EReal instHMul
local infixl:65 " +ₑ " => @HAdd.hAdd EReal EReal EReal instHAdd

theorem hz0 : (![0, 0] : Fin 2 → Nat) = fun _ => 0 := funext fun a => by fin_cases a <;> rfl

/-- The body's arithmetic at an entry of the tile: the changes of float format and the same-shape reshapes are the
    identity on the extended reals; what is left is the product into a zero accumulator plus the spread bias row. -/
theorem pay0_apply (x0 : Vec Ideal S5000x128 .f32) (x1 : Vec Ideal S128x256 .f32) (x2 : Vec Ideal S1x256 .f32)
    (p : Fin 5000) (q : Fin 256) :
    k0_pay1 x0 x1 x2 (ix2 p q) = (∑ k : Fin 128, x0 (ix2 p k) * x1 (ix2 k q)) + x2 (ix2 (0 : Fin 1) q) := by
  unfold k0_pay1
  refine (Cert.Bridge.LayerAt.head_apply (M := 5000) (K := 128) (N := 256) none (truncf .bf16 x0 bitsLt_bf16_f32)
    (truncf .bf16 (shapeCast S128x256 x1 shapeCasts_S128x256_S128x256) bitsLt_bf16_f32)
    (shapeCast S1x256 x2 shapeCasts_S1x256_S1x256) broadcasts_S1x256_S5000x256 p q).trans ?_
  rw [shapeCast_self, shapeCast_self]
  rfl

/-- The block index maps over the grid: the x tile and the output tile move down one tile per point; the weights and
    the bias stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The output array after the region, entry by entry. -/
def G0 (c : Dev nD) : S50000x256.Idx → EReal := fun i =>
  (∑ k : Fin 128, V c main_arg0 (ix2 (i 0 : Fin 50000) k) *ₑ V c main_v3 (ix2 k (i 1 : Fin 256)))
    +ₑ V c main_v2 (ix2 (0 : Fin 1) (i 1 : Fin 256))

/-- The x tile at point t is rows 5000·t … 5000·t + 4999 of x. -/
theorem iblk0_0_apply (c : Dev nD) (t : Fin cfg0.N) (x : S5000x128.Idx) (k : S50000x128.Idx)
    (hk0 : (k 0).val = 5000 * t.val + (x 0).val) (hk1 : (k 1).val = (x 1).val) :
    (Hand.iblk0 V c 0 t : Vec Ideal S5000x128 .f32) x = (V c main_arg0 : S50000x128.Idx → EReal) k := by
  obtain ⟨e0, e1, -⟩ := idx_facts0 t
  unfold Hand.iblk0
  rw [View.read_apply]
  show V c main_arg0 _ = V c main_arg0 _
  congr 1
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The weights' block at every point is the whole weight matrix. -/
theorem iblk0_1_apply (c : Dev nD) (t : Fin cfg0.N) (x : S128x256.Idx) :
    (Hand.iblk0 V c 1 t : Vec Ideal S128x256 .f32) x = (V c main_v3 : S128x256.Idx → EReal) x := by
  obtain ⟨-, -, e2, e3, -⟩ := idx_facts0 t
  unfold Hand.iblk0
  rw [View.read_apply]
  show V c main_v3 _ = V c main_v3 _
  congr 1
  funext a
  apply Fin.ext
  match a with
  | ⟨0, _⟩ => show win0_1.index t 0 * 128 + 1 * (x 0).val = (x 0).val; rw [e2]; omega
  | ⟨1, _⟩ => show win0_1.index t 1 * 256 + 1 * (x 1).val = (x 1).val; rw [e3]; omega

/-- The bias' block at every point is the whole bias row. -/
theorem iblk0_2_apply (c : Dev nD) (t : Fin cfg0.N) (x : S1x256.Idx) :
    (Hand.iblk0 V c 2 t : Vec Ideal S1x256 .f32) x = (V c main_v2 : S1x256.Idx → EReal) x := by
  obtain ⟨-, -, -, -, e4, e5, -⟩ := idx_facts0 t
  unfold Hand.iblk0
  rw [View.read_apply]
  show V c main_v2 _ = V c main_v2 _
  congr 1
  funext a
  apply Fin.ext
  match a with
  | ⟨0, _⟩ => show win0_2.index t 0 * 1 + 1 * (x 0).val = (x 0).val; rw [e4]; omega
  | ⟨1, _⟩ => show win0_2.index t 1 * 256 + 1 * (x 1).val = (x 1).val; rw [e5]; omega

/-- What point t writes back is tile t of the entry-by-entry function. -/
theorem flushed0_eq (c : Dev nD) (t : Fin cfg0.N) :
    (Hand.dat0 V c).flushed 3 t = ((cfg0.win 3).blk t).view.read (Elt Ideal) (G0 V c) := by
  show (cfg0.win 3).cut (grid0.coords t) ((Hand.dat0 V c).after 3 t) = _
  rw [Hand.after0_3]
  unfold Hand.out0_3
  rw [View.canon_unit_zero hz0]
  simp only [View.ld_unit_zero (S := S5000x128) hz0, View.ld_unit_zero (S := S128x256) hz0, View.ld_unit_zero (S := S1x256) hz0]
  funext j
  obtain ⟨p, q, rfl⟩ : ∃ (p : Fin 5000) (q : Fin 256), j = ix2 p q := ⟨j 0, j 1, eq_ix2 j⟩
  refine (pay0_apply _ _ _ p q).trans ?_
  rw [View.read_apply]
  obtain ⟨-, -, -, -, -, -, e6, e7⟩ := idx_facts0 t
  have ht : t.val < 10 := by have h := t.isLt; have h10 : cfg0.N = 10 := N_0; omega
  obtain ⟨r, hr⟩ : ∃ r : Fin 50000, r.val = 5000 * t.val + p.val := ⟨⟨5000 * t.val + p.val, by have := p.isLt; omega⟩, rfl⟩
  have hemb : ((cfg0.win 3).blk t).view.emb (ix2 p q) = ix2 r q := by
    funext a
    apply Fin.ext
    match a with
    | ⟨0, _⟩ => show win0_3.index t 0 * 5000 + 1 * p.val = r.val; rw [e6, hr]; omega
    | ⟨1, _⟩ => show win0_3.index t 1 * 256 + 1 * q.val = q.val; rw [e7]; omega
  rw [hemb]
  exact congrArg₂ _ (Finset.sum_congr rfl fun k _ =>
      congrArg₂ _ (iblk0_0_apply V c t (ix2 p k) (ix2 r k) hr rfl) (iblk0_1_apply V c t (ix2 k q)))
    (iblk0_2_apply V c t (ix2 (0 : Fin 1) q))

/-- An index of the output array is in point t's tile iff each coordinate is in the tile's range. -/
theorem mem_blk0 (t : Fin cfg0.N) (i : S50000x256.Idx) :
    i ∈ ((cfg0.win 3).blk t).view.set ↔ ∀ a : Fin 2, win0_3.index t a * S5000x256.size a ≤ (i a).val ∧ (i a).val < win0_3.index t a * S5000x256.size a + S5000x256.size a := by
  show i ∈ ((View.whole main_v4).slice (win0_3.rect t)).set ↔ _
  rw [View.set_slice_whole, Rect.mem_set_unit]
  exact Iff.rfl

/-- Row r of the output is written by point r / 5000. -/
theorem cover0 (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  obtain ⟨t, ht⟩ : ∃ t : Fin cfg0.N, t.val = (i 0).val / 5000 := ⟨⟨(i 0).val / 5000, by rw [show cfg0.N = 10 from N_0]; omega⟩, rfl⟩
  obtain ⟨-, -, -, -, -, -, e6, e7⟩ := idx_facts0 t
  refine ⟨t, flush0_3 t, ?_⟩
  rw [mem_blk0]
  intro a
  match a with
  | ⟨0, _⟩ => show win0_3.index t 0 * 5000 ≤ (i 0).val ∧ (i 0).val < win0_3.index t 0 * 5000 + 5000; rw [e6, ht]; omega
  | ⟨1, _⟩ => show win0_3.index t 1 * 256 ≤ (i 1).val ∧ (i 1).val < win0_3.index t 1 * 256 + 256; rw [e7]; omega

/-- The output array after the region is the entry-by-entry function. -/
theorem final0 (c : Dev nD) : (Hand.dat0 V c).arrAt 3 cfg0.N = G0 V c :=
  (Hand.dat0 V c).arrAt_eq_of_cover 3 (G0 V c) (fun t _ => flushed0_eq V c t) cover0

/-- The output array after the region, read at (p, q): row p of x contracted with column q of the weights, plus the
    bias at q. -/
theorem arr0_apply (c : Dev nD) (p : Fin 50000) (q : Fin 256) :
    (Hand.dat0 (F := Ideal) V c).arrAt 3 cfg0.N (ValueIdx.ix2 p q)
      = (∑ k : Fin 128, V c main_arg0 (ValueIdx.ix2 p k) *ₑ V c main_v3 (ValueIdx.ix2 k q)) +ₑ V c main_v2 (ValueIdx.ix2 (0 : Fin 1) q) := by
  rw [final0]
  rfl

end Cert.KernelIdeal.HandValue

end
-- ==== Proof.LibTileSum.lean ====
/- Regrouping a sum over n = a · b consecutive positions into a tiles of b, and the running sum over the tiles:
   only associativity and commutativity of + (any additive commutative monoid; used on the extended reals). -/
import Mathlib.Algebra.BigOperators.Fin
import Mathlib.Algebra.BigOperators.Intervals

open scoped BigOperators

namespace Cert.Lib.TileSum

variable {M : Type*} [AddCommMonoid M]

/-- Position c of tile j is below a · b. -/
theorem tile_lt {a b : ℕ} {j c : ℕ} (hj : j < a) (hc : c < b) : j * b + c < a * b :=
  calc j * b + c < j * b + b := Nat.add_lt_add_left hc _
    _ = (j + 1) * b := (Nat.succ_mul j b).symm
    _ ≤ a * b := Nat.mul_le_mul_right b hj

/-- The first a · b positions, tile by tile: position j · b + c is place c of tile j. -/
theorem sum_range_tiles (a b : ℕ) (h : ℕ → M) :
    ∑ i ∈ Finset.range (a * b), h i = ∑ j ∈ Finset.range a, ∑ c : Fin b, h (j * b + c.val) := by
  induction a with
  | zero => simp
  | succ a ih =>
    rw [Nat.succ_mul, Finset.sum_range_add, ih, Finset.sum_range_succ,
      Fin.sum_univ_eq_sum_range (fun x => h (a * b + x)) b]

/-- A sum over Fin (a · b) of a function of the position is the sum over the a tiles of the tile's b places. -/
theorem sum_tiles (a b : ℕ) (h : ℕ → M) :
    ∑ q : Fin (a * b), h q.val = ∑ j ∈ Finset.range a, ∑ c : Fin b, h (j * b + c.val) := by
  rw [Fin.sum_univ_eq_sum_range h (a * b)]; exact sum_range_tiles a b h

/-- The same over Fin n for n = a · b given as an equation (so that a literal n need not be spelt as a product). -/
theorem sum_tiles_of_eq (n a b : ℕ) (hn : n = a * b) (h : ℕ → M) :
    ∑ q : Fin n, h q.val = ∑ j ∈ Finset.range a, ∑ c : Fin b, h (j * b + c.val) := by
  subst hn; exact sum_tiles a b h

/-- The same with both sides indexed by Fin: f at place c of tile j is f at position j · b + c. -/
theorem sum_tiles_fin (n a b : ℕ) (hn : n = a * b) (f : Fin n → M) :
    ∑ q : Fin n, f q = ∑ j : Fin a, ∑ c : Fin b, f ⟨j.val * b + c.val, hn ▸ tile_lt j.isLt c.isLt⟩ := by
  subst hn
  have key := sum_tiles a b (fun i => if hi : i < a * b then f ⟨i, hi⟩ else 0)
  rw [← Fin.sum_univ_eq_sum_range (fun j => ∑ c : Fin b, (fun i => if hi : i < a * b then f ⟨i, hi⟩ else 0) (j * b + c.val)) a] at key
  refine (Finset.sum_congr rfl fun q _ => ?_).trans (key.trans (Finset.sum_congr rfl fun j _ => Finset.sum_congr rfl fun c _ => ?_))
  · rw [dif_pos q.isLt]
  · exact dif_pos (tile_lt j.isLt c.isLt)

/-- A running sum from z over a list of tiles, each tile's own sum started from z too, is z plus the tiles' sums,
    when z is the zero (as the zero word of a float format is, read as an extended real). -/
theorem foldl_tiles_list {ι : Type*} (z : M) (hz : z = 0) (G : ι → M) (L : List ι) :
    L.foldl (fun acc j => acc + (z + G j)) z = z + (L.map G).sum := by
  subst hz
  suffices H : ∀ acc : M, L.foldl (fun acc j => acc + (0 + G j)) acc = acc + (L.map G).sum from H 0
  induction L with
  | nil => intro acc; simp
  | cons j L ih => intro acc; rw [List.foldl_cons, ih, List.map_cons, List.sum_cons, zero_add, add_assoc]

/-- The running sum over the tiles 0 … a − 1 in order. -/
theorem foldl_tiles_range (z : M) (hz : z = 0) (a : ℕ) (G : ℕ → M) :
    (List.range a).foldl (fun acc j => acc + (z + G j)) z = z + ∑ j ∈ Finset.range a, G j := by
  rw [foldl_tiles_list z hz G, ← Fin.sum_univ_eq_sum_range G a, Fin.sum_univ_def,
    ← List.map_coe_finRange_eq_range, List.map_map]
  rfl

/-- The tiled running sum is the whole sum: folding, over the tiles j = 0 … a − 1, acc + (z + Σ_c h (j·b + c))
    from z gives z + Σ_q h q over all n = a · b positions. -/
theorem foldl_tiles (n a b : ℕ) (hn : n = a * b) (z : M) (hz : z = 0) (h : ℕ → M) :
    (List.range a).foldl (fun acc j => acc + (z + ∑ c : Fin b, h (j * b + c.val))) z = z + ∑ q : Fin n, h q.val := by
  rw [foldl_tiles_range z hz a (fun j => ∑ c : Fin b, h (j * b + c.val)), sum_tiles_of_eq n a b hn h]

end Cert.Lib.TileSum
-- ==== Proof.KI_Value1.lean ====
/-
  What the second kernel region leaves in its two output arrays, at the ideal values: for every entry contents V
  and core c, column q of the first output is the sum of column q of the aggregated array over its 50000 rows, and
  column q of the second the sum of the squares.

  The scratch rows after n points (`Hand.acc1`) are, column by column, the sums over the first n tiles of 5000
  rows (by induction on n: the zero rows, then one tile's column sums added per point; on the extended reals the
  accumulation is the plain sum, since + is associative and commutative there); the ten tiles regroup into the
  50000 rows; and the output arrays are written back once, at the last point, their one block being the whole
  array, with the scratch rows after the tenth point.
-/
import proofs.«116431_j21079699489214_1_alg».proof.Proof.KI_Region1
import proofs.«116431_j21079699489214_1_alg».proof.Proof.LibTileSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue.R1

open Cert.KernelIdeal Cert.KernelIdeal.Gen
open Idealize.ShloMosaic Idealize.ShloMosaic.TcCoe Idealize.SL.Sem
open Idealize.ShloMosaic.ValueIdx
open Idealize.ShloMosaic.Pipeline (Dat)
open scoped BigOperators

/-! ## The payloads at an index -/

/-- The zero row the first point stores reads 0 everywhere. -/
theorem pay1_apply (j : S1x128.Idx) : (k1_pay1 (F := Ideal)) j = 0 := by
  unfold k1_pay1
  rw [shapeCast_self, broadcast_apply]
  exact Ideal.ofBits_zero_f32

theorem pay2_apply (j : S1x128.Idx) : (k1_pay2 (F := Ideal)) j = 0 := by
  unfold k1_pay2
  rw [shapeCast_self, broadcast_apply]
  exact Ideal.ofBits_zero_f32

/-- Over lane q of the reduced row, the source index whose row is k: (k, q). -/
theorem lift_eq (h : S5000x128.Reduces [0] S128) (q : Fin 128) (k : Fin (S5000x128.size 0)) :
    h.lift (ix1 q) k = ix2 (n0 := 5000) k q := by
  funext a
  apply Fin.ext
  show h.liftVal (ix1 q) k.val a = (ix2 (n0 := 5000) (n1 := 128) k q a).val
  unfold Shape.Reduces.liftVal
  match a with
  | ⟨0, _⟩ => rfl
  | ⟨1, _⟩ => rfl

/-- A column sum of a tile as the reduction over axis 0 computes it. -/
theorem colsum_apply (y : FVec Ideal S5000x128 .f32) (h : S5000x128.Reduces [0] S128) (hφ : FKind.Formats .f32)
    (hacc : (0x00000000#32 : BitVec 32) = 0x00000000#32) (q : Fin 128) :
    multiReduction .add [0] S128 y 0x00000000#32 h hφ hacc (ix1 q) = ∑ r : Fin 5000, y (ix2 r q) :=
  (Ideal.multiReduction_add_single y 0x00000000#32 h hφ hacc (ix1 q)).trans
    (Finset.sum_congr rfl fun k _ => congrArg y (lift_eq h q k))

/-- One point's update of the first scratch row, at lane q: the row before plus the tile's column sum. -/
theorem pay4_apply (x : Vec Ideal S5000x128 .f32) (s : Vec Ideal S1x128 .f32) (q : Fin 128) :
    k1_pay4 x s (ix2 (0 : Fin 1) q) = s (ix2 (0 : Fin 1) q) + ∑ r : Fin 5000, x (ix2 r q) := by
  unfold k1_pay4 k1_pay3
  dsimp only
  rw [shapeCast_self, addf_apply, shapeCast_a_1a_apply, shapeCast_self, colsum_apply]

/-- And of the second: the row before plus the column sum of the squares. -/
theorem pay5_apply (x : Vec Ideal S5000x128 .f32) (s : Vec Ideal S1x128 .f32) (q : Fin 128) :
    k1_pay5 x s (ix2 (0 : Fin 1) q) = s (ix2 (0 : Fin 1) q) + ∑ r : Fin 5000, x (ix2 r q) * x (ix2 r q) := by
  unfold k1_pay5 k1_pay3
  dsimp only
  rw [shapeCast_self, addf_apply, shapeCast_a_1a_apply, shapeCast_self, colsum_apply]
  rfl

/-! ## The tiles -/

-- the TensorCore's buffer contents when the region is entered
variable (V : (c : Dev nD) → (b : Ref sig .tc) → Buf (Elt Ideal) ((c : Thread nD τ).loc b))

/-- The aggregated array on core c, read at an index. -/
abbrev agg (c : Dev nD) : S50000x128.Idx → EReal := V c main_v23

/-- The input window's block index at point t: t along the rows, 0 along the lanes. -/
theorem index1_0 : ∀ t : Fin cfg1.N, win1_0.index t 0 = t.val ∧ win1_0.index t 1 = 0 :=
  (by decide +kernel : ∀ t : Fin grid1.N, win1_0.index t 0 = t.val ∧ win1_0.index t 1 = 0)

/-- Row r of tile t is row 5000 t + r of the array. -/
theorem iblk_apply (c : Dev nD) (t : Fin cfg1.N) (r : Fin 5000) (q : Fin 128) (hr : t.val * 5000 + r.val < 50000) :
    (Hand.iblk1 V c 0 t : Vec Ideal S5000x128 .f32) (ix2 r q) = agg V c (ix2 ⟨t.val * 5000 + r.val, hr⟩ q) := by
  have hi := index1_0 t
  unfold Hand.iblk1
  rw [View.read_apply]
  show V c main_v23 _ = V c main_v23 _
  refine congrArg (V c main_v23) ?_
  funext a
  apply Fin.ext
  match a with
  | ⟨0, _⟩ => show win1_0.index t 0 * 5000 + 1 * r.val = t.val * 5000 + r.val; rw [hi.1]; omega
  | ⟨1, _⟩ => show win1_0.index t 1 * 128 + 1 * q.val = q.val; rw [hi.2]; omega

/-- Column q of the array by position, zero past its 50000 rows. -/
def col (c : Dev nD) (q : Fin 128) (i : ℕ) : EReal := if h : i < 50000 then agg V c (ix2 ⟨i, h⟩ q) else 0
/-- The same of the squares. -/
def colsq (c : Dev nD) (q : Fin 128) (i : ℕ) : EReal := if h : i < 50000 then agg V c (ix2 ⟨i, h⟩ q) * agg V c (ix2 ⟨i, h⟩ q) else 0

/-- The first scratch row after n points, at lane q: the sum of column q over the first n tiles. -/
theorem acc_sum (c : Dev nD) (q : Fin 128) : ∀ n, n ≤ 10 →
    (Hand.acc1 V c n).1 (ix2 (0 : Fin 1) q) = ∑ j ∈ Finset.range n, ∑ r : Fin 5000, col V c q (j * 5000 + r.val)
  | 0, _ => by rw [Hand.acc1_zero, Finset.sum_range_zero]; exact pay1_apply (ix2 (0 : Fin 1) q)
  | n + 1, hn => by
    have hN : n < cfg1.N := lt_of_lt_of_eq (show n < 10 by omega) (show cfg1.N = 10 from N_1).symm
    have e : Hand.acc1 V c (n + 1) = (k1_pay4 (Hand.iblk1 V c 0 ⟨n, hN⟩) (Hand.acc1 V c n).1, k1_pay5 (Hand.iblk1 V c 0 ⟨n, hN⟩) (Hand.acc1 V c n).2) :=
      Hand.acc1_succ V c ⟨n, hN⟩
    rw [e, Finset.sum_range_succ, ← acc_sum c q n (by omega)]
    show k1_pay4 _ _ (ix2 (0 : Fin 1) q) = _
    rw [pay4_apply]
    refine congrArg ((Hand.acc1 V c n).1 (ix2 (0 : Fin 1) q) + ·) ?_
    refine Finset.sum_congr rfl fun r _ => ?_
    have hr : n * 5000 + r.val < 50000 := by have := r.isLt; omega
    exact (iblk_apply V c ⟨n, hN⟩ r q hr).trans (by unfold col; rw [dif_pos hr])

/-- The second, likewise, of the squares. -/
theorem acc_sumsq (c : Dev nD) (q : Fin 128) : ∀ n, n ≤ 10 →
    (Hand.acc1 V c n).2 (ix2 (0 : Fin 1) q) = ∑ j ∈ Finset.range n, ∑ r : Fin 5000, colsq V c q (j * 5000 + r.val)
  | 0, _ => by rw [Hand.acc1_zero, Finset.sum_range_zero]; exact pay2_apply (ix2 (0 : Fin 1) q)
  | n + 1, hn => by
    have hN : n < cfg1.N := lt_of_lt_of_eq (show n < 10 by omega) (show cfg1.N = 10 from N_1).symm
    have e : Hand.acc1 V c (n + 1) = (k1_pay4 (Hand.iblk1 V c 0 ⟨n, hN⟩) (Hand.acc1 V c n).1, k1_pay5 (Hand.iblk1 V c 0 ⟨n, hN⟩) (Hand.acc1 V c n).2) :=
      Hand.acc1_succ V c ⟨n, hN⟩
    rw [e, Finset.sum_range_succ, ← acc_sumsq c q n (by omega)]
    show k1_pay5 _ _ (ix2 (0 : Fin 1) q) = _
    rw [pay5_apply]
    refine congrArg ((Hand.acc1 V c n).2 (ix2 (0 : Fin 1) q) + ·) ?_
    refine Finset.sum_congr rfl fun r _ => ?_
    have hr : n * 5000 + r.val < 50000 := by have := r.isLt; omega
    rw [iblk_apply V c ⟨n, hN⟩ r q hr]; unfold colsq; rw [dif_pos hr]

/-! ## The output arrays -/

/-- The two results: the scratch rows after the last point, as contents of the output arrays (each one block). -/
abbrev result1 (c : Dev nD) : Buf (Elt Ideal) ((c : Thread nD τ).loc main_v24_0) := (Hand.acc1 V c 10).1
abbrev result2 (c : Dev nD) : Buf (Elt Ideal) ((c : Thread nD τ).loc main_v24_1) := (Hand.acc1 V c 10).2

theorem after1_1' (c : Dev nD) (t : Fin cfg1.N) : (Hand.dat1 V c).after 1 t = (Hand.acc1 V c (t.val + 1)).1 := by dsimp only [Hand.dat1]
theorem after1_2' (c : Dev nD) (t : Fin cfg1.N) : (Hand.dat1 V c).after 2 t = (Hand.acc1 V c (t.val + 1)).2 := by dsimp only [Hand.dat1]

/-- The one write-back of the first output, at the last point, writes its result: block (0, 0) of the 1 × 128 array
    read through zero offsets is the array. -/
theorem flushed_eq1 (c : Dev nD) (t : Fin cfg1.N) (hf : (cfg1.win 1).flush t = true) :
    (Hand.dat1 V c).flushed 1 t = ((cfg1.win 1).blk t).view.read (Elt Ideal) (result1 V c) := by
  have hN : cfg1.N = 10 := N_1
  have h9 : t.val = 9 := by have := (flush1_1 t).mp hf; have := t.isLt; omega
  obtain rfl : t = t1_9 := Fin.ext h9
  show (cfg1.win 1).cut (grid1.coords t1_9) ((Hand.dat1 V c).after 1 t1_9) = _
  rw [after1_1']
  have hz' : (fun a => win1_1.index t1_9 a * main_v24_0.ty.shape.size a) = fun _ => 0 := funext fun a => by fin_cases a <;> decide
  exact (Memref.read_access_unit_zero (Elt Ideal) main_v24_0 hz' (fun a => by rw [congrFun hz' a]; simp) (result1 V c)).symm

theorem flushed_eq2 (c : Dev nD) (t : Fin cfg1.N) (hf : (cfg1.win 2).flush t = true) :
    (Hand.dat1 V c).flushed 2 t = ((cfg1.win 2).blk t).view.read (Elt Ideal) (result2 V c) := by
  have hN : cfg1.N = 10 := N_1
  have h9 : t.val = 9 := by have := (flush1_2 t).mp hf; have := t.isLt; omega
  obtain rfl : t = t1_9 := Fin.ext h9
  show (cfg1.win 2).cut (grid1.coords t1_9) ((Hand.dat1 V c).after 2 t1_9) = _
  rw [after1_2']
  have hz' : (fun a => win1_2.index t1_9 a * main_v24_1.ty.shape.size a) = fun _ => 0 := funext fun a => by fin_cases a <;> decide
  exact (Memref.read_access_unit_zero (Elt Ideal) main_v24_1 hz' (fun a => by rw [congrFun hz' a]; simp) (result2 V c)).symm

/-- So the first output array ends holding the first scratch row after the tenth point: the last point covers it. -/
theorem final1 (c : Dev nD) : (Hand.dat1 V c).arrAt 1 cfg1.N = result1 V c :=
  (Hand.dat1 V c).arrAt_eq_of_cover 1 (result1 V c) (flushed_eq1 V c) fun i =>
    ⟨t1_9, (flush1_1 t1_9).mpr rfl, by
      show i ∈ ((View.whole main_v24_0).slice (win1_1.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_1.index t1_9 0 * win1_1.size 0 ≤ (i 0 : Nat) ∧ (i 0 : Nat) < win1_1.index t1_9 0 * win1_1.size 0 + win1_1.xsize (grid1.coords t1_9) 0
                  rw [show win1_1.index t1_9 0 * win1_1.size 0 = 0 from by decide +kernel, show win1_1.xsize (grid1.coords t1_9) 0 = 1 from by decide +kernel]; omega
      | ⟨1, _⟩ => show win1_1.index t1_9 1 * win1_1.size 1 ≤ (i 1 : Nat) ∧ (i 1 : Nat) < win1_1.index t1_9 1 * win1_1.size 1 + win1_1.xsize (grid1.coords t1_9) 1
                  rw [show win1_1.index t1_9 1 * win1_1.size 1 = 0 from by decide +kernel, show win1_1.xsize (grid1.coords t1_9) 1 = 128 from by decide +kernel]; omega⟩

theorem final2 (c : Dev nD) : (Hand.dat1 V c).arrAt 2 cfg1.N = result2 V c :=
  (Hand.dat1 V c).arrAt_eq_of_cover 2 (result2 V c) (flushed_eq2 V c) fun i =>
    ⟨t1_9, (flush1_2 t1_9).mpr rfl, by
      show i ∈ ((View.whole main_v24_1).slice (win1_2.rect t1_9)).set
      rw [View.set_slice_whole, Rect.mem_set_unit]
      intro a
      have h0 : (i 0 : Nat) < 1 := (i 0).isLt
      have h1 : (i 1 : Nat) < 128 := (i 1).isLt
      match a with
      | ⟨0, _⟩ => show win1_2.index t1_9 0 * win1_2.size 0 ≤ (i 0 : Nat) ∧ (i 0 : Nat) < win1_2.index t1_9 0 * win1_2.size 0 + win1_2.xsize (grid1.coords t1_9) 0
                  rw [show win1_2.index t1_9 0 * win1_2.size 0 = 0 from by decide +kernel, show win1_2.xsize (grid1.coords t1_9) 0 = 1 from by decide +kernel]; omega
      | ⟨1, _⟩ => show win1_2.index t1_9 1 * win1_2.size 1 ≤ (i 1 : Nat) ∧ (i 1 : Nat) < win1_2.index t1_9 1 * win1_2.size 1 + win1_2.xsize (grid1.coords t1_9) 1
                  rw [show win1_2.index t1_9 1 * win1_2.size 1 = 0 from by decide +kernel, show win1_2.xsize (grid1.coords t1_9) 1 = 128 from by decide +kernel]; omega⟩

/-- Column q of the first output: the sum of column q of the aggregated array over its 50000 rows. -/
theorem arr1_sum (c : Dev nD) (q : Fin 128) :
    (Hand.dat1 (F := Ideal) V c).arrAt 1 cfg1.N (ValueIdx.ix2 (0 : Fin 1) q) = ∑ r : Fin 50000, agg V c (ValueIdx.ix2 r q) := by
  rw [final1]
  show (Hand.acc1 V c 10).1 (ix2 (0 : Fin 1) q) = _
  rw [acc_sum V c q 10 le_rfl, ← Cert.Lib.TileSum.sum_tiles_of_eq 50000 10 5000 (by norm_num) (col V c q)]
  exact Finset.sum_congr rfl fun r _ => dif_pos r.isLt

/-- Column q of the second: the sum of the squares. -/
theorem arr1_sumsq (c : Dev nD) (q : Fin 128) :
    (Hand.dat1 (F := Ideal) V c).arrAt 2 cfg1.N (ValueIdx.ix2 (0 : Fin 1) q)
      = ∑ r : Fin 50000, agg V c (ValueIdx.ix2 r q) * agg V c (ValueIdx.ix2 r q) := by
  rw [final2]
  show (Hand.acc1 V c 10).2 (ix2 (0 : Fin 1) q) = _
  rw [acc_sumsq V c q 10 le_rfl, ← Cert.Lib.TileSum.sum_tiles_of_eq 50000 10 5000 (by norm_num) (colsq V c q)]
  exact Finset.sum_congr rfl fun r _ => dif_pos r.isLt

end Cert.KernelIdeal.HandValue.R1

end
-- ==== Proof.KI_Value2.lean ====
/-
  The third kernel region's value on the extended reals. The region writes the output array tile by tile: grid point t
  writes rows 5000·t … 5000·t + 4999, each entry (p, q) of the tile being the aggregated entry normalised by the
  mean and variance rows at q, scaled and shifted by the γ and β rows at q, clamped below at zero, plus the residual
  entry. Every row of the output lies in exactly one tile (row r in tile r / 5000), so after the region the output
  array at (p, q) is max (((h[p, q] − mean[q]) · rsqrt (var[q] + ε)) · γ[q] + β[q], 0) + residual[p, q].
-/
import proofs.«116431_j21079699489214_1_alg».proof.Proof.KI_Region2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, on the extended reals
variable (V : (c : Dev nD) → (b : Ref sig .tc) → Buf (Elt Ideal) ((c : Thread nD τ).loc b))

-- the extended reals' own operations, named so that a buffer's entry (whose type only unfolds to the extended reals)
-- is taken as an extended real
local infixl:70 " *ₑ " => @HMul.hMul EReal EReal EReal instHMul
local infixl:65 " +ₑ " => @HAdd.hAdd EReal EReal EReal instHAdd
local infixl:65 " -ₑ " => @HSub.hSub EReal EReal EReal instHSub
local notation "maxₑ" => @max EReal _

theorem hz2 : (![0, 0] : Fin 2 → Nat) = fun _ => 0 := funext fun a => by fin_cases a <;> rfl

/-- The body's arithmetic at an entry of the tile: the same-shape reshapes are the identity, each of the four rows is
    spread over the tile's rows, and the rest acts entry by entry. -/
theorem pay2_apply (v0 : Vec Ideal S5000x128 .f32) (v2 v4 v6 v8 : Vec Ideal S1x128 .f32) (v23 : Vec Ideal S5000x128 .f32)
    (p : Fin 5000) (q : Fin 128) :
    k2_pay1 v0 v2 v4 v6 v8 v23 (ix2 p q)
      = max ((((v0 (ix2 p q) - v2 (ix2 (0 : Fin 1) q)) * Ideal.rsqrt (v4 (ix2 (0 : Fin 1) q) + Ideal.ofBits .f32 0x3727C5AC#32))
          * v6 (ix2 (0 : Fin 1) q)) + v8 (ix2 (0 : Fin 1) q)) (Ideal.ofBits .f32 0x00000000#32) + v23 (ix2 p q) := by
  unfold k2_pay1
  simp only [shapeCast_self]
  rw [addf_apply, maximumf_apply, addf_apply, mulf_apply, mulf_apply, subf_apply,
    broadcastTo_1b_ab_apply, broadcastTo_1b_ab_apply, broadcastTo_1b_ab_apply, broadcastTo_1b_ab_apply]
  rfl

/-- The block index maps over the grid: the two input tiles and the output tile move down one tile per point; the
    four rows stay. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The output array after the region, entry by entry. -/
def G2 (c : Dev nD) : S50000x128.Idx → EReal := fun i =>
  maxₑ ((((V c main_v23 (ix2 (i 0 : Fin 50000) (i 1 : Fin 128)) -ₑ V c main_v26 (ix2 (0 : Fin 1) (i 1 : Fin 128)))
      *ₑ Ideal.rsqrt (V c main_v30 (ix2 (0 : Fin 1) (i 1 : Fin 128)) +ₑ Ideal.ofBits .f32 0x3727C5AC#32))
      *ₑ V c main_v31 (ix2 (0 : Fin 1) (i 1 : Fin 128)))
      +ₑ V c main_v32 (ix2 (0 : Fin 1) (i 1 : Fin 128))) (Ideal.ofBits .f32 0x00000000#32)
    +ₑ V c main_v6 (ix2 (i 0 : Fin 50000) (i 1 : Fin 128))

/-- The aggregated tile at point t is rows 5000·t … 5000·t + 4999 of its array. -/
theorem iblk2_0_apply (c : Dev nD) (t : Fin cfg2.N) (x : S5000x128.Idx) (k : S50000x128.Idx)
    (hk0 : (k 0).val = 5000 * t.val + (x 0).val) (hk1 : (k 1).val = (x 1).val) :
    (Hand.iblk2 V c 0 t : Vec Ideal S5000x128 .f32) x = (V c main_v23 : S50000x128.Idx → EReal) k := by
  have e0 := (idx_facts2 t).1
  have e1 := (idx_facts2 t).2.1
  unfold Hand.iblk2
  rw [View.read_apply]
  show V c main_v23 _ = V c main_v23 _
  congr 1
  funext a
  apply Fin.ext
  match a with
  | ⟨0, _⟩ => show win2_0.index t 0 * 5000 + 1 * (x 0).val = (k 0).val; rw [e0, hk0]; omega
  | ⟨1, _⟩ => show win2_0.index t 1 * 128 + 1 * (x 1).val = (k 1).val; rw [e1, hk1]; omega

/-- The residual tile at point t is rows 5000·t … 5000·t + 4999 of its array. -/
theorem iblk2_1_apply (c : Dev nD) (t : Fin cfg2.N) (x : S5000x128.Idx) (k : S50000x128.Idx)
    (hk0 : (k 0).val = 5000 * t.val + (x 0).val) (hk1 : (k 1).val = (x 1).val) :
    (Hand.iblk2 V c 1 t : Vec Ideal S5000x128 .f32) x = (V c main_v6 : S50000x128.Idx → EReal) k := by
  have e0 := (idx_facts2 t).2.2.1
  have e1 := (idx_facts2 t).2.2.2.1
  unfold Hand.iblk2
  rw [View.read_apply]
  show V c main_v6 _ = V c main_v6 _
  congr 1
  funext a
  apply Fin.ext
  match a with
  | ⟨0, _⟩ => show win2_1.index t 0 * 5000 + 1 * (x 0).val = (k 0).val; rw [e0, hk0]; omega
  | ⟨1, _⟩ => show win2_1.index t 1 * 128 + 1 * (x 1).val = (k 1).val; rw [e1, hk1]; omega

/-- The mean row's block at every point is the whole row. -/
theorem iblk2_2_apply (c : Dev nD) (t : Fin cfg2.N) (x : S1x128.Idx) :
    (Hand.iblk2 V c 2 t : Vec Ideal S1x128 .f32) x = (V c main_v26 : S1x128.Idx → EReal) x := by
  have e0 := (idx_facts2 t).2.2.2.2.1
  have e1 := (idx_facts2 t).2.2.2.2.2.1
  unfold Hand.iblk2
  rw [View.read_apply]
  show V c main_v26 _ = V c main_v26 _
  congr 1
  funext a
  apply Fin.ext
  match a with
  | ⟨0, _⟩ => show win2_2.index t 0 * 1 + 1 * (x 0).val = (x 0).val; rw [e0]; omega
  | ⟨1, _⟩ => show win2_2.index t 1 * 128 + 1 * (x 1).val = (x 1).val; rw [e1]; omega

/-- The variance row's block at every point is the whole row. -/
theorem iblk2_3_apply (c : Dev nD) (t : Fin cfg2.N) (x : S1x128.Idx) :
    (Hand.iblk2 V c 3 t : Vec Ideal S1x128 .f32) x = (V c main_v30 : S1x128.Idx → EReal) x := by
  have e0 := (idx_facts2 t).2.2.2.2.2.2.1
  have e1 := (idx_facts2 t).2.2.2.2.2.2.2.1
  unfold Hand.iblk2
  rw [View.read_apply]
  show V c main_v30 _ = V c main_v30 _
  congr 1
  funext a
  apply Fin.ext
  match a with
  | ⟨0, _⟩ => show win2_3.index t 0 * 1 + 1 * (x 0).val = (x 0).val; rw [e0]; omega
  | ⟨1, _⟩ => show win2_3.index t 1 * 128 + 1 * (x 1).val = (x 1).val; rw [e1]; omega

/-- The γ row's block at every point is the whole row. -/
theorem iblk2_4_apply (c : Dev nD) (t : Fin cfg2.N) (x : S1x128.Idx) :
    (Hand.iblk2 V c 4 t : Vec Ideal S1x128 .f32) x = (V c main_v31 : S1x128.Idx → EReal) x := by
  have e0 := (idx_facts2 t).2.2.2.2.2.2.2.2.1
  have e1 := (idx_facts2 t).2.2.2.2.2.2.2.2.2.1
  unfold Hand.iblk2
  rw [View.read_apply]
  show V c main_v31 _ = V c main_v31 _
  congr 1
  funext a
  apply Fin.ext
  match a with
  | ⟨0, _⟩ => show win2_4.index t 0 * 1 + 1 * (x 0).val = (x 0).val; rw [e0]; omega
  | ⟨1, _⟩ => show win2_4.index t 1 * 128 + 1 * (x 1).val = (x 1).val; rw [e1]; omega

/-- The β row's block at every point is the whole row. -/
theorem iblk2_5_apply (c : Dev nD) (t : Fin cfg2.N) (x : S1x128.Idx) :
    (Hand.iblk2 V c 5 t : Vec Ideal S1x128 .f32) x = (V c main_v32 : S1x128.Idx → EReal) x := by
  have e0 := (idx_facts2 t).2.2.2.2.2.2.2.2.2.2.1
  have e1 := (idx_facts2 t).2.2.2.2.2.2.2.2.2.2.2.1
  unfold Hand.iblk2
  rw [View.read_apply]
  show V c main_v32 _ = V c main_v32 _
  congr 1
  funext a
  apply Fin.ext
  match a with
  | ⟨0, _⟩ => show win2_5.index t 0 * 1 + 1 * (x 0).val = (x 0).val; rw [e0]; omega
  | ⟨1, _⟩ => show win2_5.index t 1 * 128 + 1 * (x 1).val = (x 1).val; rw [e1]; omega

/-- What point t writes back is tile t of the entry-by-entry function. -/
theorem flushed2_eq (c : Dev nD) (t : Fin cfg2.N) :
    (Hand.dat2 V c).flushed 6 t = ((cfg2.win 6).blk t).view.read (Elt Ideal) (G2 V c) := by
  show (cfg2.win 6).cut (grid2.coords t) ((Hand.dat2 V c).after 6 t) = _
  rw [Hand.after2_6]
  unfold Hand.out2_6
  rw [View.canon_unit_zero hz2]
  simp only [View.ld_unit_zero (S := S5000x128) hz2, View.ld_unit_zero (S := S1x128) hz2]
  funext j
  obtain ⟨p, q, rfl⟩ : ∃ (p : Fin 5000) (q : Fin 128), j = ix2 p q := ⟨j 0, j 1, eq_ix2 j⟩
  refine (pay2_apply _ _ _ _ _ _ p q).trans ?_
  rw [View.read_apply]
  have e12 := (idx_facts2 t).2.2.2.2.2.2.2.2.2.2.2.2.1
  have e13 := (idx_facts2 t).2.2.2.2.2.2.2.2.2.2.2.2.2
  have ht : t.val < 10 := by have h := t.isLt; have h10 : cfg2.N = 10 := N_2; omega
  obtain ⟨r, hr⟩ : ∃ r : Fin 50000, r.val = 5000 * t.val + p.val := ⟨⟨5000 * t.val + p.val, by have := p.isLt; omega⟩, rfl⟩
  have hemb : ((cfg2.win 6).blk t).view.emb (ix2 p q) = ix2 r q := by
    funext a
    apply Fin.ext
    match a with
    | ⟨0, _⟩ => show win2_6.index t 0 * 5000 + 1 * p.val = r.val; rw [e12, hr]; omega
    | ⟨1, _⟩ => show win2_6.index t 1 * 128 + 1 * q.val = q.val; rw [e13]; omega
  rw [hemb]
  exact congrArg₂ _ (congrArg (fun z => maxₑ z (Ideal.ofBits .f32 0x00000000#32))
      (congrArg₂ _ (congrArg₂ _ (congrArg₂ _
            (congrArg₂ _ (iblk2_0_apply V c t (ix2 p q) (ix2 r q) hr rfl) (iblk2_2_apply V c t (ix2 (0 : Fin 1) q)))
            (congrArg (fun z => Ideal.rsqrt (z +ₑ Ideal.ofBits .f32 0x3727C5AC#32)) (iblk2_3_apply V c t (ix2 (0 : Fin 1) q))))
          (iblk2_4_apply V c t (ix2 (0 : Fin 1) q)))
        (iblk2_5_apply V c t (ix2 (0 : Fin 1) q))))
    (iblk2_1_apply V c t (ix2 p q) (ix2 r q) hr rfl)

/-- An index of the output array is in point t's tile iff each coordinate is in the tile's range. -/
theorem mem_blk2 (t : Fin cfg2.N) (i : S50000x128.Idx) :
    i ∈ ((cfg2.win 6).blk t).view.set ↔ ∀ a : Fin 2, win2_6.index t a * S5000x128.size a ≤ (i a).val ∧ (i a).val < win2_6.index t a * S5000x128.size a + S5000x128.size a := by
  show i ∈ ((View.whole main_v33).slice (win2_6.rect t)).set ↔ _
  rw [View.set_slice_whole, Rect.mem_set_unit]
  exact Iff.rfl

/-- Row r of the output is written by point r / 5000. -/
theorem cover2 (i : S50000x128.Idx) : ∃ t : Fin cfg2.N, (cfg2.win 6).flush t = true ∧ i ∈ ((cfg2.win 6).blk t).view.set := by
  have hi0 : (i 0).val < 50000 := (i 0).isLt
  have hi1 : (i 1).val < 128 := (i 1).isLt
  obtain ⟨t, ht⟩ : ∃ t : Fin cfg2.N, t.val = (i 0).val / 5000 := ⟨⟨(i 0).val / 5000, by rw [show cfg2.N = 10 from N_2]; omega⟩, rfl⟩
  have e12 := (idx_facts2 t).2.2.2.2.2.2.2.2.2.2.2.2.1
  have e13 := (idx_facts2 t).2.2.2.2.2.2.2.2.2.2.2.2.2
  refine ⟨t, flush2_6 t, ?_⟩
  rw [mem_blk2]
  intro a
  match a with
  | ⟨0, _⟩ => show win2_6.index t 0 * 5000 ≤ (i 0).val ∧ (i 0).val < win2_6.index t 0 * 5000 + 5000; rw [e12, ht]; omega
  | ⟨1, _⟩ => show win2_6.index t 1 * 128 ≤ (i 1).val ∧ (i 1).val < win2_6.index t 1 * 128 + 128; rw [e13]; omega

/-- The output array after the region is the entry-by-entry function. -/
theorem final2 (c : Dev nD) : (Hand.dat2 V c).arrAt 6 cfg2.N = G2 V c :=
  (Hand.dat2 V c).arrAt_eq_of_cover 6 (G2 V c) (fun t _ => flushed2_eq V c t) cover2

/-- The output array after the region, read at (p, q). -/
theorem arr2_apply (c : Dev nD) (p : Fin 50000) (q : Fin 128) :
    (Hand.dat2 (F := Ideal) V c).arrAt 6 cfg2.N (ValueIdx.ix2 p q)
      = maxₑ ((((V c main_v23 (ValueIdx.ix2 p q) -ₑ V c main_v26 (ValueIdx.ix2 (0 : Fin 1) q))
          *ₑ Ideal.rsqrt (V c main_v30 (ValueIdx.ix2 (0 : Fin 1) q) +ₑ Ideal.ofBits .f32 0x3727C5AC#32))
          *ₑ V c main_v31 (ValueIdx.ix2 (0 : Fin 1) q)) +ₑ V c main_v32 (ValueIdx.ix2 (0 : Fin 1) q))
          (Ideal.ofBits .f32 0x00000000#32) +ₑ V c main_v6 (ValueIdx.ix2 p q) := by
  rw [final2]
  rfl

end Cert.KernelIdeal.HandValue

end
-- ==== Proof.Spec.lean ====
/-
  The mathematics of one graph-convolution layer with batch normalisation, stated once over the extended reals,
  index by index, for both programs to be compared against.

  A node array is 50000 × 128. A linear layer is x · Wᵀ + b. The column statistics of an array h are its column
  sums and its column sums of squares; the mean is the column sum over 50000; the variance is written in its two
  textbook forms — the mean of squares minus the square of the mean, and the mean of squared deviations — which
  agree on finite columns. The normalised, scaled, shifted and clamped entry is
  max (((h − mean) · rsqrt (var + ε)) · γ + β, 0).
-/
import Idealize.ShloMosaic.PureOps.Ideal
import Idealize.ShloMosaic.Lib.ValueIdx

noncomputable section

namespace Cert.Spec

open Idealize.ShloMosaic Idealize.ShloMosaic.ValueIdx

/-- nodes × features -/
abbrev SN : Shape := ⟨2, ![50000, 128]⟩
/-- a square weight matrix, output feature × input feature -/
abbrev SW : Shape := ⟨2, ![128, 128]⟩
/-- a feature vector -/
abbrev SV : Shape := ⟨1, ![128]⟩

/-- The number of nodes as the f32 word both programs divide by (50000.0), and the batch-norm ε both add. -/
def n50000 : EReal := Ideal.ofBits .f32 0x47435000#32
def eps : EReal := Ideal.ofBits .f32 0x3727C5AC#32

/-- Entry (p, q) of the linear layer x · Wᵀ + b: the sum over the input features k of x[p,k] · W[q,k], plus b[q]. -/
def linAt (x : SN.Idx → EReal) (W : SW.Idx → EReal) (b : SV.Idx → EReal) (p : Fin 50000) (q : Fin 128) : EReal :=
  (∑ k : Fin 128, x (ix2 p k) * W (ix2 q k)) + b (ix1 q)

/-- The linear layer as an array. -/
def lin (x : SN.Idx → EReal) (W : SW.Idx → EReal) (b : SV.Idx → EReal) : SN.Idx → EReal :=
  fun i => linAt x W b (i 0) (i 1)

/-- Column q's sum and sum of squares over the 50000 rows. -/
def colSum (h : SN.Idx → EReal) (q : Fin 128) : EReal := ∑ r : Fin 50000, h (ix2 r q)
def colSumSq (h : SN.Idx → EReal) (q : Fin 128) : EReal := ∑ r : Fin 50000, h (ix2 r q) * h (ix2 r q)

/-- Column q's mean. -/
def mean (h : SN.Idx → EReal) (q : Fin 128) : EReal := Ideal.div (colSum h q) n50000

/-- The variance from running sums: the mean of the squares minus the square of the mean. -/
def varK (h : SN.Idx → EReal) (q : Fin 128) : EReal := Ideal.div (colSumSq h q) n50000 - mean h q * mean h q

/-- The variance in two passes: the mean of the squared deviations from the mean. -/
def varR (h : SN.Idx → EReal) (q : Fin 128) : EReal :=
  Ideal.div (∑ r : Fin 50000, (h (ix2 r q) - mean h q) * (h (ix2 r q) - mean h q)) n50000

/-- Entry (p, q) normalised with the variance `var`, scaled by γ, shifted by β and clamped at zero. -/
def norm (h : SN.Idx → EReal) (var : Fin 128 → EReal) (gamma beta : SV.Idx → EReal) (p : Fin 50000) (q : Fin 128) : EReal :=
  max ((((h (ix2 p q) - mean h q) * Ideal.rsqrt (var q + eps)) * gamma (ix1 q)) + beta (ix1 q)) 0

/-- An extended real that is a real number. -/
def IsFin (a : EReal) : Prop := a ≠ ⊤ ∧ a ≠ ⊥

end Cert.Spec

end
-- ==== Proof.SpecLaws.lean ====
/-
  Laws of the extended-real specification of the layer: the divisor word is the real 50000, finiteness is closed
  under the operations the layer uses, and on a column of finite entries the variance from running sums
  (mean of squares minus square of mean) is the two-pass variance (mean of squared deviations).
-/
import proofs.«116431_j21079699489214_1_alg».proof.Proof.Spec
import Idealize.ShloMosaic.PureOps.Ideal.Laws
import Mathlib.Tactic.Ring
import Mathlib.Tactic.NormNum
import Mathlib.Tactic.FieldSimp

noncomputable section

namespace Cert.Spec

open Idealize.ShloMosaic Idealize.ShloMosaic.ValueIdx

/-- The f32 word 0x47435000 has exponent field 142 and fraction 0x435000: (2²³ + 0x435000) · 2^(142 − 150) = 50000. -/
theorem n50000_eq : n50000 = ((50000 : ℝ) : EReal) := by
  unfold n50000
  simp [Ideal.ofBits, Ideal.ieee, -EReal.coe_mul]; norm_num

/-! ### Finite extended reals are the reals -/

theorem isFin_coe (r : ℝ) : IsFin (r : EReal) := ⟨EReal.coe_ne_top r, EReal.coe_ne_bot r⟩

theorem exists_real_of_isFin {a : EReal} (ha : IsFin a) : ∃ r : ℝ, a = (r : EReal) := by
  induction a using EReal.rec with
  | bot => exact absurd rfl ha.2
  | coe r => exact ⟨r, rfl⟩
  | top => exact absurd rfl ha.1

theorem isFin_add {a b : EReal} (ha : IsFin a) (hb : IsFin b) : IsFin (a + b) := by
  obtain ⟨x, rfl⟩ := exists_real_of_isFin ha
  obtain ⟨y, rfl⟩ := exists_real_of_isFin hb
  rw [← EReal.coe_add]; exact isFin_coe _

theorem isFin_mul {a b : EReal} (ha : IsFin a) (hb : IsFin b) : IsFin (a * b) := by
  obtain ⟨x, rfl⟩ := exists_real_of_isFin ha
  obtain ⟨y, rfl⟩ := exists_real_of_isFin hb
  rw [← EReal.coe_mul]; exact isFin_coe _

theorem isFin_zero' : IsFin (0 : EReal) := by
  rw [← EReal.coe_zero]; exact isFin_coe _

theorem isFin_sum {ι : Type} (s : Finset ι) (f : ι → EReal) (hf : ∀ i ∈ s, IsFin (f i)) :
    IsFin (∑ i ∈ s, f i) := by
  classical
  induction s using Finset.induction_on with
  | empty => rw [Finset.sum_empty]; exact isFin_zero'
  | insert a s ha ih =>
    rw [Finset.sum_insert ha]
    exact isFin_add (hf a (Finset.mem_insert_self a s))
      (ih (fun i hi => hf i (Finset.mem_insert_of_mem hi)))

theorem isFin_zero : IsFin (Ideal.ofBits .f32 0x00000000#32) := by
  rw [Ideal.ofBits_zero_f32]; exact isFin_zero'

theorem isFin_linAt (x : SN.Idx → EReal) (W : SW.Idx → EReal) (b : SV.Idx → EReal)
    (hx : ∀ i, IsFin (x i)) (hW : ∀ i, IsFin (W i)) (hb : ∀ i, IsFin (b i))
    (p : Fin 50000) (q : Fin 128) : IsFin (linAt x W b p q) := by
  unfold linAt
  exact isFin_add (isFin_sum _ _ (fun k _ => isFin_mul (hx _) (hW _))) (hb _)

theorem isFin_hostScatterAdd {s si su : Shape} (d : ScatterDims s si su) {w : Nat} (x : s.Idx → EReal)
    (idx : IVec si w) (upd : su.Idx → EReal) (hx : ∀ i, IsFin (x i)) (hu : ∀ j, IsFin (upd j)) :
    ∀ i, IsFin (Ideal.hostScatterAdd d x idx upd i) := by
  intro i
  unfold Ideal.hostScatterAdd
  exact isFin_add (hx i) (isFin_sum _ _ (fun j _ => hu j))

/-! ### The two variances -/

/-- The coercion of the reals into the extended reals commutes with finite sums. -/
theorem coe_sum {ι : Type} (s : Finset ι) (f : ι → ℝ) :
    (∑ i ∈ s, (f i : EReal)) = ((∑ i ∈ s, f i : ℝ) : EReal) := by
  classical
  induction s using Finset.induction_on with
  | empty => rw [Finset.sum_empty, Finset.sum_empty, EReal.coe_zero]
  | insert a s ha ih => rw [Finset.sum_insert ha, Finset.sum_insert ha, ih, EReal.coe_add]

/-- Σ (g − m)² = Σ g² − 2 m Σ g + 50000 m², over 50000 terms. -/
theorem sum_sq_dev (g : Fin 50000 → ℝ) (m : ℝ) :
    (∑ r : Fin 50000, (g r - m) * (g r - m))
      = (∑ r : Fin 50000, g r * g r) - 2 * m * (∑ r : Fin 50000, g r) + 50000 * (m * m) := by
  have h1 : ∀ r, (g r - m) * (g r - m) = g r * g r - 2 * m * g r + m * m := fun r => by ring
  simp only [h1]
  rw [Finset.sum_add_distrib, Finset.sum_sub_distrib, ← Finset.mul_sum, Finset.sum_const,
    Finset.card_univ, Fintype.card_fin, nsmul_eq_mul]
  push_cast
  ring

/-- The real identity E[g²] − μ² = E[(g − μ)²], with μ = (Σ g) / 50000 and E = (Σ ·) / 50000. -/
theorem real_var (g : Fin 50000 → ℝ) :
    (∑ r : Fin 50000, g r * g r) * (1 / 50000 : ℝ)
        - ((∑ r : Fin 50000, g r) * (1 / 50000 : ℝ)) * ((∑ r : Fin 50000, g r) * (1 / 50000 : ℝ))
      = (∑ r : Fin 50000, (g r - (∑ r : Fin 50000, g r) * (1 / 50000 : ℝ))
          * (g r - (∑ r : Fin 50000, g r) * (1 / 50000 : ℝ))) * (1 / 50000 : ℝ) := by
  rw [sum_sq_dev]
  ring

/-- On a column whose 50000 entries are all real numbers, the variance from running sums is the two-pass variance:
    every division is by the real 50000, so both sides are coercions of reals, and the reals satisfy the identity. -/
theorem varK_eq_varR (h : SN.Idx → EReal) (q : Fin 128)
    (hfin : ∀ r : Fin 50000, IsFin (h (ValueIdx.ix2 r q))) : varK h q = varR h q := by
  choose g hg using fun r => exists_real_of_isFin (hfin r)
  have h5 : (50000 : ℝ) ≠ 0 := by norm_num
  unfold varK varR mean colSum colSumSq
  simp only [hg, n50000_eq, Ideal.div_coe h5, ← EReal.coe_mul, coe_sum, ← EReal.coe_sub]
  rw [real_var]

end Cert.Spec

end
-- ==== Proof.KI_Host0.lean ====
/-
  The first stretch of host operations of the layer's program, read at an index, from any starting buffer contents W:
  the two 128 × 128 weight matrices are stacked along the rows and transposed into a 128 × 256 matrix, so that row k
  holds column k of the first matrix followed by column k of the second; the two bias vectors are joined into one row
  of 256.
-/
import proofs.«116431_j21079699489214_1_alg».proof.Proof.Gen.KernelIdeal.Launch
import proofs.«116431_j21079699489214_1_alg».proof.Proof.Spec
import proofs.«116431_j21079699489214_1_alg».proof.Proof.SpecLaws
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HandValue

open Idealize.ShloMosaic Idealize.ShloMosaic.TcCoe Idealize.SL.Sem
open Cert.KernelIdeal Cert.KernelIdeal.Gen
open Idealize.ShloMosaic.ValueIdx

/-! ## Stretch 0: the two weight matrices stacked and transposed, the two bias vectors joined as a row -/

section Layout0
variable {α : Type}

/-- Two 128 × 128 matrices stacked along the rows and transposed: row k, column q < 128 is entry (q, k) of the first. -/
theorem stackT_lo (A B : S128x128.Idx → α) (k q : Fin 128) :
    transpose S128x256 [1, 0] (concatenate S256x128 0 [⟨S128x128, A⟩, ⟨S128x128, B⟩] concatenates_S128x128_S128x128_S256x128_d0)
        transposes_S256x128_S128x256_1_0 (ix2 k (Fin.castLE (by decide : 128 ≤ 256) q)) = A (ix2 q k) := by
  refine (transpose_ix2_apply _ _ k (Fin.castLE (by decide : 128 ≤ 256) q)).trans ?_
  exact concatenate_pair_apply_left (t := S256x128) (s₁ := S128x128) (s₂ := S128x128) 0 A B
    concatenates_S128x128_S128x128_S256x128_d0 (ix2 (Fin.castLE (by decide : 128 ≤ 256) q) k) rfl (ix2 q k)
    (fun b => match b with | ⟨0, _⟩ => rfl | ⟨1, _⟩ => rfl)

/-- The same stack, row k, column 128 + q: entry (q, k) of the second matrix. -/
theorem stackT_hi (A B : S128x128.Idx → α) (k q : Fin 128) :
    transpose S128x256 [1, 0] (concatenate S256x128 0 [⟨S128x128, A⟩, ⟨S128x128, B⟩] concatenates_S128x128_S128x128_S256x128_d0)
        transposes_S256x128_S128x256_1_0 (ix2 k (⟨q.val + 128, by omega⟩ : Fin 256)) = B (ix2 q k) := by
  refine (transpose_ix2_apply _ _ k (⟨q.val + 128, by omega⟩ : Fin 256)).trans ?_
  exact concatenate_pair_apply_right (t := S256x128) (s₁ := S128x128) (s₂ := S128x128) 0 A B
    concatenates_S128x128_S128x128_S256x128_d0 (ix2 (⟨q.val + 128, by omega⟩ : Fin 256) k) rfl rfl (ix2 q k)
    (fun b hb => match b, hb with | ⟨0, _⟩, hb => absurd rfl hb | ⟨1, _⟩, _ => rfl) rfl

/-- Two vectors of 128 joined and cast to one row of 256: column q < 128 is entry q of the first. -/
theorem joinRow_lo (A B : S128.Idx → α) (q : Fin 128) :
    shapeCast S1x256 (concatenate S256 0 [⟨S128, A⟩, ⟨S128, B⟩] concatenates_S128_S128_S256_d0) shapeCasts_S256_S1x256
        (ix2 (0 : Fin 1) (Fin.castLE (by decide : 128 ≤ 256) q)) = A (ix1 q) := by
  refine (shapeCast_a_1a_apply _ _ (0 : Fin 1) (Fin.castLE (by decide : 128 ≤ 256) q)).trans ?_
  exact concatenate_pair_apply_left (t := S256) (s₁ := S128) (s₂ := S128) 0 A B
    concatenates_S128_S128_S256_d0 (ix1 (Fin.castLE (by decide : 128 ≤ 256) q)) rfl (ix1 q)
    (fun b => match b with | ⟨0, _⟩ => rfl)

/-- The same row, column 128 + q: entry q of the second vector. -/
theorem joinRow_hi (A B : S128.Idx → α) (q : Fin 128) :
    shapeCast S1x256 (concatenate S256 0 [⟨S128, A⟩, ⟨S128, B⟩] concatenates_S128_S128_S256_d0) shapeCasts_S256_S1x256
        (ix2 (0 : Fin 1) (⟨q.val + 128, by omega⟩ : Fin 256)) = B (ix1 q) := by
  refine (shapeCast_a_1a_apply _ _ (0 : Fin 1) (⟨q.val + 128, by omega⟩ : Fin 256)).trans ?_
  exact concatenate_pair_apply_right (t := S256) (s₁ := S128) (s₂ := S128) 0 A B
    concatenates_S128_S128_S256_d0 (ix1 (⟨q.val + 128, by omega⟩ : Fin 256)) rfl rfl (ix1 q)
    (fun b hb => match b, hb with | ⟨0, _⟩, hb => absurd rfl hb) rfl

end Layout0

theorem host0_v3_vec (W : Valuation τ sig (Elt Ideal)) :
    (StableHlo.after hostOps0 W (Proc.devRef .tc main_v3) : S128x256.Idx → EReal)
      = transpose S128x256 [1, 0] (concatenate S256x128 0 [⟨S128x128, (W (Proc.devRef .tc main_arg3) : S128x128.Idx → EReal)⟩, ⟨S128x128, (W (Proc.devRef .tc main_arg5) : S128x128.Idx → EReal)⟩] concatenates_S128x128_S128x128_S256x128_d0) transposes_S256x128_S128x256_1_0 := by
  show StableHlo.after hostOps0 W (Proc.devRef .tc main_v3) = _
  after_results

theorem host0_v2_vec (W : Valuation τ sig (Elt Ideal)) :
    (StableHlo.after hostOps0 W (Proc.devRef .tc main_v2) : S1x256.Idx → EReal)
      = shapeCast S1x256 (concatenate S256 0 [⟨S128, (W (Proc.devRef .tc main_arg4) : S128.Idx → EReal)⟩, ⟨S128, (W (Proc.devRef .tc main_arg6) : S128.Idx → EReal)⟩] concatenates_S128_S128_S256_d0) shapeCasts_S256_S1x256 := by
  show StableHlo.after hostOps0 W (Proc.devRef .tc main_v2) = _
  after_results
  rfl

/-- Row k of the transposed stack, in its first 128 columns, is column k of the first weight matrix. -/
theorem host0_v3 (W : Valuation τ sig (Elt Ideal)) (k : Fin 128) (q : Fin 128) :
    (StableHlo.after hostOps0 W (Proc.devRef .tc main_v3) : S128x256.Idx → EReal) (ix2 k (Fin.castLE (by decide : 128 ≤ 256) q))
      = (W (Proc.devRef .tc main_arg3) : S128x128.Idx → EReal) (ix2 q k) := by
  rw [host0_v3_vec]; exact stackT_lo _ _ k q

/-- Row k of the transposed stack, in its last 128 columns, is column k of the second weight matrix. -/
theorem host0_v3' (W : Valuation τ sig (Elt Ideal)) (k : Fin 128) (q : Fin 128) :
    (StableHlo.after hostOps0 W (Proc.devRef .tc main_v3) : S128x256.Idx → EReal) (ix2 k (⟨q.val + 128, by omega⟩ : Fin 256))
      = (W (Proc.devRef .tc main_arg5) : S128x128.Idx → EReal) (ix2 q k) := by
  rw [host0_v3_vec]; exact stackT_hi _ _ k q

/-- The joined bias row, in its first 128 columns, is the first bias vector. -/
theorem host0_v2 (W : Valuation τ sig (Elt Ideal)) (q : Fin 128) :
    (StableHlo.after hostOps0 W (Proc.devRef .tc main_v2) : S1x256.Idx → EReal) (ix2 (0 : Fin 1) (Fin.castLE (by decide : 128 ≤ 256) q))
      = (W (Proc.devRef .tc main_arg4) : S128.Idx → EReal) (ix1 q) := by
  rw [host0_v2_vec]; exact joinRow_lo _ _ q

/-- The joined bias row, in its last 128 columns, is the second bias vector. -/
theorem host0_v2' (W : Valuation τ sig (Elt Ideal)) (q : Fin 128) :
    (StableHlo.after hostOps0 W (Proc.devRef .tc main_v2) : S1x256.Idx → EReal) (ix2 (0 : Fin 1) (⟨q.val + 128, by omega⟩ : Fin 256))
      = (W (Proc.devRef .tc main_arg6) : S128.Idx → EReal) (ix1 q) := by
  rw [host0_v2_vec]; exact joinRow_hi _ _ q

end Cert.KernelIdeal.HandValue
end
-- ==== Proof.KI_Host1.lean ====
/-
  The second stretch of host operations, from any starting buffer contents W: the 50000 × 256 product is cut into its
  two column halves; the first half is gathered along the edges' source nodes (a negative node number wrapped by adding
  50000), multiplied by the edge weights and summed into the edges' destination nodes, starting from zeros. That whole
  chain is named as one function of the edge index array, the edge weights and the half it gathers from; what is proved
  about it is that the program computes it, and that it keeps finite arrays finite.
-/
import proofs.«116431_j21079699489214_1_alg».proof.Proof.Gen.KernelIdeal.Launch
import proofs.«116431_j21079699489214_1_alg».proof.Proof.Spec
import proofs.«116431_j21079699489214_1_alg».proof.Proof.SpecLaws
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HandValue

open Idealize.ShloMosaic Idealize.ShloMosaic.TcCoe Idealize.SL.Sem
open Cert.KernelIdeal Cert.KernelIdeal.Gen
open Idealize.ShloMosaic.ValueIdx

/-! ## Stretch 1: the two column halves of the first product, and the weighted neighbour sum of the first half -/

/-- Row r of the edge index array as a vector of 1600000 words: r = 0 the gathered nodes, r = 1 the scattered-to nodes. -/
def edgeRow0 (ei : IVec S2x1600000 32) : IVec S1600000 32 :=
  shapeCast S1600000 (extractStridedSlice S1x1600000 ![0, 0] ei slices_S2x1600000_S1x1600000_0_0) shapeCasts_S1x1600000_S1600000
def edgeRow1 (ei : IVec S2x1600000 32) : IVec S1600000 32 :=
  shapeCast S1600000 (extractStridedSlice S1x1600000 ![1, 0] ei slices_S2x1600000_S1x1600000_1_0) shapeCasts_S1x1600000_S1600000

/-- A vector of node numbers with each negative one wrapped by adding 50000. -/
def wrapNeg (v : IVec S1600000 32) : IVec S1600000 32 :=
  select (cmpi .slt v (broadcastInDim S1600000 ![] bcast_S_S1600000 (constantI S_ 32 0#32)))
    (addi v (broadcastInDim S1600000 ![] bcast_S_S1600000 (constantI S_ 32 50000#32))) v

/-- the printed operations main_v7 … main_v23 (slices and reshapes of the edge index array, the negative-index wrap,
    the gather of rows of sup, the product with the broadcast edge weights, the scatter-add into zeros) as ONE function
    of the edge index array, the edge weights and the support array. -/
def chainK (ei : IVec S2x1600000 32) (ew : FVec Ideal S1600000 .f32) (sup : FVec Ideal S50000x128 .f32) :
    FVec Ideal S50000x128 .f32 :=
  Host.scatterAdd (F := Ideal) scatter_S50000x128_S1600000x1_S1600000x128_1_0_0_1
    (broadcastInDim S50000x128 ![] bcast_S_S50000x128 (constant (F := Ideal) S_ .f32 0x00000000#32))
    (broadcastInDim S1600000x1 ![0] bcast_S1600000_S1600000x1_0 (edgeRow1 ei))
    (mulf (F := Ideal)
      (Host.gather gather_S50000x128_S1600000x1_S1600000x128_1_0_n_n_0_1_1128 sup
        (broadcastInDim S1600000x1 ![0] bcast_S1600000_S1600000x1_0 (wrapNeg (edgeRow0 ei))))
      (broadcastInDim S1600000x128 ![0, 1] bcast_S1600000x1_S1600000x128_0_1
        (broadcastInDim S1600000x1 ![0] bcast_S1600000_S1600000x1_0 ew)))

theorem host1_v23 (W : Valuation τ sig (Elt Ideal)) :
    (StableHlo.after hostOps1 W (Proc.devRef .tc main_v23) : S50000x128.Idx → EReal)
      = chainK (W (Proc.devRef .tc main_arg1)) (W (Proc.devRef .tc main_arg2))
          (extractStridedSlice S50000x128 ![0, 0] (W (Proc.devRef .tc main_v4) : S50000x256.Idx → EReal) slices_S50000x256_S50000x128_0_0) := by
  show StableHlo.after hostOps1 W (Proc.devRef .tc main_v23) = _
  after_results_simp
  unfold chainK edgeRow0 edgeRow1 wrapNeg
  rfl

theorem host1_v6_vec (W : Valuation τ sig (Elt Ideal)) :
    (StableHlo.after hostOps1 W (Proc.devRef .tc main_v6) : S50000x128.Idx → EReal)
      = extractStridedSlice S50000x128 ![0, 128] (W (Proc.devRef .tc main_v4) : S50000x256.Idx → EReal) slices_S50000x256_S50000x128_0_128 := by
  show StableHlo.after hostOps1 W (Proc.devRef .tc main_v6) = _
  after_results

/-- The first 128 columns of a 50000 × 256 array. -/
theorem slice_lo (x : FVec Ideal S50000x256 .f32) (p : Fin 50000) (q : Fin 128) :
    extractStridedSlice S50000x128 ![0, 0] x slices_S50000x256_S50000x128_0_0 (ix2 p q)
      = x (ix2 p (Fin.castLE (by decide : 128 ≤ 256) q)) :=
  slice2_axis1_apply 0 x slices_S50000x256_S50000x128_0_0 p q (Fin.castLE (by decide : 128 ≤ 256) q) (Nat.zero_add _).symm

/-- The last 128 columns of the first product. -/
theorem host1_v6 (W : Valuation τ sig (Elt Ideal)) (p : Fin 50000) (q : Fin 128) :
    (StableHlo.after hostOps1 W (Proc.devRef .tc main_v6) : S50000x128.Idx → EReal) (ix2 p q)
      = (W (Proc.devRef .tc main_v4) : S50000x256.Idx → EReal) (ix2 p (⟨q.val + 128, by omega⟩ : Fin 256)) := by
  rw [host1_v6_vec]
  exact slice2_axis1_apply 128 _ slices_S50000x256_S50000x128_0_128 p q (⟨q.val + 128, by omega⟩ : Fin 256) (Nat.add_comm _ _)

/-! ### Finiteness through the chain, one operation at a time, over arbitrary shapes -/

theorem isFin_constant_zero {s : Shape} : ∀ i, Cert.Spec.IsFin (constant (F := Ideal) s .f32 0x00000000#32 i) :=
  fun _ => Cert.Spec.isFin_zero

theorem isFin_broadcastInDim {s t : Shape} (dims : Fin s.rank → Fin t.rank) (h : s.BroadcastsInDim t dims) (x : s.Idx → EReal)
    (hx : ∀ i, Cert.Spec.IsFin (x i)) : ∀ j, Cert.Spec.IsFin (broadcastInDim t dims h x j) :=
  fun _ => hx _

theorem isFin_gather {s si t : Shape} {w : Nat} (d : GatherDims s si t) (x : s.Idx → EReal) (idx : IVec si w)
    (hx : ∀ i, Cert.Spec.IsFin (x i)) : ∀ j, Cert.Spec.IsFin (Host.gather d x idx j) :=
  fun _ => hx _

theorem isFin_mulf {s : Shape} (a b : FVec Ideal s .f32) (ha : ∀ i, Cert.Spec.IsFin (a i)) (hb : ∀ i, Cert.Spec.IsFin (b i)) :
    ∀ j, Cert.Spec.IsFin (mulf (F := Ideal) a b j) :=
  fun j => Cert.Spec.isFin_mul (ha j) (hb j)

theorem isFin_scatterAdd {s si su : Shape} {w : Nat} (d : ScatterDims s si su) (x : FVec Ideal s .f32) (idx : IVec si w)
    (upd : FVec Ideal su .f32) (hx : ∀ i, Cert.Spec.IsFin (x i)) (hu : ∀ j, Cert.Spec.IsFin (upd j)) :
    ∀ i, Cert.Spec.IsFin (Host.scatterAdd (F := Ideal) d x idx upd i) :=
  Cert.Spec.isFin_hostScatterAdd d x idx upd hx hu

/-- The weighted neighbour sum of a finite array with finite weights is finite: each gathered entry is an entry of the
    array, each product of two reals is a real, and each entry of the result is zero plus a finite sum of such products. -/
theorem isFin_chainK (ei : IVec S2x1600000 32) (ew : FVec Ideal S1600000 .f32) (sup : FVec Ideal S50000x128 .f32)
    (hew : ∀ i, Cert.Spec.IsFin (ew i)) (hsup : ∀ i, Cert.Spec.IsFin (sup i)) : ∀ i, Cert.Spec.IsFin (chainK ei ew sup i) := by
  unfold chainK
  exact isFin_scatterAdd _ _ _ _ (isFin_broadcastInDim _ _ _ isFin_constant_zero)
    (isFin_mulf _ _ (isFin_gather _ _ _ hsup) (isFin_broadcastInDim _ _ _ (isFin_broadcastInDim _ _ _ hew)))

end Cert.KernelIdeal.HandValue
end
-- ==== Proof.KI_Host2.lean ====
/-
  The third stretch of host operations, read at an index, from any starting buffer contents W: the column sums and the
  column sums of squares are divided by the word 50000.0, the variance is the second quotient less the square of the
  first, and the scale and shift vectors are cast to rows.
-/
import proofs.«116431_j21079699489214_1_alg».proof.Proof.Gen.KernelIdeal.Launch
import proofs.«116431_j21079699489214_1_alg».proof.Proof.Spec
import proofs.«116431_j21079699489214_1_alg».proof.Proof.SpecLaws
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.HandValue

open Idealize.ShloMosaic Idealize.ShloMosaic.TcCoe Idealize.SL.Sem
open Cert.KernelIdeal Cert.KernelIdeal.Gen
open Idealize.ShloMosaic.ValueIdx

/-! ## Stretch 2: the column sums divided by 50000, the variance from them, the scale and shift as rows -/

theorem host2_v26_vec (W : Valuation τ sig (Elt Ideal)) :
    (StableHlo.after hostOps2 W (Proc.devRef .tc main_v26) : S1x128.Idx → EReal)
      = Host.divf (F := Ideal) (W (Proc.devRef .tc main_v24_0) : S1x128.Idx → EReal)
          (broadcastInDim S1x128 ![] bcast_S_S1x128 (constant (F := Ideal) S_ .f32 0x47435000#32)) := by
  show StableHlo.after hostOps2 W (Proc.devRef .tc main_v26) = _
  after_results

theorem host2_v30_vec (W : Valuation τ sig (Elt Ideal)) :
    (StableHlo.after hostOps2 W (Proc.devRef .tc main_v30) : S1x128.Idx → EReal)
      = subf (F := Ideal)
          (Host.divf (F := Ideal) (W (Proc.devRef .tc main_v24_1) : S1x128.Idx → EReal)
            (broadcastInDim S1x128 ![] bcast_S_S1x128 (constant (F := Ideal) S_ .f32 0x47435000#32)))
          (mulf (F := Ideal)
            (Host.divf (F := Ideal) (W (Proc.devRef .tc main_v24_0) : S1x128.Idx → EReal)
              (broadcastInDim S1x128 ![] bcast_S_S1x128 (constant (F := Ideal) S_ .f32 0x47435000#32)))
            (Host.divf (F := Ideal) (W (Proc.devRef .tc main_v24_0) : S1x128.Idx → EReal)
              (broadcastInDim S1x128 ![] bcast_S_S1x128 (constant (F := Ideal) S_ .f32 0x47435000#32)))) := by
  show StableHlo.after hostOps2 W (Proc.devRef .tc main_v30) = _
  after_results

theorem host2_v31_vec (W : Valuation τ sig (Elt Ideal)) :
    (StableHlo.after hostOps2 W (Proc.devRef .tc main_v31) : S1x128.Idx → EReal)
      = shapeCast S1x128 (W (Proc.devRef .tc main_arg7) : S128.Idx → EReal) shapeCasts_S128_S1x128 := by
  show StableHlo.after hostOps2 W (Proc.devRef .tc main_v31) = _
  after_results
  rfl

theorem host2_v32_vec (W : Valuation τ sig (Elt Ideal)) :
    (StableHlo.after hostOps2 W (Proc.devRef .tc main_v32) : S1x128.Idx → EReal)
      = shapeCast S1x128 (W (Proc.devRef .tc main_arg8) : S128.Idx → EReal) shapeCasts_S128_S1x128 := by
  show StableHlo.after hostOps2 W (Proc.devRef .tc main_v32) = _
  after_results
  rfl

/-- An entry of a row divided by the broadcast word 50000.0 is that entry divided by 50000. -/
theorem divRow_apply (A : S1x128.Idx → EReal) (j : S1x128.Idx) :
    Host.divf (F := Ideal) (φ := .f32) A (broadcastInDim S1x128 ![] bcast_S_S1x128 (constant (F := Ideal) S_ .f32 0x47435000#32)) j
      = Ideal.div (A j) Cert.Spec.n50000 := rfl

/-- The first column sum over 50000: the mean. -/
theorem host2_v26 (W : Valuation τ sig (Elt Ideal)) (q : Fin 128) :
    (StableHlo.after hostOps2 W (Proc.devRef .tc main_v26) : S1x128.Idx → EReal) (ix2 (0 : Fin 1) q)
      = Ideal.div ((W (Proc.devRef .tc main_v24_0) : S1x128.Idx → EReal) (ix2 (0 : Fin 1) q)) Cert.Spec.n50000 := by
  rw [host2_v26_vec]; exact divRow_apply _ _

/-- The second column sum over 50000, less the square of the mean: the variance from running sums. -/
theorem host2_v30 (W : Valuation τ sig (Elt Ideal)) (q : Fin 128) :
    (StableHlo.after hostOps2 W (Proc.devRef .tc main_v30) : S1x128.Idx → EReal) (ix2 (0 : Fin 1) q)
      = Ideal.div ((W (Proc.devRef .tc main_v24_1) : S1x128.Idx → EReal) (ix2 (0 : Fin 1) q)) Cert.Spec.n50000
        - Ideal.div ((W (Proc.devRef .tc main_v24_0) : S1x128.Idx → EReal) (ix2 (0 : Fin 1) q)) Cert.Spec.n50000
          * Ideal.div ((W (Proc.devRef .tc main_v24_0) : S1x128.Idx → EReal) (ix2 (0 : Fin 1) q)) Cert.Spec.n50000 := by
  rw [host2_v30_vec, subf_apply, mulf_apply, divRow_apply, divRow_apply]

/-- The scale vector as a row. -/
theorem host2_v31 (W : Valuation τ sig (Elt Ideal)) (q : Fin 128) :
    (StableHlo.after hostOps2 W (Proc.devRef .tc main_v31) : S1x128.Idx → EReal) (ix2 (0 : Fin 1) q)
      = (W (Proc.devRef .tc main_arg7) : S128.Idx → EReal) (ix1 q) := by
  rw [host2_v31_vec]; exact shapeCast_a_1a_apply _ _ (0 : Fin 1) q

/-- The shift vector as a row. -/
theorem host2_v32 (W : Valuation τ sig (Elt Ideal)) (q : Fin 128) :
    (StableHlo.after hostOps2 W (Proc.devRef .tc main_v32) : S1x128.Idx → EReal) (ix2 (0 : Fin 1) q)
      = (W (Proc.devRef .tc main_arg8) : S128.Idx → EReal) (ix1 q) := by
  rw [host2_v32_vec]; exact shapeCast_a_1a_apply _ _ (0 : Fin 1) q

end Cert.KernelIdeal.HandValue
end
-- ==== Proof.KI_Host.lean ====
/-
  The three stretches of host operations of the layer's program, each read at an index from any starting buffer
  contents: the stacked and transposed weights and joined biases; the column halves and the weighted neighbour sum; the
  mean, the variance from running sums, and the scale and shift rows.
-/
import proofs.«116431_j21079699489214_1_alg».proof.Proof.KI_Host0
import proofs.«116431_j21079699489214_1_alg».proof.Proof.KI_Host1
import proofs.«116431_j21079699489214_1_alg».proof.Proof.KI_Host2
-- ==== Proof.KI_Value.lean ====
/-
  The kernel program's result, entry by entry, as a function of the nine argument arrays.

  Walking back from the last valuation: the result array is what the third region leaves, which at (p, q) is the
  normalised, scaled, shifted and clamped entry of the aggregated array h plus the residual entry; the mean and
  variance rows it reads are the second region's column sums over 50000, combined by the host as E[h²] − E[h]²;
  h itself is the edge aggregation of the left half of the first region's output, and the residual its right half;
  the first region's output at (p, q) is row p of x against column q of the stacked, transposed weights plus the
  stacked bias, so its left half is x·Wᵀ + b and its right half x·Wresᵀ + bres.
-/
import proofs.«116431_j21079699489214_1_alg».proof.Proof.KI_Run
import proofs.«116431_j21079699489214_1_alg».proof.Proof.KI_Value0
import proofs.«116431_j21079699489214_1_alg».proof.Proof.KI_Value1
import proofs.«116431_j21079699489214_1_alg».proof.Proof.KI_Value2
import proofs.«116431_j21079699489214_1_alg».proof.Proof.KI_Host
import proofs.«116431_j21079699489214_1_alg».proof.Proof.Spec
import proofs.«116431_j21079699489214_1_alg».proof.Proof.SpecLaws

set_option maxRecDepth 16384

noncomputable section

open scoped BigOperators

namespace Cert.KernelIdeal.HandValue

open Cert.KernelIdeal Cert.KernelIdeal.Gen
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

/-! ## An argument array is the launch memory's at every boundary -/

theorem B1_arg (c : Dev nD) (a : Ref sig .tc) (h1 : a ∉ hostOps0_W) :
    Hand.B1 m c (Proc.devRef .tc a) = m ((c : Thread nD τ).loc a) := (Hand.B1_of m c a h1).trans rfl

theorem B2_arg (c : Dev nD) (a : Ref sig .tc) (h1 : a ∉ hostOps0_W) (h2 : ∀ w, Pipeline.arrRef spec0 w ≠ a) :
    Hand.B2 m c (Proc.devRef .tc a) = m ((c : Thread nD τ).loc a) := (Hand.B2_of_ne m c a h2).trans (B1_arg m c a h1)

theorem B4_arg (c : Dev nD) (a : Ref sig .tc) (h1 : a ∉ hostOps0_W) (h2 : ∀ w, Pipeline.arrRef spec0 w ≠ a)
    (h3 : a ∉ hostOps1_W) (h4 : ∀ w, Pipeline.arrRef spec1 w ≠ a) :
    Hand.B4 m c (Proc.devRef .tc a) = m ((c : Thread nD τ).loc a) :=
  (Hand.B4_of_ne m c a h4).trans ((Hand.B3_of m c a h3).trans (B2_arg m c a h1 h2))

/-! ## The first region's output: the two linear layers side by side -/

/-- The left half of the first region's output at (p, q) is the entry of x·Wᵀ + b. -/
theorem v4_lo (c : Dev nD) (p : Fin 50000) (q : Fin 128) :
    Hand.B2 m c (Proc.devRef .tc main_v4) (ix2 p (Fin.castLE (by decide : 128 ≤ 256) q))
      = Cert.Spec.linAt (m ((c : Thread nD τ).loc main_arg0)) (m ((c : Thread nD τ).loc main_arg3)) (m ((c : Thread nD τ).loc main_arg4)) p q := by
  refine (congrFun (Hand.B2_arr m c 3) _).trans ?_
  refine (arr0_apply (Hand.E1 m) c p _).trans ?_
  unfold Cert.Spec.linAt
  refine congrArg₂ (· + ·) (Finset.sum_congr rfl fun k _ => congrArg₂ (· * ·) ?_ ?_) ?_
  · exact congrFun (B1_arg m c main_arg0 (by decide)) _
  · exact (host0_v3 (Hand.B0 m c) k q)
  · exact (host0_v2 (Hand.B0 m c) q)

/-- The right half of the first region's output at (p, q) is the entry of x·Wresᵀ + bres. -/
theorem v4_hi (c : Dev nD) (p : Fin 50000) (q : Fin 128) :
    Hand.B2 m c (Proc.devRef .tc main_v4) (ix2 p (⟨q.val + 128, by omega⟩ : Fin 256))
      = Cert.Spec.linAt (m ((c : Thread nD τ).loc main_arg0)) (m ((c : Thread nD τ).loc main_arg5)) (m ((c : Thread nD τ).loc main_arg6)) p q := by
  refine (congrFun (Hand.B2_arr m c 3) _).trans ?_
  refine (arr0_apply (Hand.E1 m) c p _).trans ?_
  unfold Cert.Spec.linAt
  refine congrArg₂ (· + ·) (Finset.sum_congr rfl fun k _ => congrArg₂ (· * ·) ?_ ?_) ?_
  · exact congrFun (B1_arg m c main_arg0 (by decide)) _
  · exact (host0_v3' (Hand.B0 m c) k q)
  · exact (host0_v2' (Hand.B0 m c) q)

/-! ## The aggregated array -/

/-- The aggregated array: the edge aggregation of x·Wᵀ + b. -/
def hK (c : Dev nD) : FVec Ideal S50000x128 .f32 :=
  chainK (m ((c : Thread nD τ).loc main_arg1)) (m ((c : Thread nD τ).loc main_arg2))
    (Cert.Spec.lin (m ((c : Thread nD τ).loc main_arg0)) (m ((c : Thread nD τ).loc main_arg3)) (m ((c : Thread nD τ).loc main_arg4)))

/-- What the second and third regions read as their input array. -/
theorem B3_v23 (c : Dev nD) : Hand.B3 m c (Proc.devRef .tc main_v23) = hK m c := by
  refine (host1_v23 (Hand.B2 m c)).trans ?_
  unfold hK
  rw [B2_arg m c main_arg1 (by decide) (by decide), B2_arg m c main_arg2 (by decide) (by decide)]
  refine congrArg _ (funext fun i => ?_)
  rw [eq_ix2 i]
  exact (slice_lo _ _ _).trans (v4_lo m c _ _)

theorem B4_v23 (c : Dev nD) : Hand.B4 m c (Proc.devRef .tc main_v23) = hK m c :=
  (Hand.B4_arr m c 0).trans ((((Hand.dat1 (Hand.E3 m) c).arrAt_in 0 rfl _).trans (Hand.A_eq1 (Hand.E3 m) c 0)).trans (B3_v23 m c))

theorem E5_v23 (c : Dev nD) : Hand.E5 m c main_v23 = hK m c :=
  (Hand.B5_of m c main_v23 (by decide)).trans (B4_v23 m c)

/-- The residual entry the third region reads. -/
theorem E5_v6 (c : Dev nD) (p : Fin 50000) (q : Fin 128) :
    Hand.E5 m c main_v6 (ix2 p q)
      = Cert.Spec.linAt (m ((c : Thread nD τ).loc main_arg0)) (m ((c : Thread nD τ).loc main_arg5)) (m ((c : Thread nD τ).loc main_arg6)) p q := by
  refine (congrFun ((Hand.B5_of m c main_v6 (by decide)).trans (Hand.B4_of_ne m c main_v6 (by decide))) _).trans ?_
  exact (host1_v6 (Hand.B2 m c) p q).trans (v4_hi m c p q)

/-! ## The column statistics -/

theorem B4_sum (c : Dev nD) (q : Fin 128) :
    Hand.B4 m c (Proc.devRef .tc main_v24_0) (ix2 (0 : Fin 1) q) = Cert.Spec.colSum (hK m c) q := by
  refine (congrFun (Hand.B4_arr m c 1) _).trans ?_
  refine (R1.arr1_sum (Hand.E3 m) c q).trans ?_
  have e : R1.agg (Hand.E3 m) c = hK m c := B3_v23 m c
  rw [e]
  rfl

theorem B4_sumsq (c : Dev nD) (q : Fin 128) :
    Hand.B4 m c (Proc.devRef .tc main_v24_1) (ix2 (0 : Fin 1) q) = Cert.Spec.colSumSq (hK m c) q := by
  refine (congrFun (Hand.B4_arr m c 2) _).trans ?_
  refine (R1.arr1_sumsq (Hand.E3 m) c q).trans ?_
  have e : R1.agg (Hand.E3 m) c = hK m c := B3_v23 m c
  rw [e]
  rfl

theorem E5_mean (c : Dev nD) (q : Fin 128) : Hand.E5 m c main_v26 (ix2 (0 : Fin 1) q) = Cert.Spec.mean (hK m c) q := by
  refine (host2_v26 (Hand.B4 m c) q).trans ?_
  unfold Cert.Spec.mean
  rw [B4_sum]

theorem E5_var (c : Dev nD) (q : Fin 128) : Hand.E5 m c main_v30 (ix2 (0 : Fin 1) q) = Cert.Spec.varK (hK m c) q := by
  refine (host2_v30 (Hand.B4 m c) q).trans ?_
  unfold Cert.Spec.varK Cert.Spec.mean
  rw [B4_sum, B4_sumsq]

theorem E5_gamma (c : Dev nD) (q : Fin 128) : Hand.E5 m c main_v31 (ix2 (0 : Fin 1) q) = m ((c : Thread nD τ).loc main_arg7) (ix1 q) :=
  (host2_v31 (Hand.B4 m c) q).trans (congrFun (B4_arg m c main_arg7 (by decide) (by decide) (by decide) (by decide)) _)

theorem E5_beta (c : Dev nD) (q : Fin 128) : Hand.E5 m c main_v32 (ix2 (0 : Fin 1) q) = m ((c : Thread nD τ).loc main_arg8) (ix1 q) :=
  (host2_v32 (Hand.B4 m c) q).trans (congrFun (B4_arg m c main_arg8 (by decide) (by decide) (by decide) (by decide)) _)

/-! ## The result -/

/-- The kernel program's result at (p, q): the normalised entry of the aggregated array, with the variance from the
    running sums, plus the residual entry. -/
theorem kernel_out (c : Dev nD) (p : Fin 50000) (q : Fin 128) :
    Hand.B6 m c (Proc.devRef .tc main_v33) (ix2 p q)
      = Cert.Spec.norm (hK m c) (Cert.Spec.varK (hK m c)) (m ((c : Thread nD τ).loc main_arg7)) (m ((c : Thread nD τ).loc main_arg8)) p q
        + Cert.Spec.linAt (m ((c : Thread nD τ).loc main_arg0)) (m ((c : Thread nD τ).loc main_arg5)) (m ((c : Thread nD τ).loc main_arg6)) p q := by
  refine (congrFun (Hand.B6_arr m c 6) _).trans ?_
  refine (arr2_apply (Hand.E5 m) c p q).trans ?_
  rw [E5_v6, E5_mean, E5_var, E5_gamma, E5_beta, E5_v23, Ideal.ofBits_zero_f32]
  rfl

end Cert.KernelIdeal.HandValue

end
-- ==== Proof.RefValue.lean ====
/-
  The reference's result read at an index. Stage by stage — the first linear layer, the column means, the deviations,
  the variance's divisor and selection, the normalised tail with the second linear layer — each composed array of
  the run is read at an index of the extended reals, against the textbook definitions; the message passing between
  the first layer and the statistics is carried as one function of its support and never opened.
-/
import proofs.«116431_j21079699489214_1_alg».proof.Proof.RefRun
import proofs.«116431_j21079699489214_1_alg».proof.Proof.Spec
import proofs.«116431_j21079699489214_1_alg».proof.Proof.LibMatmul
import Idealize.ShloMosaic.Lib.IdealHost
import Idealize.ShloMosaic.Lib.ValueLayout

noncomputable section

open scoped BigOperators

namespace Cert.ReferenceIdeal.HandValue

open Cert.ReferenceIdeal Cert.ReferenceIdeal.Gen Cert.ReferenceIdeal.HandRun Idealize.ShloMosaic Idealize.ShloMosaic.ValueIdx

/-! ### Broadcasts of a feature vector -/

section Layout

/-- A feature vector broadcast to a single row reads, at column q, its entry q. -/
theorem row_apply (v : S128.Idx → EReal) (z : Fin 1) (q : Fin 128) :
    broadcastInDim S1x128 ![1] bcast_S128_S1x128_1 v (ix2 z q) = v (ix1 q) :=
  broadcastInDim_apply _ _ v _ _ fun a => match a with | ⟨0, _⟩ => rfl

/-- A single row broadcast over the 50000 rows reads, at (p, q), the row's entry q. -/
theorem rows_apply (w : S1x128.Idx → EReal) (p : Fin 50000) (q : Fin 128) :
    broadcastInDim S50000x128 ![0, 1] bcast_S1x128_S50000x128_0_1 w (ix2 p q) = w (ix2 0 q) :=
  broadcastInDim_apply _ _ w _ _ fun a => match a with | ⟨0, _⟩ => rfl | ⟨1, _⟩ => rfl

end Layout

/-! ### The two constants -/

/-- The word both programs divide by is the real number 50000. -/
theorem n50000_eq : Cert.Spec.n50000 = ((50000 : ℝ) : EReal) := by
  unfold Cert.Spec.n50000
  simp [Ideal.ofBits, Ideal.ieee, -EReal.coe_mul]; norm_num

theorem n50000_pos : (0 : EReal) < Cert.Spec.n50000 := by
  rw [n50000_eq]; exact EReal.coe_pos.mpr (by norm_num)

/-! ### The operations at an index -/

/-- The host's reciprocal square root at an index. -/
theorem hostRsqrt_apply {s : Shape} {φ : FTy} (x : FVec Ideal s φ) (i : s.Idx) : Host.rsqrt x i = Ideal.rsqrt (x i) := rfl

/-- A column sum from the zero word: the sum over the 50000 rows. -/
theorem colsum_apply (h : S50000x128.Idx → EReal) (q : Fin 128) :
    Host.reduceAdd (F := Ideal) (φ := .f32) h (constant (F := Ideal) S_ .f32 0x00000000#32) reducesTo_S50000x128_S128_d0 h_S_ (ix1 q)
      = ∑ r : Fin 50000, h (ix2 r q) := by
  rw [hostReduceAdd_apply, Ideal.hostReduceAdd_single reducesTo_S50000x128_S128_d0 (by decide : S50000x128.Reduces [0] S128),
    constant_apply, Ideal.ofBits_zero_f32, zero_add]
  refine Finset.sum_congr rfl fun r _ => congrArg h ?_
  funext a
  refine Fin.ext ?_
  match a with
  | ⟨0, _⟩ => rfl
  | ⟨1, _⟩ => rfl

/-- A node array times a transposed-on-entry square matrix, at (p, q): the sum over k of L[p,k] · R[k,q]. -/
theorem dot_apply (L : S50000x128.Idx → EReal) (R : S128x128.Idx → EReal) (p : Fin 50000) (q : Fin 128) :
    Host.dotGeneral (F := Ideal) (φ₁ := .f32) (φ₂ := .f32) dot_S50000x128_S128x128_S50000x128_1_0_0_1_n_n none L R (ix2 p q)
      = ∑ k : Fin 128, L (ix2 p k) * R (ix2 k q) := by
  have hd : dot_S50000x128_S128x128_S50000x128_1_0_0_1_n_n = DotDims.plain 50000 128 128 := rfl
  rw [hd]
  exact Cert.Bridge.LibMatmul.dotGeneral_apply none .single L R p q

/-! ### The stages -/

/-- The first linear layer is the textbook one. -/
theorem linF_eq (a0 : (⟨S50000x128, .f32⟩ : BufTy).Contents (Elt Ideal)) (a3 : (⟨S128x128, .f32⟩ : BufTy).Contents (Elt Ideal)) (a4 : (⟨S128, .f32⟩ : BufTy).Contents (Elt Ideal)) :
    linF (F := Ideal) a0 a3 a4 = Cert.Spec.lin a0 a3 a4 := by
  funext i
  obtain ⟨p, q, rfl⟩ : ∃ p q, i = ix2 p q := ⟨i 0, i 1, eq_ix2 i⟩
  show _ = (∑ k : Fin 128, a0 (ix2 p k) * a3 (ix2 q k)) + a4 (ix1 q)
  unfold linF
  rw [addf_apply, rows_apply, row_apply]
  simp only [dot_apply, transpose_ix2_apply (α := EReal)]

/-- The column means. -/
theorem meanF_apply (h : S50000x128.Idx → EReal) (q : Fin 128) : meanF (F := Ideal) h (ix1 q) = Cert.Spec.mean h q := by
  unfold meanF Cert.Spec.mean Cert.Spec.colSum Cert.Spec.n50000
  simp only [hostDivf_apply, colsum_apply, broadcastInDim_scalar_apply (α := EReal), constant_apply]

/-- The deviations from the column means. -/
theorem devF_apply (h : S50000x128.Idx → EReal) (r : Fin 50000) (q : Fin 128) :
    devF (F := Ideal) h (ix2 r q) = h (ix2 r q) - Cert.Spec.mean h q := by
  unfold devF Cert.Spec.mean Cert.Spec.colSum Cert.Spec.n50000
  rw [subf_apply, rows_apply, hostDivf_apply, row_apply]
  simp only [colsum_apply, broadcastInDim_scalar_apply (α := EReal), constant_apply]

/-- The variance's divisor: the integer zero converts to the real zero, so it is 50000. -/
theorem dofF_apply (i : S_.Idx) : dofF (F := Ideal) i = Cert.Spec.n50000 := by
  unfold dofF Cert.Spec.n50000
  rw [subf_apply, constant_apply, sitofp_apply, constantI_apply]
  show Ideal.ofBits .f32 0x47435000#32 - (((0#32 : BitVec 32).toInt : ℝ) : EReal) = _
  have h0 : (0#32 : BitVec 32).toInt = 0 := by decide
  rw [h0, Int.cast_zero, EReal.coe_zero, sub_zero]

/-- The column variances: the divisor is positive, so the selection takes the quotient. -/
theorem varF_apply (h : S50000x128.Idx → EReal) (q : Fin 128) : varF (F := Ideal) h (ix1 q) = Cert.Spec.varR h q := by
  have hpos : Ideal.cmp .ogt Cert.Spec.n50000 0 = 1#1 := by
    unfold Ideal.cmp; simp [n50000_pos]
  unfold varF Cert.Spec.varR
  simp only [select_apply, broadcastInDim_scalar_apply (α := EReal), broadcastInDim_scalar_apply (α := BitVec 1), cmpf_apply, dofF_apply, constant_apply, Ideal.ofBits_zero_f32,
    Ideal.cmpf_def, hpos, select_one, hostDivf_apply, colsum_apply, mulf_apply, devF_apply]

/-- Everything after the message passing, at (p, q). -/
theorem postF_apply (h : S50000x128.Idx → EReal) (a0 : (⟨S50000x128, .f32⟩ : BufTy).Contents (Elt Ideal)) (a5 : (⟨S128x128, .f32⟩ : BufTy).Contents (Elt Ideal))
    (a6 a7 a8 : (⟨S128, .f32⟩ : BufTy).Contents (Elt Ideal)) (p : Fin 50000) (q : Fin 128) :
    postF (F := Ideal) h a0 a5 a6 a7 a8 (ix2 p q)
      = (Cert.Spec.norm h (Cert.Spec.varR h) a7 a8 p q + ∑ k : Fin 128, a0 (ix2 p k) * a5 (ix2 q k)) + a6 (ix1 q) := by
  unfold postF tailF Cert.Spec.norm Cert.Spec.eps
  simp only [addf_apply, maximumf_apply, mulf_apply, subf_apply]
  repeat rw [rows_apply]
  repeat rw [row_apply]
  simp only [broadcastInDim_scalar_apply (α := EReal), constant_apply, Ideal.ofBits_zero_f32, meanF_apply, varF_apply,
    hostRsqrt_apply, addf_apply, dot_apply, transpose_ix2_apply (α := EReal)]

/-- The reference's result at (p, q): the normalised, scaled, shifted and clamped entry of the message passing applied
    to the first linear layer, with its two-pass column variance, plus the second linear layer's entry. -/
theorem out_apply (a0 : (⟨S50000x128, .f32⟩ : BufTy).Contents (Elt Ideal)) (a1 : (⟨S2x1600000, .i32⟩ : BufTy).Contents (Elt Ideal)) (a2 : (⟨S1600000, .f32⟩ : BufTy).Contents (Elt Ideal))
    (a3 : (⟨S128x128, .f32⟩ : BufTy).Contents (Elt Ideal)) (a4 : (⟨S128, .f32⟩ : BufTy).Contents (Elt Ideal)) (a5 : (⟨S128x128, .f32⟩ : BufTy).Contents (Elt Ideal))
    (a6 a7 a8 : (⟨S128, .f32⟩ : BufTy).Contents (Elt Ideal)) (p : Fin 50000) (q : Fin 128) :
    out a0 a1 a2 a3 a4 a5 a6 a7 a8 (ix2 p q)
      = (Cert.Spec.norm (chain a1 a2 (Cert.Spec.lin a0 a3 a4)) (Cert.Spec.varR (chain a1 a2 (Cert.Spec.lin a0 a3 a4))) a7 a8 p q
          + ∑ k : Fin 128, a0 (ix2 p k) * a5 (ix2 q k)) + a6 (ix1 q) := by
  unfold out outF chain
  rw [linF_eq]
  exact postF_apply _ a0 a5 a6 a7 a8 p q

end Cert.ReferenceIdeal.HandValue

end
-- ==== Proof.Finite.lean ====
/-
  From the certificate's precondition to the finiteness of every float argument entry. The precondition is the
  conjunction, over the eight float arguments a, of all (|a| < +∞): each conjunct is a reduction by "and" of the
  entrywise comparison max a[i] (−a[i]) < ⊤, which holds exactly when a[i] is neither ⊤ nor ⊥.
-/
import proofs.«116431_j21079699489214_1_alg».proof.Defs
import proofs.«116431_j21079699489214_1_alg».proof.Proof.Gen.Pre_finite_inputs
import proofs.«116431_j21079699489214_1_alg».proof.Proof.Spec
import Idealize.ShloMosaic.Lib.ReduceAll

noncomputable section

namespace Cert.KernelIdeal.HandFinite

open Idealize.ShloMosaic Cert.Pre_finite_inputs

/-- The rank-0 shape has one index. -/
instance subsingleton_S_ : Subsingleton S_.Idx := ⟨fun a b => funext fun d => d.elim0⟩

/-- The f32 word 0x7F800000 (exponent all ones, fraction zero, sign clear) is +∞. -/
theorem ofBits_inf : Ideal.ofBits .f32 0x7F800000#32 = (⊤ : EReal) := by
  simp [Ideal.ofBits, Ideal.ieee]

/-- An extended real whose absolute value max x (−x) is below +∞ is a real: x < ⊤ excludes ⊤, and −x < ⊤ excludes ⊥. -/
theorem isFin_of_abs_lt (x : EReal)
    (h : Ideal.cmp .olt (max x (-x)) (Ideal.ofBits .f32 0x7F800000#32) = 1#1) : Cert.Spec.IsFin x := by
  rw [ofBits_inf] at h
  unfold Ideal.cmp at h
  have h' : max x (-x) < ⊤ := by
    by_contra hn
    simp [hn] at h
  rw [max_lt_iff] at h'
  refine ⟨ne_of_lt h'.1, ?_⟩
  rintro rfl
  simp at h'

/-- One conjunct of the precondition, read at an entry: the comparison of |a| against the broadcast +∞ is 1 at i, so
    a i is finite. -/
theorem isFin_of_cmp {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) :
    Cert.Spec.IsFin (a i) :=
  isFin_of_abs_lt (a i) h

/-- The precondition gives: every entry of every float argument is a real number. -/
theorem args_finite [Cert.Pre_finite_inputs.Facts]
    (a0 : FVec Ideal S50000x128 .f32) (a1 : IVec S2x1600000 32) (a2 : FVec Ideal S1600000 .f32)
    (a3 : FVec Ideal S128x128 .f32) (a4 : FVec Ideal S128 .f32) (a5 : FVec Ideal S128x128 .f32)
    (a6 : FVec Ideal S128 .f32) (a7 : FVec Ideal S128 .f32) (a8 : FVec Ideal S128 .f32)
    (h : Cert.Pre_finite_inputs.fn (F := Ideal) a0 a1 a2 a3 a4 a5 a6 a7 a8 = fun _ => 1#1) :
    (∀ i, Cert.Spec.IsFin (a0 i)) ∧ (∀ i, Cert.Spec.IsFin (a2 i)) ∧ (∀ i, Cert.Spec.IsFin (a3 i))
      ∧ (∀ i, Cert.Spec.IsFin (a4 i)) ∧ (∀ i, Cert.Spec.IsFin (a5 i)) ∧ (∀ i, Cert.Spec.IsFin (a6 i))
      ∧ (∀ i, Cert.Spec.IsFin (a7 i)) ∧ (∀ i, Cert.Spec.IsFin (a8 i)) := by
  have e := congrFun h ValueIdx.ix0
  dsimp only [Cert.Pre_finite_inputs.fn, Cert.Pre_finite_inputs.fn_part1, Cert.Pre_finite_inputs.fn_part2] at e
  simp only [andi, IntOp.andi_eq_one] at e
  obtain ⟨⟨⟨⟨⟨⟨⟨h0, h2⟩, h3⟩, h4⟩, h5⟩, h6⟩, h7⟩, h8⟩ := e
  exact ⟨fun i => isFin_of_cmp a0 _ i (Host.reduce_andi_all _ _ _ _ _ h0 i),
    fun i => isFin_of_cmp a2 _ i (Host.reduce_andi_all _ _ _ _ _ h2 i),
    fun i => isFin_of_cmp a3 _ i (Host.reduce_andi_all _ _ _ _ _ h3 i),
    fun i => isFin_of_cmp a4 _ i (Host.reduce_andi_all _ _ _ _ _ h4 i),
    fun i => isFin_of_cmp a5 _ i (Host.reduce_andi_all _ _ _ _ _ h5 i),
    fun i => isFin_of_cmp a6 _ i (Host.reduce_andi_all _ _ _ _ _ h6 i),
    fun i => isFin_of_cmp a7 _ i (Host.reduce_andi_all _ _ _ _ _ h7 i),
    fun i => isFin_of_cmp a8 _ i (Host.reduce_andi_all _ _ _ _ _ h8 i)⟩

end Cert.KernelIdeal.HandFinite

end
-- ==== Proof.Bridge.lean ====
/-
  The two programs end with the same result array.

  Entry (p, q) of the kernel program's result is the normalised entry of the aggregated array h, with the variance
  E[h²] − E[h]², plus the residual entry x·Wresᵀ + bres; entry (p, q) of the reference's is the normalised entry of the
  same h, with the variance E[(h − E[h])²], plus x·Wresᵀ, plus bres. Both aggregate the same array x·Wᵀ + b with the
  same operations. Every entry of h is a real number, because every input entry is: a finite sum of finite products
  plus a finite bias, gathered, scaled by a finite weight and summed finitely often. On finite columns the two
  variances agree; the rest is (a + s) + b = a + (s + b).
-/
import proofs.«116431_j21079699489214_1_alg».proof.Defs
import proofs.«116431_j21079699489214_1_alg».proof.Proof.KI_Value
import proofs.«116431_j21079699489214_1_alg».proof.Proof.RefValue
import proofs.«116431_j21079699489214_1_alg».proof.Proof.Finite
import proofs.«116431_j21079699489214_1_alg».proof.Proof.SpecLaws

set_option maxRecDepth 16384

noncomputable section

open scoped BigOperators

namespace Cert.Proof.Bridge

open Idealize.ShloMosaic Idealize.ShloMosaic.TcCoe Idealize.ShloMosaic.ValueIdx Idealize.SL.Sem
open Cert.Spec

/-- Both programs aggregate along the edges with the same operations. -/
theorem chain_eq (ei : IVec Cert.KernelIdeal.S2x1600000 32) (ew : FVec Ideal Cert.KernelIdeal.S1600000 .f32) (sup : FVec Ideal Cert.KernelIdeal.S50000x128 .f32) :
    Cert.KernelIdeal.HandValue.chainK ei ew sup = Cert.ReferenceIdeal.HandRun.chain ei ew sup := by
  rfl

variable (m : (ℓ : Loc Cert.KernelIdeal.nD Cert.KernelIdeal.τ Cert.KernelIdeal.sig) → Buf (Elt Ideal) ℓ)

/-- Under the precondition every entry of the aggregated array is a real number. -/
theorem hK_fin (hpre : Cert.Pre_KernelIdeal m) (c : Dev Cert.KernelIdeal.nD) : ∀ i, IsFin (Cert.KernelIdeal.HandValue.hK m c i) := by
  obtain ⟨h0, h2, h3, h4, h5, h6, h7, h8⟩ := Cert.KernelIdeal.HandFinite.args_finite _ _ _ _ _ _ _ _ _ (hpre c)
  exact Cert.KernelIdeal.HandValue.isFin_chainK _ _ _ h2 (fun i => isFin_linAt _ _ _ h0 h3 h4 _ _)

/-- The reference's result, of the kernel program's launch contents of the arguments, is the kernel program's. -/
theorem result_eq (hpre : Cert.Pre_KernelIdeal m) (c : Dev Cert.KernelIdeal.nD) :
    Cert.ReferenceIdeal.HandRun.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))
      = Cert.KernelIdeal.Hand.B6 m c (Proc.devRef .tc Cert.KernelIdeal.main_v33) := by
  funext i
  rw [eq_ix2 i]
  refine (Cert.ReferenceIdeal.HandValue.out_apply _ _ _ _ _ _ _ _ _ (i 0) (i 1)).trans ?_
  refine Eq.trans ?_ (Cert.KernelIdeal.HandValue.kernel_out m c (i 0) (i 1)).symm
  have hh : Cert.ReferenceIdeal.HandRun.chain (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (Cert.Spec.lin (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)))
      = Cert.KernelIdeal.HandValue.hK m c := (chain_eq _ _ _).symm
  rw [hh]
  have hv : Cert.Spec.varR (Cert.KernelIdeal.HandValue.hK m c) (i 1) = Cert.Spec.varK (Cert.KernelIdeal.HandValue.hK m c) (i 1) :=
    (varK_eq_varR _ _ fun r => hK_fin m hpre c _).symm
  unfold Cert.Spec.norm Cert.Spec.linAt
  rw [hv, add_assoc]

/-- From memories agreeing on the arguments both programs run to their ends with equal results and unchanged arguments. -/
theorem algebraic : Cert.algebraic_KernelIdeal_ReferenceIdeal := by
  intro m ρ m' ρ' hpre hagree
  refine ⟨fun c => Cert.KernelIdeal.Hand.B6 m c (Proc.devRef .tc Cert.KernelIdeal.main_v33), ?_, ?_⟩
  · refine (θ_run Cert.KernelIdeal.defs _ _).mono (fun r h c => ?_) (Cert.KernelIdeal.Hand.run_all m ρ)
    exact ⟨h c _ (Cert.KernelIdeal.Hand.mem_uc Cert.KernelIdeal.main_v33 (by decide)),
      (h c _ (Cert.KernelIdeal.Hand.mem_uc Cert.KernelIdeal.main_arg0 (by decide))).trans (Cert.KernelIdeal.Hand.B6_main_arg0 m c),
      (h c _ (Cert.KernelIdeal.Hand.mem_uc Cert.KernelIdeal.main_arg1 (by decide))).trans (Cert.KernelIdeal.Hand.B6_main_arg1 m c),
      (h c _ (Cert.KernelIdeal.Hand.mem_uc Cert.KernelIdeal.main_arg2 (by decide))).trans (Cert.KernelIdeal.Hand.B6_main_arg2 m c),
      (h c _ (Cert.KernelIdeal.Hand.mem_uc Cert.KernelIdeal.main_arg3 (by decide))).trans (Cert.KernelIdeal.Hand.B6_main_arg3 m c),
      (h c _ (Cert.KernelIdeal.Hand.mem_uc Cert.KernelIdeal.main_arg4 (by decide))).trans (Cert.KernelIdeal.Hand.B6_main_arg4 m c),
      (h c _ (Cert.KernelIdeal.Hand.mem_uc Cert.KernelIdeal.main_arg5 (by decide))).trans (Cert.KernelIdeal.Hand.B6_main_arg5 m c),
      (h c _ (Cert.KernelIdeal.Hand.mem_uc Cert.KernelIdeal.main_arg6 (by decide))).trans (Cert.KernelIdeal.Hand.B6_main_arg6 m c),
      (h c _ (Cert.KernelIdeal.Hand.mem_uc Cert.KernelIdeal.main_arg7 (by decide))).trans (Cert.KernelIdeal.Hand.B6_main_arg7 m c),
      (h c _ (Cert.KernelIdeal.Hand.mem_uc Cert.KernelIdeal.main_arg8 (by decide))).trans (Cert.KernelIdeal.Hand.B6_main_arg8 m c)⟩
  · refine (θ_run Cert.ReferenceIdeal.defs _ _).mono (fun r h c => ⟨(h c).1.trans ?_, (h c).2⟩) (Cert.ReferenceIdeal.HandRun.run m' ρ')
    rw [(hagree c).1, (hagree c).2.1, (hagree c).2.2.1, (hagree c).2.2.2.1, (hagree c).2.2.2.2.1, (hagree c).2.2.2.2.2.1,
      (hagree c).2.2.2.2.2.2.1, (hagree c).2.2.2.2.2.2.2.1, (hagree c).2.2.2.2.2.2.2.2]
    exact result_eq m hpre c

end Cert.Proof.Bridge

end
-- ==== Proof.lean ====
/-
  One graph-convolution layer with batch normalisation: the tiled kernel program against its plain reference.

  Both programs project the node features x through a linear layer (the kernel fuses the two projections x·Wᵀ + b
  and x·Wresᵀ + bres into one product with the stacked weights and splits the result's columns), aggregate the
  projected rows along the edges — gather the source rows, scale by the edge weights, add into the destination
  rows: the same operations on both sides, carried as one function —, normalise every column with its batch mean
  and variance, scale by γ, shift by β, clamp at zero, and add the residual projection.

  The two differ in how the column variance is computed: the kernel accumulates column sums and column sums of
  squares over ten row tiles and forms E[h²] − E[h]², the reference takes the mean of the squared deviations
  E[(h − E[h])²]. On the extended reals the two agree where every entry of the column is a real number, which the
  finiteness of the inputs gives: a finite sum of finite products is finite. Everywhere else only associativity and
  commutativity of the sum are used (the order of the tiles; (a + s) + b = a + (s + b)).

  Each of the three frames says that the program runs to its end, faults nowhere and leaves its nine argument arrays
  as it found them. The kernel program is three tiled regions between stretches of whole-array operations: between
  two items every buffer is held at a named valuation, each region's body is run once at a symbolic grid point, and
  the second region's two scratch rows carry the running sums from point to point.
-/
import proofs.«116431_j21079699489214_1_alg».proof.Defs
import proofs.«116431_j21079699489214_1_alg».proof.Proof.Gen.Kernel
import proofs.«116431_j21079699489214_1_alg».proof.Proof.Gen.KernelIdeal
import proofs.«116431_j21079699489214_1_alg».proof.Proof.Gen.ReferenceIdeal
import proofs.«116431_j21079699489214_1_alg».proof.Proof.Gen.Pre_finite_inputs
import proofs.«116431_j21079699489214_1_alg».proof.Proof.K_Run
import proofs.«116431_j21079699489214_1_alg».proof.Proof.KI_Run
import proofs.«116431_j21079699489214_1_alg».proof.Proof.RefRun
import proofs.«116431_j21079699489214_1_alg».proof.Proof.Bridge
import Idealize.ShloMosaic.Adequacy
import Idealize.ShloMosaic.Init

noncomputable section

namespace Cert.Proof

open Idealize.ShloMosaic Idealize.SL.Sem

/-- The word-level kernel program runs to its end and leaves its arguments unchanged. -/
theorem frame_k : Cert.frame_Kernel := fun m ρ _ => Cert.Kernel.Hand.frame m ρ

/-- So does the idealized kernel program (the same text read over the extended reals). -/
theorem frame_ki : Cert.frame_KernelIdeal := fun m ρ _ => Cert.KernelIdeal.Hand.frame m ρ

/-- The reference is a straight line of whole-array operations: its run with the result dropped. -/
theorem frame_ri : Cert.frame_ReferenceIdeal := fun m ρ _ =>
  (θ_run Cert.ReferenceIdeal.defs _ _).mono (fun _ h c => (h c).2) (Cert.ReferenceIdeal.HandRun.run m ρ)

/-- The idealization rewrote nothing: the idealized kernel is the kernel's own text. -/
theorem preserves : Cert.preserves_Kernel_KernelIdeal := trivial

/-- Both programs end with the same result array, entry by entry, as extended reals. -/
theorem algebraic : Cert.algebraic_KernelIdeal_ReferenceIdeal := Cert.Proof.Bridge.algebraic

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
